-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg5 : FVec F S128 .f32) (main_arg6 : FVec F S128 .f32) (main_arg7 : FVec F S128x3 .f32) (main_arg8 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x3 .f32 := Host.absf main_arg7
  let main_cst_10 : FVec F S_ .f32 := constant S_ .f32 0x7F800000#32
  let main_v30 : FVec F S128x3 .f32 := broadcastInDim S128x3 ![] bcast_S_S128x3 main_cst_10
  let main_v31 : IVec S128x3 1 := cmpf .olt main_v29 main_v30
  let main_c_11 : IVec S_ 1 := constantI S_ 1 1#1
  let main_v32 : IVec S_ 1 := (fun x v => Host.reduce IntOp.andi x v reducesTo_S128x3_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128 .f32) (main_arg6 : FVec F S128 .f32) (main_arg7 : FVec F S128x3 .f32) (main_arg8 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S2000x128 : Shape := ⟨2, ![2000, 128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x3 : Shape := ⟨2, ![1, 3]⟩
abbrev S50000x3 : Shape := ⟨2, ![50000, 3]⟩
abbrev S2000x3 : Shape := ⟨2, ![2000, 3]⟩

abbrev nBuf : Space → Nat
  | .hbm => 88
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S50000x128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S50000, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x3, .f32⟩
  | .hbm, ⟨87, _⟩ => ⟨S50000x3, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x3, .f32⟩
  | .local _ .vmem, ⟨18, _⟩ => ⟨S1x3, .f32⟩
  | .local _ .vmem, ⟨19, _⟩ => ⟨S2000x3, .f32⟩
  | .local _ .vmem, ⟨20, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem7_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  reduces_S2000x128_S128 : S2000x128.Reduces [0] S128
  shapeCasts_S128_S1x128 : S128.ShapeCasts S1x128
  bcast_S_S1x128 : S_.BroadcastsInDim S1x128 (![] : Fin 0 → Fin S1x128.rank)
  shapeCasts_S3_S1x3 : S3.ShapeCasts S1x3
  broadcasts_S1x128_S2000x128 : S1x128.Broadcasts S2000x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x3.size a ≤ S128x3.size a
  hwx2_5 : ∀ i : grid2.Coords, EltTy.bits .f32 = 32 ∨ (Rect.block (s := S128x3) S128x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x3.size a ≤ S1x3.size a
  hwx2_6 : ∀ i : grid2.Coords, EltTy.bits .f32 = 32 ∨ (Rect.block (s := S1x3) S1x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x3.size a ≤ S50000x3.size a
  hwx2_7 : ∀ i : grid2.Coords, EltTy.bits .f32 = 32 ∨ (Rect.block (s := S50000x3) S2000x3.size (cc2_transform_7 i) (hinb2_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S2000x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x3 : Shape := ⟨2, ![50000, 3]⟩
abbrev S1x3 : Shape := ⟨2, ![1, 3]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S50000x3, .f32⟩
  | .hbm, ⟨105, _⟩ => ⟨S1x3, .f32⟩
  | .hbm, ⟨106, _⟩ => ⟨S50000x3, .f32⟩
  | .hbm, ⟨107, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x3_S50000x3_1_0_0_1_n_n_wf : DotDims.WF S50000x128 S128x3 S50000x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.K.Region0.lean ====
/- Region 0 of the program: the first matrix product, h0 = x · conv_w, computed in 25 row blocks of 2000 rows.
   At each grid point the body reads the current 2000×128 block of x and the whole 128×128 weight matrix,
   multiplies them into a zero accumulator and overwrites the 2000×128 output block with the product.
   This file states, for arbitrary contents `V` of the core's buffers at the moment the region is entered,
   what every staging buffer holds after the body at each point, and proves that the body really leaves it there. -/
import proofs.«181423_j46755013984832_1_alg».proof.Proof.Gen.Kernel.Launch
import proofs.«181423_j46755013984832_1_alg».proof.Proof.Gen.Kernel.Skeleton
import proofs.«181423_j46755013984832_1_alg».proof.Proof.Gen.Kernel.Points
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what each of the core's buffers holds when the region starts
variable (V : (c : Dev nD) → (b : Ref sig .tc) → Buf (Elt F) ((c : Thread nD τ).loc b))

/-- The part of window `w`'s array that point `t` works on: rows 2000·t … 2000·t+1999 of x (window 0) or of
    the result (window 2), and the whole weight matrix (window 1) at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2000×128 staging buffer as one rectangle: offset (0,0), full extent. -/
abbrev whole0_rows : Rect S2000x128 := Rect.unit (s := S2000x128) ![0, 0] S2000x128.size inb_S2000x128_S2000x128_0_0
/-- The whole 128×128 weight buffer as one rectangle. -/
abbrev whole0_wts : Rect S128x128 := Rect.unit (s := S128x128) ![0, 0] S128x128.size inb_S128x128_S128x128_0_0

/-- The output block after the body, as a function of the x block and the weights: the single store writes the
    product of the two loaded rectangles over the whole buffer. -/
def out0_2 (x0 : Vec F S2000x128 .f32) (x1 : Vec F S128x128 .f32) : Vec F S2000x128 .f32 :=
  View.canon [⟨whole0_rows, k0_pay1 (View.ld x0 whole0_rows) (View.ld x1 whole0_wts)⟩]

/-- The one store reaches every entry of the output buffer. -/
theorem covers0_2 (p0 : Vec F S2000x128 .f32) (y : S2000x128.Idx) :
    ∃ pc ∈ ([⟨whole0_rows, p0⟩] : List (View.Piece (Elt F) S2000x128 .f32)), y ∈ pc.1.set :=
  View.cover_of_tiled [⟨whole0_rows, p0⟩] S2000x128.size (by rfl) y

set_option maxHeartbeats 1000000 in
/-- Running the body on three whole staging buffers — the two inputs holding `x0` and `x1`, the output holding
    anything — ends with the inputs unchanged and the output at `out0_2 x0 x1`. -/
theorem body_run0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0_2 _)

/-- An input window's current staging buffer holds that window's block at every point, whether or not the block
    was fetched there: where it was not fetched the block index has not moved since the previous point and the body
    leaves input buffers as it finds them. Stated for any proof data whose array is `V`'s and whose body keeps the block. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights (window 1): fetched once, at the first point, and the same block at every point. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of this region on core `c`: the arrays are what the region finds (`V`); after the body at point `t`
    the two input buffers still hold their blocks and the output buffer holds the product of those two blocks; the
    invariant carried between points is the untouched rest of the core's state; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  held0_0_of V (dat0 V c) (A_eq0 V c 0) (after0_0 V c) t d
theorem before0_1 (c : Dev nD) (t : Fin cfg0.N) (d) : (dat0 V c).before 1 t d = iblk0 V c 1 t :=
  held0_1_of V (dat0 V c) (A_eq0 V c 1) (after0_1 V c) t d

/-- What the body is entered with at point `t`: the invariant, the core's debts, and the three current staging
    buffers at what the pipeline put in them, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must return: the same with each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at an arbitrary point: the input buffers hold their blocks, so `body_run0` applies; the invariant and
    the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body_run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.K.Region1.lean ====
import proofs.«181423_j46755013984832_1_alg».proof.Proof.Gen.Kernel.Launch
import proofs.«181423_j46755013984832_1_alg».proof.Proof.Gen.Kernel.Skeleton
import proofs.«181423_j46755013984832_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the column statistics): proof data and body obligation

The region walks the 25 row blocks of the activations.  Two scratch rows hold the running column sums and the
running column sums of squares: the first point clears them before it adds its block, every point adds its block,
and the last point copies both rows to the two output windows, which are written back there and nowhere else. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- The first conditional's test: the point is the first one. -/
abbrev cnd1_0 (i : grid1.Coords) : Prop := (Scalar.cmpi .ne (Scalar.extui (Scalar.cmpi .eq (BitVec.ofNat 32 (i 0).val) 0#32)) 0#32) = 1#1
theorem hcnd1_0 : ∀ t : Fin cfg1.N, cnd1_0 (grid1.coords t) ↔ t.val = 0 :=
  (by decide +kernel : ∀ t : Fin grid1.N, cnd1_0 (grid1.coords t) ↔ t.val = 0)

/-- The second conditional's test: the point is the last one. -/
abbrev cnd1_1 (i : grid1.Coords) : Prop := k1_cond2 i = 1#1
theorem hcnd1_1 : ∀ t : Fin cfg1.N, cnd1_1 (grid1.coords t) ↔ t.val = 24 :=
  (by decide +kernel : ∀ t : Fin grid1.N, cnd1_1 (grid1.coords t) ↔ t.val = 24)

/-! ## Where the windows are idle: the two output windows are stored, and written back, at the last point only -/

theorem liveAt1_0 : ∀ t : Fin cfg1.N, cfg1.idle 0 (grid1.coords t) = false := by decide +kernel
theorem idleAt1_1 : ∀ t : Fin cfg1.N, ¬cnd1_1 (grid1.coords t) → cfg1.idle 1 (grid1.coords t) = true := by decide +kernel
theorem noFlush1_1 : ∀ t : Fin cfg1.N, ¬cnd1_1 (grid1.coords t) → (cfg1.win 1).flush t = false := by decide +kernel
theorem liveAt1_1 : ∀ t : Fin cfg1.N, cnd1_1 (grid1.coords t) → cfg1.idle 1 (grid1.coords t) = false := by decide +kernel
theorem idleAt1_2 : ∀ t : Fin cfg1.N, ¬cnd1_1 (grid1.coords t) → cfg1.idle 2 (grid1.coords t) = true := by decide +kernel
theorem noFlush1_2 : ∀ t : Fin cfg1.N, ¬cnd1_1 (grid1.coords t) → (cfg1.win 2).flush t = false := by decide +kernel
theorem liveAt1_2 : ∀ t : Fin cfg1.N, cnd1_1 (grid1.coords t) → cfg1.idle 2 (grid1.coords t) = false := by decide +kernel

/-! ## The memrefs the body is called on -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
/-- The two scratch rows: the running sums and the running sums of squares. -/
abbrev scM1_0 : Memref sig .tc .vmem S1x128 .f32 := Memref.whole cc1_scratch0
abbrev scM1_1 : Memref sig .tc .vmem S1x128 .f32 := Memref.whole cc1_scratch1

/-! ## Whole-row loads and stores

Every access of the body is through the whole-buffer rectangle at offset zero: a load reads the contents, a store
leaves its payload whatever was stored before, and a load after such a store reads the stored payload. -/

theorem off00 : (![0, 0] : Fin 2 → ℕ) = fun _ => 0 := by funext a; fin_cases a <;> rfl

/-- The rectangle of a whole row. -/
abbrev rRow : Rect S1x128 := Rect.unit (s := S1x128) ![0, 0] S1x128.size inb_S1x128_S1x128_0_0

theorem cover_row (p0 : Vec F S1x128 .f32) (y : S1x128.Idx) :
    ∃ pc ∈ ([⟨rRow, p0⟩] : List (View.Piece (Elt F) S1x128 .f32)), y ∈ pc.1.set :=
  View.cover_of_tiled [⟨rRow, p0⟩] S1x128.size (by rfl) y

/-- A row stored whole, last, over anything: the buffer then reads the stored row. -/
theorem read_last_store {sp : Space} (v : View sig .tc sp S1x128 .f32) (f : v.ty.Contents (Elt F)) (w : Vec F S1x128 .f32)
    (L : List (View.Piece (Elt F) S1x128 .f32)) :
    v.read (Elt F) (v.writes (Elt F) f (⟨rRow, w⟩ :: L)) = w := by
  rw [View.read_writes_eq_canon v f _ (fun y => by
    obtain ⟨pc, hpc, hy⟩ := cover_row w y
    exact ⟨pc, List.mem_cons.mpr (Or.inl (List.mem_singleton.mp hpc)), hy⟩)]
  exact View.canon_cons_unit_zero off00 _ w L

/-- A whole-row load after ONE whole-row store reads the stored row. -/
theorem readCov_row {sp : Space} (v : View sig .tc sp S1x128 .f32) (w : Vec F S1x128 .f32) :
    v.readCov [(⟨Rect.unit ![0, 0] S1x128.size inb_S1x128_S1x128_0_0, w⟩ : View.Piece (Elt F) S1x128 .f32)]
      (Rect.unit ![0, 0] S1x128.size inb_S1x128_S1x128_0_0).toLoadRect = w :=
  View.readCov_unit_zero v off00 _ w

/-- A whole-buffer load reads the contents: of a 2000×128 block, -/
theorem readAt_blk {sp : Space} (v : View sig .tc sp S2000x128 .f32) (f : v.ty.Contents (Elt F)) :
    View.readAt (Elt F) v (Rect.unit ![0, 0] S2000x128.size inb_S2000x128_S2000x128_0_0).toLoadRect f = v.read (Elt F) f :=
  (View.readAt_eq_ld v f _).trans (View.ld_unit_zero off00 _ _)
/-- and of a row. -/
theorem readAt_row {sp : Space} (v : View sig .tc sp S1x128 .f32) (f : v.ty.Contents (Elt F)) :
    View.readAt (Elt F) v (Rect.unit ![0, 0] S1x128.size inb_S1x128_S1x128_0_0).toLoadRect f = v.read (Elt F) f :=
  (View.readAt_eq_ld v f _).trans (View.ld_unit_zero off00 _ _)

/-! ## The body, case by case -/

set_option maxHeartbeats 1000000 in
/-- The FIRST point (first conditional taken, second not): both scratch rows, whatever they held, are cleared and
    then receive the block's column sums and column sums of squares; the input block and the two output buffers
    are left as found. -/
theorem run1_A (c : Dev nD) (i : grid1.Coords) (E : Set ℕ) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cnd1_0 i) (hc1 : ¬cnd1_1 i)
    (x0 : Vec F S2000x128 .f32) (xi2 xi3 : Vec F S1x128 .f32) (K : PUnit → sProp 𝕄) :
    iprop(owns (c : Thread nD τ) arg1 fullShare x0 ∗ owns (c : Thread nD τ) arg2 fullShare xi2 ∗ owns (c : Thread nD τ) arg3 fullShare xi3
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi2 ∗ owns (c : Thread nD τ) arg3 fullShare xi3
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_last_store _ _ _ _).trans ?_
    exact congrArg₂ (k1_pay4 (F := F)) (readAt_blk _ _) (readCov_row _ _)
  iexists _; isplitr
  swap; · iexact H5
  ipureintro
  sl_unfold_run_names
  refine (read_last_store _ _ _ _).trans ?_
  exact congrArg₂ (k1_pay5 (F := F)) (readAt_blk _ _) (readCov_row _ _)

set_option maxHeartbeats 1000000 in
/-- A MIDDLE point (neither conditional taken): the scratch rows, held at `xs4` and `xs5`, receive the block's column
    sums and column sums of squares on top; the input block and the two output buffers are left as found. -/
theorem run1_B (c : Dev nD) (i : grid1.Coords) (E : Set ℕ) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cnd1_0 i) (hc1 : ¬cnd1_1 i)
    (x0 : Vec F S2000x128 .f32) (xi2 xi3 xs4 xs5 : Vec F S1x128 .f32) (K : PUnit → sProp 𝕄) :
    iprop(owns (c : Thread nD τ) arg1 fullShare x0 ∗ owns (c : Thread nD τ) arg2 fullShare xi2 ∗ owns (c : Thread nD τ) arg3 fullShare xi3
        ∗ owns (c : Thread nD τ) arg4 fullShare xs4 ∗ owns (c : Thread nD τ) arg5 fullShare xs5
        ∗ (iprop(owns (c : Thread nD τ) arg1 fullShare x0 ∗ owns (c : Thread nD τ) arg2 fullShare xi2 ∗ owns (c : Thread nD τ) arg3 fullShare xi3
            ∗ owns (c : Thread nD τ) arg4 fullShare (k1_pay4 x0 xs4) ∗ owns (c : Thread nD τ) arg5 fullShare (k1_pay5 x0 xs5)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_last_store _ _ _ _).trans ?_
    exact congrArg₂ (k1_pay4 (F := F)) (readAt_blk _ _) (readAt_row _ _)
  iexists _; isplitr
  swap; · iexact H5
  ipureintro
  sl_unfold_run_names
  refine (read_last_store _ _ _ _).trans ?_
  exact congrArg₂ (k1_pay5 (F := F)) (readAt_blk _ _) (readAt_row _ _)

set_option maxHeartbeats 1000000 in
/-- The LAST point (first conditional not taken, second taken): the scratch rows receive the block's sums on top,
    and both are then copied to the two output buffers, whatever those held. -/
theorem run1_C (c : Dev nD) (i : grid1.Coords) (E : Set ℕ) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cnd1_0 i) (hc1 : cnd1_1 i)
    (x0 : Vec F S2000x128 .f32) (xs4 xs5 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs4 ∗ owns (c : Thread nD τ) arg5 fullShare xs5
        ∗ (iprop(owns (c : Thread nD τ) arg1 fullShare x0 ∗ owns (c : Thread nD τ) arg2 fullShare (k1_pay4 x0 xs4) ∗ owns (c : Thread nD τ) arg3 fullShare (k1_pay5 x0 xs5)
            ∗ owns (c : Thread nD τ) arg4 fullShare (k1_pay4 x0 xs4) ∗ owns (c : Thread nD τ) arg5 fullShare (k1_pay5 x0 xs5)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc0 | exact hc1)
  sl_step
  iapply Hk
  isplitl [H1]
  · iexists f1; isplitr; · ipureintro; rfl
    iexact H1
  isplitl [H2]
  · iexists _; isplitr
    swap; · iexact H2
    ipureintro
    sl_unfold_run_names
    refine (read_last_store _ _ _ _).trans ?_
    refine (readCov_row _ _).trans ?_; exact congrArg₂ (k1_pay4 (F := F)) (readAt_blk _ _) (readAt_row _ _)
  isplitl [H3]
  · iexists _; isplitr
    swap; · iexact H3
    ipureintro
    sl_unfold_run_names
    refine (read_last_store _ _ _ _).trans ?_
    refine (readCov_row _ _).trans ?_; exact congrArg₂ (k1_pay5 (F := F)) (readAt_blk _ _) (readAt_row _ _)
  isplitl [H4]
  · iexists _; isplitr
    swap; · iexact H4
    ipureintro
    sl_unfold_run_names
    refine (read_last_store _ _ _ _).trans ?_
    exact congrArg₂ (k1_pay4 (F := F)) (readAt_blk _ _) (readAt_row _ _)
  iexists _; isplitr
  swap; · iexact H5
  ipureintro
  sl_unfold_run_names
  refine (read_last_store _ _ _ _).trans ?_
  exact congrArg₂ (k1_pay5 (F := F)) (readAt_blk _ _) (readAt_row _ _)

/-! ## The running sums -/

theorem N1_pos : 0 < cfg1.N := by rw [show cfg1.N = 25 from N_1]; decide

/-- The input block at point `n` as a plain 2000×128 vector (the point taken modulo the grid, so that it is defined
    for every natural number). -/
def blk1 (c : Dev nD) (n : ℕ) : Vec F S2000x128 .f32 := iblk1 V c 0 ⟨n % cfg1.N, Nat.mod_lt _ N1_pos⟩

theorem blk1_eq (c : Dev nD) (t : Fin cfg1.N) : blk1 V c t.val = iblk1 V c 0 t := by
  unfold blk1
  have e : (⟨t.val % cfg1.N, Nat.mod_lt _ N1_pos⟩ : Fin cfg1.N) = t := Fin.ext (Nat.mod_eq_of_lt t.isLt)
  rw [e]

/-- THE ACCUMULATION: what the two scratch rows hold after point `n` — after the first point the first block's
    column sums (and sums of squares) added to the cleared rows, after each later point the block's added to what the
    point before left. -/
def acc1 (c : Dev nD) : ℕ → Vec F S1x128 .f32 × Vec F S1x128 .f32
  | 0 => (k1_pay4 (blk1 V c 0) k1_pay1, k1_pay5 (blk1 V c 0) k1_pay2)
  | n + 1 => (k1_pay4 (blk1 V c (n + 1)) (acc1 c n).1, k1_pay5 (blk1 V c (n + 1)) (acc1 c n).2)

theorem acc1_zero (c : Dev nD) :
    acc1 V c 0 = (k1_pay4 (blk1 V c 0) k1_pay1, k1_pay5 (blk1 V c 0) k1_pay2) := rfl
theorem acc1_succ (c : Dev nD) (n : ℕ) :
    acc1 V c (n + 1) = (k1_pay4 (blk1 V c (n + 1)) (acc1 V c n).1, k1_pay5 (blk1 V c (n + 1)) (acc1 V c n).2) := rfl

/-- At the first point, over the point's own block. -/
theorem acc1_first (c : Dev nD) (t : Fin cfg1.N) (h : t.val = 0) :
    acc1 V c t.val = (k1_pay4 (iblk1 V c 0 t) k1_pay1, k1_pay5 (iblk1 V c 0 t) k1_pay2) := by
  rw [← blk1_eq V c t, h]; rfl

/-- At a later point, over the point's own block and what the point before left. -/
theorem acc1_step (c : Dev nD) (t : Fin cfg1.N) (h : t.val ≠ 0) :
    acc1 V c t.val = (k1_pay4 (iblk1 V c 0 t) (acc1 V c (t.val - 1)).1, k1_pay5 (iblk1 V c 0 t) (acc1 V c (t.val - 1)).2) := by
  rw [← blk1_eq V c t]
  obtain ⟨n, hn⟩ := t
  cases n with
  | zero => exact absurd rfl h
  | succ n => rfl

/-! ## The invariant between points

Of the core's scoped buffers that no window of this region stages, the two scratch rows are named; the others ride
along unopened.  Before the first point the scratch rows hold anything; after point `n` they hold the running sums. -/

/-- The scoped buffers beside this region's staging buffers and its two scratch rows, at some contents each. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The scoped rest, with the two scratch rows split off as memrefs owned at some contents. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d)) ∗ restBut1 c) := by
  rw [Pipeline.scopedRest_split_of_list spec1 c [cc1_scratch0, cc1_scratch1] (by decide) (by decide)]
  simp only [scM1_0, scM1_1, owns_whole]; try rfl

/-- The region invariant before position `n`. -/
def Phi1 (c : Dev nD) : ℕ → sProp 𝕄
  | 0 => Pipeline.scopedRest (Ix := Unit) (Name := ℕ) (U := UR sig nD τ) (Lvl := ℕ) (Val := Elt F) spec1 c
  | n + 1 => iprop((owns (c : Thread nD τ) scM1_0 fullShare (acc1 V c n).1 ∗ owns (c : Thread nD τ) scM1_1 fullShare (acc1 V c n).2) ∗ restBut1 c)

theorem Phi1_zero (c : Dev nD) (n : ℕ) (hz : n = 0) :
    Phi1 V c n = Pipeline.scopedRest (Ix := Unit) (Name := ℕ) (U := UR sig nD τ) (Lvl := ℕ) (Val := Elt F) spec1 c := by
  subst hz; rfl

theorem Phi1_succ (c : Dev nD) (n : ℕ) :
    Phi1 V c (n + 1) = iprop((owns (c : Thread nD τ) scM1_0 fullShare (acc1 V c n).1 ∗ owns (c : Thread nD τ) scM1_1 fullShare (acc1 V c n).2) ∗ restBut1 c) := rfl

theorem Phi1_pos (c : Dev nD) (n : ℕ) (hz : n ≠ 0) :
    Phi1 V c n = iprop((owns (c : Thread nD τ) scM1_0 fullShare (acc1 V c (n - 1)).1 ∗ owns (c : Thread nD τ) scM1_1 fullShare (acc1 V c (n - 1)).2) ∗ restBut1 c) := by
  cases n with
  | zero => exact absurd rfl hz
  | succ n => rfl

/-! ## The proof data -/

/-- The proof data of the region on core `c`: the arrays as the region finds them; after the body at point `t` the
    input's buffer at its block and the two outputs' at the running sums (consulted at the last point only: the
    windows are idle elsewhere); the invariant with the scratch rows at the running sums; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val).1
    | ⟨2, _⟩ => (acc1 V c t.val).2
  Φ t := Phi1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val).1 := by dsimp only [dat1]
theorem after1_2 (c : Dev nD) (t : Fin cfg1.N) : (dat1 V c).after 2 t = (acc1 V c t.val).2 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The closed forms of the two conditions say which of the three cases the point is in.
    The invariant hands the body the scratch rows — at anything at the first point, at what the point before left
    afterwards — and takes them back at this point's running sums; the output buffers are handed back untouched
    except at the last point, where they receive the running sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) from rfl, Phi1_succ]
  rw [show (dat1 V c).leavesExact 0 t = owns (c : Thread nD τ) (ms1_0 t) fullShare ((dat1 V c).after 0 t) from by
      unfold Dat.leavesExact; rw [liveAt1_0 t], after1_0]
  have hN : t.val < 25 := lt_of_lt_of_eq t.isLt (show cfg1.N = 25 from N_1)
  rw [Phi1_castSucc V c t]
  by_cases h0 : t.val = 0
  · -- the first point
    have hc0 : cnd1_0 (grid1.coords t) := (hcnd1_0 t).mpr h0
    have hc1 : ¬cnd1_1 (grid1.coords t) := fun h => by have := (hcnd1_1 t).mp h; omega
    rw [Dat.leavesExact_idle (dat1 V c) 1 t (idleAt1_1 t hc1) (noFlush1_1 t hc1)]
    rw [Dat.leavesExact_idle (dat1 V c) 2 t (idleAt1_2 t hc1) (noFlush1_2 t hc1)]
    rw [acc1_first V c t h0]
    rw [Phi1_zero V c _ h0, scopedRest1_split]
    iintro ⟨⟨⟨HS0, HS1⟩, Hr⟩, Ho, ⟨%d0, H0⟩, ⟨%d1, H1⟩, ⟨%d2, H2⟩⟩
    iapply (run1_A c (grid1.coords t) Set.univ _ _ _ _ _ _ _ _ _ _ hc0 hc1 (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr]
    · isplitr [Hr]
      · isplitl [HS0]; · iexact HS0
        iexact HS1
      iexact Hr
    isplitl [Ho]; · iexact Ho
    isplitl [H0]; · iexact H0
    isplitl [H1]; · iexists _; iexact H1
    iexists _; iexact H2
  · rw [Phi1_pos V c _ h0, acc1_step V c t h0]
    by_cases h1 : t.val = 24
    · -- the last point
      have hc0 : ¬cnd1_0 (grid1.coords t) := fun h => h0 ((hcnd1_0 t).mp h)
      have hc1 : cnd1_1 (grid1.coords t) := (hcnd1_1 t).mpr h1
      rw [show (dat1 V c).leavesExact 1 t = owns (c : Thread nD τ) (ms1_1 t) fullShare ((dat1 V c).after 1 t) from by
        unfold Dat.leavesExact; rw [liveAt1_1 t hc1], after1_1]
      rw [show (dat1 V c).leavesExact 2 t = owns (c : Thread nD τ) (ms1_2 t) fullShare ((dat1 V c).after 2 t) from by
        unfold Dat.leavesExact; rw [liveAt1_2 t hc1], after1_2]
      rw [acc1_step V c t h0]
      iintro ⟨⟨⟨HS0, HS1⟩, Hr⟩, Ho, ⟨%d0, H0⟩, ⟨%d1, H1⟩, ⟨%d2, H2⟩⟩
      iapply (run1_C c (grid1.coords t) Set.univ _ _ _ _ _ _ _ _ _ _ hc0 hc1 (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr]
      · isplitr [Hr]
        · isplitl [HS0]; · iexact HS0
          iexact HS1
        iexact Hr
      isplitl [Ho]; · iexact Ho
      isplitl [H0]; · iexact H0
      isplitl [H1]; · iexact H1
      iexact H2
    · -- a middle point
      have hc0 : ¬cnd1_0 (grid1.coords t) := fun h => h0 ((hcnd1_0 t).mp h)
      have hc1 : ¬cnd1_1 (grid1.coords t) := fun h => h1 ((hcnd1_1 t).mp h)
      rw [Dat.leavesExact_idle (dat1 V c) 1 t (idleAt1_1 t hc1) (noFlush1_1 t hc1)]
      rw [Dat.leavesExact_idle (dat1 V c) 2 t (idleAt1_2 t hc1) (noFlush1_2 t hc1)]
      iintro ⟨⟨⟨HS0, HS1⟩, Hr⟩, Ho, ⟨%d0, H0⟩, ⟨%d1, H1⟩, ⟨%d2, H2⟩⟩
      iapply (run1_B c (grid1.coords t) Set.univ _ _ _ _ _ _ _ _ _ _ hc0 hc1 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · isplitr [Hr]
        · isplitl [HS0]; · iexact HS0
          iexact HS1
        iexact Hr
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the scoped rest) is the invariant before the first point. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 from rfl, Phi1_zero V c 0 rfl]

/-- After the last point the invariant gives the scoped rest back: the scratch rows' named contents are forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val from rfl,
    Phi1_pos V c _ (by rw [Fin.val_last]; have : cfg1.N = 25 := N_1; omega), scopedRest1_split]
  iintro ⟨⟨HS0, HS1⟩, Hr⟩
  isplitr [Hr]
  · isplitl [HS0]; · iexists _; iexact HS0
    iexists _; iexact HS1
  iexact Hr

/-! ## The two output arrays after the region

Each output window's block is its whole [1, 128] array (the index map is constantly zero) and is written back at the
last point only, where the staging buffer holds the running sums of all 25 blocks. -/

theorem last1 : (24 : ℕ) < cfg1.N := by rw [show cfg1.N = 25 from N_1]; decide

/-- Both output windows sit at block index zero on both axes at every point: decided over the grid. -/
theorem idx1_out : ∀ t : Fin cfg1.N, win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What a flushing point writes back to window 1's array is the first running sum after the last point, read
    through the block (which is the whole array). -/
theorem flushed1_1_eq (c : Dev nD) (t : Fin cfg1.N) (hf : (cfg1.win 1).flush t = true) :
    (dat1 V c).flushed 1 t = ((cfg1.win 1).blk t).view.read (Elt F) ((acc1 V c 24).1) := by
  have h24 : t.val = 24 := by
    have h := (flush1_1 t).mp hf
    have hN : t.val < 25 := lt_of_lt_of_eq t.isLt (show cfg1.N = 25 from N_1)
    omega
  show (cfg1.win 1).cut (grid1.coords t) ((dat1 V c).after 1 t) = _
  rw [after1_1, h24]
  obtain ⟨e0, e1, -, -⟩ := idx1_out t
  funext j
  show (acc1 V c 24).1 j = (acc1 V c 24).1 (((cfg1.win 1).blk t).view.emb j)
  refine congrArg (acc1 V c 24).1 ?_
  funext a; apply Fin.ext
  match a with
  | ⟨0, _⟩ => show (j 0).val = win1_1.index t (0 : Fin 2) * 1 + 1 * (j 0).val; omega
  | ⟨1, _⟩ => show (j 1).val = win1_1.index t (1 : Fin 2) * 128 + 1 * (j 1).val; omega

theorem flushed1_2_eq (c : Dev nD) (t : Fin cfg1.N) (hf : (cfg1.win 2).flush t = true) :
    (dat1 V c).flushed 2 t = ((cfg1.win 2).blk t).view.read (Elt F) ((acc1 V c 24).2) := by
  have h24 : t.val = 24 := by
    have h := (flush1_2 t).mp hf
    have hN : t.val < 25 := lt_of_lt_of_eq t.isLt (show cfg1.N = 25 from N_1)
    omega
  show (cfg1.win 2).cut (grid1.coords t) ((dat1 V c).after 2 t) = _
  rw [after1_2, h24]
  obtain ⟨-, -, e0, e1⟩ := idx1_out t
  funext j
  show (acc1 V c 24).2 j = (acc1 V c 24).2 (((cfg1.win 2).blk t).view.emb j)
  refine congrArg (acc1 V c 24).2 ?_
  funext a; apply Fin.ext
  match a with
  | ⟨0, _⟩ => show (j 0).val = win1_2.index t (0 : Fin 2) * 1 + 1 * (j 0).val; omega
  | ⟨1, _⟩ => show (j 1).val = win1_2.index t (1 : Fin 2) * 128 + 1 * (j 1).val; omega

/-- An index of the array is in point `t`'s block iff each coordinate is in the block's range on its axis. -/
theorem mem_blk1_1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v50_0).slice (win1_1.rect t)).set ↔ _
  rw [View.set_slice_whole, Rect.mem_set_unit]
  exact Iff.rfl

theorem mem_blk1_2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v50_1).slice (win1_2.rect t)).set ↔ _
  rw [View.set_slice_whole, Rect.mem_set_unit]
  exact Iff.rfl

/-- THE FIRST OUTPUT ARRAY after the region: the running column sums after the last point. -/
theorem arrAt1_1 (c : Dev nD) : (dat1 V c).arrAt 1 cfg1.N = (acc1 V c 24).1 :=
  (dat1 V c).arrAt_eq_of_cover 1 ((acc1 V c 24).1) (fun t hf => flushed1_1_eq V c t hf) (fun i => by
    refine ⟨⟨24, last1⟩, (flush1_1 _).mpr rfl, ?_⟩
    rw [mem_blk1_1]
    obtain ⟨e0, e1, -, -⟩ := idx1_out ⟨24, last1⟩
    have hi0 : (i 0).val < 1 := (i 0).isLt
    have hi1 : (i 1).val < 128 := (i 1).isLt
    intro a
    match a with
    | ⟨0, _⟩ => show win1_1.index ⟨24, last1⟩ (0 : Fin 2) * 1 ≤ (i 0).val ∧ (i 0).val < win1_1.index ⟨24, last1⟩ (0 : Fin 2) * 1 + 1; omega
    | ⟨1, _⟩ => show win1_1.index ⟨24, last1⟩ (1 : Fin 2) * 128 ≤ (i 1).val ∧ (i 1).val < win1_1.index ⟨24, last1⟩ (1 : Fin 2) * 128 + 128; omega)

/-- THE SECOND OUTPUT ARRAY after the region: the running column sums of squares after the last point. -/
theorem arrAt1_2 (c : Dev nD) : (dat1 V c).arrAt 2 cfg1.N = (acc1 V c 24).2 :=
  (dat1 V c).arrAt_eq_of_cover 2 ((acc1 V c 24).2) (fun t hf => flushed1_2_eq V c t hf) (fun i => by
    refine ⟨⟨24, last1⟩, (flush1_2 _).mpr rfl, ?_⟩
    rw [mem_blk1_2]
    obtain ⟨-, -, e0, e1⟩ := idx1_out ⟨24, last1⟩
    have hi0 : (i 0).val < 1 := (i 0).isLt
    have hi1 : (i 1).val < 128 := (i 1).isLt
    intro a
    match a with
    | ⟨0, _⟩ => show win1_2.index ⟨24, last1⟩ (0 : Fin 2) * 1 ≤ (i 0).val ∧ (i 0).val < win1_2.index ⟨24, last1⟩ (0 : Fin 2) * 1 + 1; omega
    | ⟨1, _⟩ => show win1_2.index ⟨24, last1⟩ (1 : Fin 2) * 128 ≤ (i 1).val ∧ (i 1).val < win1_2.index ⟨24, last1⟩ (1 : Fin 2) * 128 + 128; omega)

end Region1

end Cert.Kernel.Frm

end
-- ==== Proof.K.Region2.lean ====
/- Region 2 of the program: batch normalisation followed by the final linear layer, in 25 row blocks of 2000 rows.
   At each grid point the body reads a 2000×128 block of activations h, four 1×128 rows (mean, variance, scale γ,
   shift β), the 128×3 weight matrix and the 1×3 bias, and overwrites the 2000×3 output block with
       ((h − mean) · rsqrt(var + ε) · γ + β) · W + b,
   the rows broadcast down the 2000 rows of the block and the product taken into a zero accumulator.
   This file states, for arbitrary contents `V` of the core's buffers at the moment the region is entered,
   what every staging buffer holds after the body at each point, and proves that the body really leaves it there. -/
import proofs.«181423_j46755013984832_1_alg».proof.Proof.Gen.Kernel.Launch
import proofs.«181423_j46755013984832_1_alg».proof.Proof.Gen.Kernel.Skeleton
import proofs.«181423_j46755013984832_1_alg».proof.Proof.Gen.Kernel.Points
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- what each of the core's buffers holds when the region starts
variable (V : (c : Dev nD) → (b : Ref sig .tc) → Buf (Elt F) ((c : Thread nD τ).loc b))

/-- The part of window `w`'s array that point `t` works on: rows 2000·t … 2000·t+1999 of the activations (window 0)
    or of the result (window 7); for windows 1–6 the whole (small) array at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of normalisation input rows (window 0) is fetched at every point. Its current staging buffer holds its block at every point. -/
theorem held2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (a 1×128 row) is fetched once, at the first point, and is the same block at every point. Its current staging buffer holds its block at every point. -/
theorem held2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (a 1×128 row): as window 1. Its current staging buffer holds its block at every point. -/
theorem held2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 (a 1×128 row): as window 1. Its current staging buffer holds its block at every point. -/
theorem held2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 (a 1×128 row): as window 1. Its current staging buffer holds its block at every point. -/
theorem held2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 (the 128×3 weight matrix): as window 1. Its current staging buffer holds its block at every point. -/
theorem held2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Window 6 (the 1×3 bias row): as window 1. Its current staging buffer holds its block at every point. -/
theorem held2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Each staging buffer as one rectangle covering it: offset (0,0), full extent. -/
abbrev whole2_rows : Rect S2000x128 := Rect.unit (s := S2000x128) ![0, 0] S2000x128.size inb_S2000x128_S2000x128_0_0
abbrev whole2_row : Rect S1x128 := Rect.unit (s := S1x128) ![0, 0] S1x128.size inb_S1x128_S1x128_0_0
abbrev whole2_wts : Rect S128x3 := Rect.unit (s := S128x3) ![0, 0] S128x3.size inb_S128x3_S128x3_0_0
abbrev whole2_bias : Rect S1x3 := Rect.unit (s := S1x3) ![0, 0] S1x3.size inb_S1x3_S1x3_0_0
abbrev whole2_out : Rect S2000x3 := Rect.unit (s := S2000x3) ![0, 0] S2000x3.size inb_S2000x3_S2000x3_0_0

/-- The output block after the body, as a function of the seven input blocks taken in window order. The body reads
    window 2 before window 1, which is why the second and third arguments of the arithmetic appear swapped. -/
def out2_7 (x0 : Vec F S2000x128 .f32) (x1 : Vec F S1x128 .f32) (x2 : Vec F S1x128 .f32) (x3 : Vec F S1x128 .f32) (x4 : Vec F S1x128 .f32) (x5 : Vec F S128x3 .f32) (x6 : Vec F S1x3 .f32) : Vec F S2000x3 .f32 :=
  View.canon [⟨whole2_out, k2_pay1 (View.ld x0 whole2_rows) (View.ld x2 whole2_row) (View.ld x1 whole2_row) (View.ld x3 whole2_row) (View.ld x4 whole2_row) (View.ld x5 whole2_wts) (View.ld x6 whole2_bias)⟩]

/-- The one store reaches every entry of the output buffer. -/
theorem covers2_7 (p0 : Vec F S2000x3 .f32) (y : S2000x3.Idx) :
    ∃ pc ∈ ([⟨whole2_out, p0⟩] : List (View.Piece (Elt F) S2000x3 .f32)), y ∈ pc.1.set :=
  View.cover_of_tiled [⟨whole2_out, p0⟩] S2000x3.size (by rfl) y

set_option maxHeartbeats 1000000 in
/-- Running the body on eight whole staging buffers — the seven inputs holding `x0 … x6`, the output holding
    anything — ends with the inputs unchanged and the output at `out2_7 x0 … x6`. -/
theorem body_run2 (c : Dev nD) (E : Set ℕ) (i : grid2.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S128x3 .f32) (harg6 : arg6.IsWhole)
    (arg7 : Memref sig .tc .vmem S1x3 .f32) (harg7 : arg7.IsWhole)
    (arg8 : Memref sig .tc .vmem S2000x3 .f32) (harg8 : arg8.IsWhole)
    (x0 : Vec F S2000x128 .f32) (x1 : Vec F S1x128 .f32) (x2 : Vec F S1x128 .f32) (x3 : Vec F S1x128 .f32) (x4 : Vec F S1x128 .f32) (x5 : Vec F S128x3 .f32) (x6 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__final_kernel i arg1 harg1 arg2 harg2 arg3 harg3 arg4 harg4 arg5 harg5 arg6 harg6 arg7 harg7 arg8 harg8) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers2_7 _)

/-- The proof data of this region on core `c`: the arrays are what the region finds (`V`); after the body at point `t`
    the seven input buffers still hold their blocks and the output buffer holds `out2_7` of those blocks; the
    invariant carried between points is the untouched rest of the core's state; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  held2_0_of V (dat2 V c) (A_eq2 V c 0) (after2_0 V c) t d
theorem before2_1 (c : Dev nD) (t : Fin cfg2.N) (d) : (dat2 V c).before 1 t d = iblk2 V c 1 t :=
  held2_1_of V (dat2 V c) (A_eq2 V c 1) (after2_1 V c) t d
theorem before2_2 (c : Dev nD) (t : Fin cfg2.N) (d) : (dat2 V c).before 2 t d = iblk2 V c 2 t :=
  held2_2_of V (dat2 V c) (A_eq2 V c 2) (after2_2 V c) t d
theorem before2_3 (c : Dev nD) (t : Fin cfg2.N) (d) : (dat2 V c).before 3 t d = iblk2 V c 3 t :=
  held2_3_of V (dat2 V c) (A_eq2 V c 3) (after2_3 V c) t d
theorem before2_4 (c : Dev nD) (t : Fin cfg2.N) (d) : (dat2 V c).before 4 t d = iblk2 V c 4 t :=
  held2_4_of V (dat2 V c) (A_eq2 V c 4) (after2_4 V c) t d
theorem before2_5 (c : Dev nD) (t : Fin cfg2.N) (d) : (dat2 V c).before 5 t d = iblk2 V c 5 t :=
  held2_5_of V (dat2 V c) (A_eq2 V c 5) (after2_5 V c) t d
theorem before2_6 (c : Dev nD) (t : Fin cfg2.N) (d) : (dat2 V c).before 6 t d = iblk2 V c 6 t :=
  held2_6_of V (dat2 V c) (A_eq2 V c 6) (after2_6 V c) t d

/-- What the body is entered with at point `t`: the invariant, the core's debts, and the eight current staging
    buffers at what the pipeline put in them, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it must return: the same with each buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at an arbitrary point: the input buffers hold their blocks, so `body_run2` applies; the invariant and
    the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Frm

end
-- ==== Proof.K.Assembly.lean ====
/-
  The whole program as a chain of segments: three kernel regions with the host operations between them. The buffer
  contents at each boundary are folded through the program: a host stretch applies its operations to the contents
  it finds, a region replaces each of its windows' arrays by what its grid points wrote back and leaves every other
  buffer alone. Every weakly fair execution ends with every unscoped buffer at the last boundary's contents; the
  arguments are read there (no stretch and no region writes one), and the result is the last region's output array.
-/
import proofs.«181423_j46755013984832_1_alg».proof.Proof.K.Region0
import proofs.«181423_j46755013984832_1_alg».proof.Proof.K.Region1
import proofs.«181423_j46755013984832_1_alg».proof.Proof.K.Region2
import proofs.«181423_j46755013984832_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After the first region: its output array holds the row blocks of the product. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After each of the four host stretches between the first and the second region. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev U5 : (c : Dev nD) → (b : Ref sig .tc) → Buf (Elt F) ((c : Thread nD τ).loc b) := fun c b => W5 m ρ c b
/-- After the second region: its two output arrays hold the column sums and the column sums of squares. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)

/-- After the host stretch that forms the mean and the variance. -/
abbrev W7 : Dev nD → Valuation τ sig (Elt F) := fun c => StableHlo.after hostOps2 (W6 m ρ c)
abbrev U7 : (c : Dev nD) → (b : Ref sig .tc) → Buf (Elt F) ((c : Thread nD τ).loc b) := fun c b => W7 m ρ c b
/-- After the third region: its output array holds the result's row blocks. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U5 m ρ) c
  | ⟨2, _⟩ => fun c => dat2 (U7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: its arrays are split out of the unscoped buffers at entry and put back at the
    exit contents; the generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: as the other two, except that its invariant is made from the scoped buffers
    alone (the two accumulators live there), so the generator register bypasses the region. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X _ := BI.emp
  Y _ := BI.emp
  Z c := iprop(Pipeline.unscopedRest (Ix := Unit) (Name := ℕ) (U := UR sig nD τ) (Lvl := ℕ) spec1 c (U5 m ρ c) ∗ ∃ r, prngReg c r)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = (dat1 (U5 m ρ) c).Φ 0 from rfl]
    iintro ⟨-, -, Hr⟩
    iapply (hin1 (U5 m ρ) c)
    iexact Hr
  hout c := by
    rw [Pipeline.ownSems0_none, show (pdats m ρ 1 c).Φ (Fin.last _) = (dat1 (U5 m ρ) c).Φ (Fin.last cfg1.N) from rfl]
    iintro Hr
    isplitr; · iempintro
    isplitr; · iempintro
    iapply (hout1 (U5 m ρ) c)
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 2 over the thread state: its arrays are split out of the unscoped buffers at entry and put back at the
    exit contents; the generator register goes into the invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U7 m ρ c) (U8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .region (reg1 m ρ),
    .host (hseg hostOps2 hostOps2_sub hostOps2_fresh (W6 m ρ)),
    .region (reg2 m ρ) ]

theorem main_run (c : Dev nD) : main (F := F) c = Pipeline.Seg.run (segs m ρ) := (main_chain c).trans (by chain_rfl)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The arguments end as launched -/

/-- A buffer none of the four host stretches between the first two regions writes is the same before and after them. -/
theorem W5_of (c : Dev nD) (r : Ref sig .tc) (h1 : r ∉ hostOps1_W) (h2 : r ∉ hostOps1_1_W) (h3 : r ∉ hostOps1_2_W)
    (h4 : r ∉ hostOps1_3_W) : W5 m ρ c r = W1 m ρ c r :=
  (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans
      (StableHlo.after_of_writes_sub hostOps1 _ hostOps1_writes h1)
theorem W7_of (c : Dev nD) (r : Ref sig .tc) (h : r ∉ hostOps2_W) : W7 m ρ c r = W6 m ρ c r :=
  StableHlo.after_of_writes_sub hostOps2 _ hostOps2_writes h

/-- A buffer that is no window's array of any region and that no host stretch writes ends as launched. -/
theorem kept_bypass (c : Dev nD) (r : Ref sig .tc) (h0 : ∀ w, Pipeline.arrRef spec0 w ≠ r) (h1 : ∀ w, Pipeline.arrRef spec1 w ≠ r)
    (h2 : ∀ w, Pipeline.arrRef spec2 w ≠ r) (g1 : r ∉ hostOps1_W) (g2 : r ∉ hostOps1_1_W) (g3 : r ∉ hostOps1_2_W)
    (g4 : r ∉ hostOps1_3_W) (g5 : r ∉ hostOps2_W) : W8 m ρ c r = m ((c : Thread nD τ).loc r) :=
  (W8_of_ne m ρ c r h2).trans <| (W7_of m ρ c r g5).trans <| (W6_of_ne m ρ c r h1).trans <|
    (W5_of m ρ c r g1 g2 g3 g4).trans <| (W1_of_ne m ρ c r h0).trans rfl

theorem W8_main_arg1 (c : Dev nD) : W8 m ρ c main_arg1 = m ((c : Thread nD τ).loc main_arg1) :=
  kept_bypass m ρ c main_arg1 (by decide) (by decide) (by decide) (by decide) (by decide) (by decide) (by decide) (by decide)
theorem W8_main_arg2 (c : Dev nD) : W8 m ρ c main_arg2 = m ((c : Thread nD τ).loc main_arg2) :=
  kept_bypass m ρ c main_arg2 (by decide) (by decide) (by decide) (by decide) (by decide) (by decide) (by decide) (by decide)
theorem W8_main_arg4 (c : Dev nD) : W8 m ρ c main_arg4 = m ((c : Thread nD τ).loc main_arg4) :=
  kept_bypass m ρ c main_arg4 (by decide) (by decide) (by decide) (by decide) (by decide) (by decide) (by decide) (by decide)
theorem W8_main_arg5 (c : Dev nD) : W8 m ρ c main_arg5 = m ((c : Thread nD τ).loc main_arg5) :=
  kept_bypass m ρ c main_arg5 (by decide) (by decide) (by decide) (by decide) (by decide) (by decide) (by decide) (by decide)
theorem W8_main_arg6 (c : Dev nD) : W8 m ρ c main_arg6 = m ((c : Thread nD τ).loc main_arg6) :=
  kept_bypass m ρ c main_arg6 (by decide) (by decide) (by decide) (by decide) (by decide) (by decide) (by decide) (by decide)
theorem W8_main_arg8 (c : Dev nD) : W8 m ρ c main_arg8 = m ((c : Thread nD τ).loc main_arg8) :=
  kept_bypass m ρ c main_arg8 (by decide) (by decide) (by decide) (by decide) (by decide) (by decide) (by decide) (by decide)
/-- The first region reads the two arrays it multiplies through input windows: an input window's array is as entered. -/
theorem W8_main_arg0 (c : Dev nD) : W8 m ρ c main_arg0 = m ((c : Thread nD τ).loc main_arg0) :=
  (W8_of_ne m ρ c main_arg0 (by decide)).trans <| (W7_of m ρ c main_arg0 (by decide)).trans <|
    (W6_of_ne m ρ c main_arg0 (by decide)).trans <|
    (W5_of m ρ c main_arg0 (by decide) (by decide) (by decide) (by decide)).trans <|
    (W1_arr m ρ c 0).trans (((dat0 (U0 m ρ) c).arrAt_in 0 rfl _).trans (A_eq0 (U0 m ρ) c 0))
theorem W8_main_arg3 (c : Dev nD) : W8 m ρ c main_arg3 = m ((c : Thread nD τ).loc main_arg3) :=
  (W8_of_ne m ρ c main_arg3 (by decide)).trans <| (W7_of m ρ c main_arg3 (by decide)).trans <|
    (W6_of_ne m ρ c main_arg3 (by decide)).trans <|
    (W5_of m ρ c main_arg3 (by decide) (by decide) (by decide) (by decide)).trans <|
    (W1_arr m ρ c 1).trans (((dat0 (U0 m ρ) c).arrAt_in 1 rfl _).trans (A_eq0 (U0 m ρ) c 1))
/-- The last region reads the second weight matrix through an input window. -/
theorem W8_main_arg7 (c : Dev nD) : W8 m ρ c main_arg7 = m ((c : Thread nD τ).loc main_arg7) :=
  (W8_arr m ρ c 5).trans <| (((dat2 (U7 m ρ) c).arrAt_in 5 rfl _).trans (A_eq2 (U7 m ρ) c 5)).trans <|
    (W7_of m ρ c main_arg7 (by decide)).trans <| (W6_of_ne m ρ c main_arg7 (by decide)).trans <|
    (W5_of m ρ c main_arg7 (by decide) (by decide) (by decide) (by decide)).trans <| (W1_of_ne m ρ c main_arg7 (by decide)).trans rfl

/-- The frame: every weakly fair execution terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

/-- The same run with the result array named: what the last region's grid points wrote back. -/
theorem run_result : θ_run defs (onTc (τ := τ) (main (F := F))) ⟨m, fun _ => 0, ρ⟩ (fun r => ∀ c : Dev nD,
      r.2.mem ((c.tc : Thread nD τ).loc main_v60) = (dat2 (U7 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v60 (by decide))).trans (W8_arr m ρ c 7),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

end Cert.Kernel.Frm

end
-- ==== Proof.KI.Region0.lean ====
/- Region 0 of the program: the first matrix product, h0 = x · conv_w, computed in 25 row blocks of 2000 rows.
   At each grid point the body reads the current 2000×128 block of x and the whole 128×128 weight matrix,
   multiplies them into a zero accumulator and overwrites the 2000×128 output block with the product.
   This file states, for arbitrary contents `V` of the core's buffers at the moment the region is entered,
   what every staging buffer holds after the body at each point, and proves that the body really leaves it there. -/
import proofs.«181423_j46755013984832_1_alg».proof.Proof.Gen.KernelIdeal.Launch
import proofs.«181423_j46755013984832_1_alg».proof.Proof.Gen.KernelIdeal.Skeleton
import proofs.«181423_j46755013984832_1_alg».proof.Proof.Gen.KernelIdeal.Points
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what each of the core's buffers holds when the region starts
variable (V : (c : Dev nD) → (b : Ref sig .tc) → Buf (Elt F) ((c : Thread nD τ).loc b))

/-- The part of window `w`'s array that point `t` works on: rows 2000·t … 2000·t+1999 of x (window 0) or of
    the result (window 2), and the whole weight matrix (window 1) at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2000×128 staging buffer as one rectangle: offset (0,0), full extent. -/
abbrev whole0_rows : Rect S2000x128 := Rect.unit (s := S2000x128) ![0, 0] S2000x128.size inb_S2000x128_S2000x128_0_0
/-- The whole 128×128 weight buffer as one rectangle. -/
abbrev whole0_wts : Rect S128x128 := Rect.unit (s := S128x128) ![0, 0] S128x128.size inb_S128x128_S128x128_0_0

/-- The output block after the body, as a function of the x block and the weights: the single store writes the
    product of the two loaded rectangles over the whole buffer. -/
def out0_2 (x0 : Vec F S2000x128 .f32) (x1 : Vec F S128x128 .f32) : Vec F S2000x128 .f32 :=
  View.canon [⟨whole0_rows, k0_pay1 (View.ld x0 whole0_rows) (View.ld x1 whole0_wts)⟩]

/-- The one store reaches every entry of the output buffer. -/
theorem covers0_2 (p0 : Vec F S2000x128 .f32) (y : S2000x128.Idx) :
    ∃ pc ∈ ([⟨whole0_rows, p0⟩] : List (View.Piece (Elt F) S2000x128 .f32)), y ∈ pc.1.set :=
  View.cover_of_tiled [⟨whole0_rows, p0⟩] S2000x128.size (by rfl) y

set_option maxHeartbeats 1000000 in
/-- Running the body on three whole staging buffers — the two inputs holding `x0` and `x1`, the output holding
    anything — ends with the inputs unchanged and the output at `out0_2 x0 x1`. -/
theorem body_run0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0_2 _)

/-- An input window's current staging buffer holds that window's block at every point, whether or not the block
    was fetched there: where it was not fetched the block index has not moved since the previous point and the body
    leaves input buffers as it finds them. Stated for any proof data whose array is `V`'s and whose body keeps the block. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights (window 1): fetched once, at the first point, and the same block at every point. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of this region on core `c`: the arrays are what the region finds (`V`); after the body at point `t`
    the two input buffers still hold their blocks and the output buffer holds the product of those two blocks; the
    invariant carried between points is the untouched rest of the core's state; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  held0_0_of V (dat0 V c) (A_eq0 V c 0) (after0_0 V c) t d
theorem before0_1 (c : Dev nD) (t : Fin cfg0.N) (d) : (dat0 V c).before 1 t d = iblk0 V c 1 t :=
  held0_1_of V (dat0 V c) (A_eq0 V c 1) (after0_1 V c) t d

/-- What the body is entered with at point `t`: the invariant, the core's debts, and the three current staging
    buffers at what the pipeline put in them, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must return: the same with each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at an arbitrary point: the input buffers hold their blocks, so `body_run0` applies; the invariant and
    the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body_run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.KI.Region1.lean ====
import proofs.«181423_j46755013984832_1_alg».proof.Proof.Gen.KernelIdeal.Launch
import proofs.«181423_j46755013984832_1_alg».proof.Proof.Gen.KernelIdeal.Skeleton
import proofs.«181423_j46755013984832_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the column statistics): proof data and body obligation

The region walks the 25 row blocks of the activations.  Two scratch rows hold the running column sums and the
running column sums of squares: the first point clears them before it adds its block, every point adds its block,
and the last point copies both rows to the two output windows, which are written back there and nowhere else. -/

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- The first conditional's test: the point is the first one. -/
abbrev cnd1_0 (i : grid1.Coords) : Prop := (Scalar.cmpi .ne (Scalar.extui (Scalar.cmpi .eq (BitVec.ofNat 32 (i 0).val) 0#32)) 0#32) = 1#1
theorem hcnd1_0 : ∀ t : Fin cfg1.N, cnd1_0 (grid1.coords t) ↔ t.val = 0 :=
  (by decide +kernel : ∀ t : Fin grid1.N, cnd1_0 (grid1.coords t) ↔ t.val = 0)

/-- The second conditional's test: the point is the last one. -/
abbrev cnd1_1 (i : grid1.Coords) : Prop := k1_cond2 i = 1#1
theorem hcnd1_1 : ∀ t : Fin cfg1.N, cnd1_1 (grid1.coords t) ↔ t.val = 24 :=
  (by decide +kernel : ∀ t : Fin grid1.N, cnd1_1 (grid1.coords t) ↔ t.val = 24)

/-! ## Where the windows are idle: the two output windows are stored, and written back, at the last point only -/

theorem liveAt1_0 : ∀ t : Fin cfg1.N, cfg1.idle 0 (grid1.coords t) = false := by decide +kernel
theorem idleAt1_1 : ∀ t : Fin cfg1.N, ¬cnd1_1 (grid1.coords t) → cfg1.idle 1 (grid1.coords t) = true := by decide +kernel
theorem noFlush1_1 : ∀ t : Fin cfg1.N, ¬cnd1_1 (grid1.coords t) → (cfg1.win 1).flush t = false := by decide +kernel
theorem liveAt1_1 : ∀ t : Fin cfg1.N, cnd1_1 (grid1.coords t) → cfg1.idle 1 (grid1.coords t) = false := by decide +kernel
theorem idleAt1_2 : ∀ t : Fin cfg1.N, ¬cnd1_1 (grid1.coords t) → cfg1.idle 2 (grid1.coords t) = true := by decide +kernel
theorem noFlush1_2 : ∀ t : Fin cfg1.N, ¬cnd1_1 (grid1.coords t) → (cfg1.win 2).flush t = false := by decide +kernel
theorem liveAt1_2 : ∀ t : Fin cfg1.N, cnd1_1 (grid1.coords t) → cfg1.idle 2 (grid1.coords t) = false := by decide +kernel

/-! ## The memrefs the body is called on -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
/-- The two scratch rows: the running sums and the running sums of squares. -/
abbrev scM1_0 : Memref sig .tc .vmem S1x128 .f32 := Memref.whole cc1_scratch0
abbrev scM1_1 : Memref sig .tc .vmem S1x128 .f32 := Memref.whole cc1_scratch1

/-! ## Whole-row loads and stores

Every access of the body is through the whole-buffer rectangle at offset zero: a load reads the contents, a store
leaves its payload whatever was stored before, and a load after such a store reads the stored payload. -/

theorem off00 : (![0, 0] : Fin 2 → ℕ) = fun _ => 0 := by funext a; fin_cases a <;> rfl

/-- The rectangle of a whole row. -/
abbrev rRow : Rect S1x128 := Rect.unit (s := S1x128) ![0, 0] S1x128.size inb_S1x128_S1x128_0_0

theorem cover_row (p0 : Vec F S1x128 .f32) (y : S1x128.Idx) :
    ∃ pc ∈ ([⟨rRow, p0⟩] : List (View.Piece (Elt F) S1x128 .f32)), y ∈ pc.1.set :=
  View.cover_of_tiled [⟨rRow, p0⟩] S1x128.size (by rfl) y

/-- A row stored whole, last, over anything: the buffer then reads the stored row. -/
theorem read_last_store {sp : Space} (v : View sig .tc sp S1x128 .f32) (f : v.ty.Contents (Elt F)) (w : Vec F S1x128 .f32)
    (L : List (View.Piece (Elt F) S1x128 .f32)) :
    v.read (Elt F) (v.writes (Elt F) f (⟨rRow, w⟩ :: L)) = w := by
  rw [View.read_writes_eq_canon v f _ (fun y => by
    obtain ⟨pc, hpc, hy⟩ := cover_row w y
    exact ⟨pc, List.mem_cons.mpr (Or.inl (List.mem_singleton.mp hpc)), hy⟩)]
  exact View.canon_cons_unit_zero off00 _ w L

/-- A whole-row load after ONE whole-row store reads the stored row. -/
theorem readCov_row {sp : Space} (v : View sig .tc sp S1x128 .f32) (w : Vec F S1x128 .f32) :
    v.readCov [(⟨Rect.unit ![0, 0] S1x128.size inb_S1x128_S1x128_0_0, w⟩ : View.Piece (Elt F) S1x128 .f32)]
      (Rect.unit ![0, 0] S1x128.size inb_S1x128_S1x128_0_0).toLoadRect = w :=
  View.readCov_unit_zero v off00 _ w

/-- A whole-buffer load reads the contents: of a 2000×128 block, -/
theorem readAt_blk {sp : Space} (v : View sig .tc sp S2000x128 .f32) (f : v.ty.Contents (Elt F)) :
    View.readAt (Elt F) v (Rect.unit ![0, 0] S2000x128.size inb_S2000x128_S2000x128_0_0).toLoadRect f = v.read (Elt F) f :=
  (View.readAt_eq_ld v f _).trans (View.ld_unit_zero off00 _ _)
/-- and of a row. -/
theorem readAt_row {sp : Space} (v : View sig .tc sp S1x128 .f32) (f : v.ty.Contents (Elt F)) :
    View.readAt (Elt F) v (Rect.unit ![0, 0] S1x128.size inb_S1x128_S1x128_0_0).toLoadRect f = v.read (Elt F) f :=
  (View.readAt_eq_ld v f _).trans (View.ld_unit_zero off00 _ _)

/-! ## The body, case by case -/

set_option maxHeartbeats 1000000 in
/-- The FIRST point (first conditional taken, second not): both scratch rows, whatever they held, are cleared and
    then receive the block's column sums and column sums of squares; the input block and the two output buffers
    are left as found. -/
theorem run1_A (c : Dev nD) (i : grid1.Coords) (E : Set ℕ) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cnd1_0 i) (hc1 : ¬cnd1_1 i)
    (x0 : Vec F S2000x128 .f32) (xi2 xi3 : Vec F S1x128 .f32) (K : PUnit → sProp 𝕄) :
    iprop(owns (c : Thread nD τ) arg1 fullShare x0 ∗ owns (c : Thread nD τ) arg2 fullShare xi2 ∗ owns (c : Thread nD τ) arg3 fullShare xi3
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi2 ∗ owns (c : Thread nD τ) arg3 fullShare xi3
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_last_store _ _ _ _).trans ?_
    exact congrArg₂ (k1_pay4 (F := F)) (readAt_blk _ _) (readCov_row _ _)
  iexists _; isplitr
  swap; · iexact H5
  ipureintro
  sl_unfold_run_names
  refine (read_last_store _ _ _ _).trans ?_
  exact congrArg₂ (k1_pay5 (F := F)) (readAt_blk _ _) (readCov_row _ _)

set_option maxHeartbeats 1000000 in
/-- A MIDDLE point (neither conditional taken): the scratch rows, held at `xs4` and `xs5`, receive the block's column
    sums and column sums of squares on top; the input block and the two output buffers are left as found. -/
theorem run1_B (c : Dev nD) (i : grid1.Coords) (E : Set ℕ) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cnd1_0 i) (hc1 : ¬cnd1_1 i)
    (x0 : Vec F S2000x128 .f32) (xi2 xi3 xs4 xs5 : Vec F S1x128 .f32) (K : PUnit → sProp 𝕄) :
    iprop(owns (c : Thread nD τ) arg1 fullShare x0 ∗ owns (c : Thread nD τ) arg2 fullShare xi2 ∗ owns (c : Thread nD τ) arg3 fullShare xi3
        ∗ owns (c : Thread nD τ) arg4 fullShare xs4 ∗ owns (c : Thread nD τ) arg5 fullShare xs5
        ∗ (iprop(owns (c : Thread nD τ) arg1 fullShare x0 ∗ owns (c : Thread nD τ) arg2 fullShare xi2 ∗ owns (c : Thread nD τ) arg3 fullShare xi3
            ∗ owns (c : Thread nD τ) arg4 fullShare (k1_pay4 x0 xs4) ∗ owns (c : Thread nD τ) arg5 fullShare (k1_pay5 x0 xs5)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_last_store _ _ _ _).trans ?_
    exact congrArg₂ (k1_pay4 (F := F)) (readAt_blk _ _) (readAt_row _ _)
  iexists _; isplitr
  swap; · iexact H5
  ipureintro
  sl_unfold_run_names
  refine (read_last_store _ _ _ _).trans ?_
  exact congrArg₂ (k1_pay5 (F := F)) (readAt_blk _ _) (readAt_row _ _)

set_option maxHeartbeats 1000000 in
/-- The LAST point (first conditional not taken, second taken): the scratch rows receive the block's sums on top,
    and both are then copied to the two output buffers, whatever those held. -/
theorem run1_C (c : Dev nD) (i : grid1.Coords) (E : Set ℕ) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cnd1_0 i) (hc1 : cnd1_1 i)
    (x0 : Vec F S2000x128 .f32) (xs4 xs5 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs4 ∗ owns (c : Thread nD τ) arg5 fullShare xs5
        ∗ (iprop(owns (c : Thread nD τ) arg1 fullShare x0 ∗ owns (c : Thread nD τ) arg2 fullShare (k1_pay4 x0 xs4) ∗ owns (c : Thread nD τ) arg3 fullShare (k1_pay5 x0 xs5)
            ∗ owns (c : Thread nD τ) arg4 fullShare (k1_pay4 x0 xs4) ∗ owns (c : Thread nD τ) arg5 fullShare (k1_pay5 x0 xs5)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc0 | exact hc1)
  sl_step
  iapply Hk
  isplitl [H1]
  · iexists f1; isplitr; · ipureintro; rfl
    iexact H1
  isplitl [H2]
  · iexists _; isplitr
    swap; · iexact H2
    ipureintro
    sl_unfold_run_names
    refine (read_last_store _ _ _ _).trans ?_
    refine (readCov_row _ _).trans ?_; exact congrArg₂ (k1_pay4 (F := F)) (readAt_blk _ _) (readAt_row _ _)
  isplitl [H3]
  · iexists _; isplitr
    swap; · iexact H3
    ipureintro
    sl_unfold_run_names
    refine (read_last_store _ _ _ _).trans ?_
    refine (readCov_row _ _).trans ?_; exact congrArg₂ (k1_pay5 (F := F)) (readAt_blk _ _) (readAt_row _ _)
  isplitl [H4]
  · iexists _; isplitr
    swap; · iexact H4
    ipureintro
    sl_unfold_run_names
    refine (read_last_store _ _ _ _).trans ?_
    exact congrArg₂ (k1_pay4 (F := F)) (readAt_blk _ _) (readAt_row _ _)
  iexists _; isplitr
  swap; · iexact H5
  ipureintro
  sl_unfold_run_names
  refine (read_last_store _ _ _ _).trans ?_
  exact congrArg₂ (k1_pay5 (F := F)) (readAt_blk _ _) (readAt_row _ _)

/-! ## The running sums -/

theorem N1_pos : 0 < cfg1.N := by rw [show cfg1.N = 25 from N_1]; decide

/-- The input block at point `n` as a plain 2000×128 vector (the point taken modulo the grid, so that it is defined
    for every natural number). -/
def blk1 (c : Dev nD) (n : ℕ) : Vec F S2000x128 .f32 := iblk1 V c 0 ⟨n % cfg1.N, Nat.mod_lt _ N1_pos⟩

theorem blk1_eq (c : Dev nD) (t : Fin cfg1.N) : blk1 V c t.val = iblk1 V c 0 t := by
  unfold blk1
  have e : (⟨t.val % cfg1.N, Nat.mod_lt _ N1_pos⟩ : Fin cfg1.N) = t := Fin.ext (Nat.mod_eq_of_lt t.isLt)
  rw [e]

/-- THE ACCUMULATION: what the two scratch rows hold after point `n` — after the first point the first block's
    column sums (and sums of squares) added to the cleared rows, after each later point the block's added to what the
    point before left. -/
def acc1 (c : Dev nD) : ℕ → Vec F S1x128 .f32 × Vec F S1x128 .f32
  | 0 => (k1_pay4 (blk1 V c 0) k1_pay1, k1_pay5 (blk1 V c 0) k1_pay2)
  | n + 1 => (k1_pay4 (blk1 V c (n + 1)) (acc1 c n).1, k1_pay5 (blk1 V c (n + 1)) (acc1 c n).2)

theorem acc1_zero (c : Dev nD) :
    acc1 V c 0 = (k1_pay4 (blk1 V c 0) k1_pay1, k1_pay5 (blk1 V c 0) k1_pay2) := rfl
theorem acc1_succ (c : Dev nD) (n : ℕ) :
    acc1 V c (n + 1) = (k1_pay4 (blk1 V c (n + 1)) (acc1 V c n).1, k1_pay5 (blk1 V c (n + 1)) (acc1 V c n).2) := rfl

/-- At the first point, over the point's own block. -/
theorem acc1_first (c : Dev nD) (t : Fin cfg1.N) (h : t.val = 0) :
    acc1 V c t.val = (k1_pay4 (iblk1 V c 0 t) k1_pay1, k1_pay5 (iblk1 V c 0 t) k1_pay2) := by
  rw [← blk1_eq V c t, h]; rfl

/-- At a later point, over the point's own block and what the point before left. -/
theorem acc1_step (c : Dev nD) (t : Fin cfg1.N) (h : t.val ≠ 0) :
    acc1 V c t.val = (k1_pay4 (iblk1 V c 0 t) (acc1 V c (t.val - 1)).1, k1_pay5 (iblk1 V c 0 t) (acc1 V c (t.val - 1)).2) := by
  rw [← blk1_eq V c t]
  obtain ⟨n, hn⟩ := t
  cases n with
  | zero => exact absurd rfl h
  | succ n => rfl

/-! ## The invariant between points

Of the core's scoped buffers that no window of this region stages, the two scratch rows are named; the others ride
along unopened.  Before the first point the scratch rows hold anything; after point `n` they hold the running sums. -/

/-- The scoped buffers beside this region's staging buffers and its two scratch rows, at some contents each. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The scoped rest, with the two scratch rows split off as memrefs owned at some contents. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d)) ∗ restBut1 c) := by
  rw [Pipeline.scopedRest_split_of_list spec1 c [cc1_scratch0, cc1_scratch1] (by decide) (by decide)]
  simp only [scM1_0, scM1_1, owns_whole]; try rfl

/-- The region invariant before position `n`. -/
def Phi1 (c : Dev nD) : ℕ → sProp 𝕄
  | 0 => Pipeline.scopedRest (Ix := Unit) (Name := ℕ) (U := UR sig nD τ) (Lvl := ℕ) (Val := Elt F) spec1 c
  | n + 1 => iprop((owns (c : Thread nD τ) scM1_0 fullShare (acc1 V c n).1 ∗ owns (c : Thread nD τ) scM1_1 fullShare (acc1 V c n).2) ∗ restBut1 c)

theorem Phi1_zero (c : Dev nD) (n : ℕ) (hz : n = 0) :
    Phi1 V c n = Pipeline.scopedRest (Ix := Unit) (Name := ℕ) (U := UR sig nD τ) (Lvl := ℕ) (Val := Elt F) spec1 c := by
  subst hz; rfl

theorem Phi1_succ (c : Dev nD) (n : ℕ) :
    Phi1 V c (n + 1) = iprop((owns (c : Thread nD τ) scM1_0 fullShare (acc1 V c n).1 ∗ owns (c : Thread nD τ) scM1_1 fullShare (acc1 V c n).2) ∗ restBut1 c) := rfl

theorem Phi1_pos (c : Dev nD) (n : ℕ) (hz : n ≠ 0) :
    Phi1 V c n = iprop((owns (c : Thread nD τ) scM1_0 fullShare (acc1 V c (n - 1)).1 ∗ owns (c : Thread nD τ) scM1_1 fullShare (acc1 V c (n - 1)).2) ∗ restBut1 c) := by
  cases n with
  | zero => exact absurd rfl hz
  | succ n => rfl

/-! ## The proof data -/

/-- The proof data of the region on core `c`: the arrays as the region finds them; after the body at point `t` the
    input's buffer at its block and the two outputs' at the running sums (consulted at the last point only: the
    windows are idle elsewhere); the invariant with the scratch rows at the running sums; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val).1
    | ⟨2, _⟩ => (acc1 V c t.val).2
  Φ t := Phi1 V c t.val
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (acc1 V c t.val).1 := by dsimp only [dat1]
theorem after1_2 (c : Dev nD) (t : Fin cfg1.N) : (dat1 V c).after 2 t = (acc1 V c t.val).2 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The closed forms of the two conditions say which of the three cases the point is in.
    The invariant hands the body the scratch rows — at anything at the first point, at what the point before left
    afterwards — and takes them back at this point's running sums; the output buffers are handed back untouched
    except at the last point, where they receive the running sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) from rfl, Phi1_succ]
  rw [show (dat1 V c).leavesExact 0 t = owns (c : Thread nD τ) (ms1_0 t) fullShare ((dat1 V c).after 0 t) from by
      unfold Dat.leavesExact; rw [liveAt1_0 t], after1_0]
  have hN : t.val < 25 := lt_of_lt_of_eq t.isLt (show cfg1.N = 25 from N_1)
  rw [Phi1_castSucc V c t]
  by_cases h0 : t.val = 0
  · -- the first point
    have hc0 : cnd1_0 (grid1.coords t) := (hcnd1_0 t).mpr h0
    have hc1 : ¬cnd1_1 (grid1.coords t) := fun h => by have := (hcnd1_1 t).mp h; omega
    rw [Dat.leavesExact_idle (dat1 V c) 1 t (idleAt1_1 t hc1) (noFlush1_1 t hc1)]
    rw [Dat.leavesExact_idle (dat1 V c) 2 t (idleAt1_2 t hc1) (noFlush1_2 t hc1)]
    rw [acc1_first V c t h0]
    rw [Phi1_zero V c _ h0, scopedRest1_split]
    iintro ⟨⟨⟨HS0, HS1⟩, Hr⟩, Ho, ⟨%d0, H0⟩, ⟨%d1, H1⟩, ⟨%d2, H2⟩⟩
    iapply (run1_A c (grid1.coords t) Set.univ _ _ _ _ _ _ _ _ _ _ hc0 hc1 (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr]
    · isplitr [Hr]
      · isplitl [HS0]; · iexact HS0
        iexact HS1
      iexact Hr
    isplitl [Ho]; · iexact Ho
    isplitl [H0]; · iexact H0
    isplitl [H1]; · iexists _; iexact H1
    iexists _; iexact H2
  · rw [Phi1_pos V c _ h0, acc1_step V c t h0]
    by_cases h1 : t.val = 24
    · -- the last point
      have hc0 : ¬cnd1_0 (grid1.coords t) := fun h => h0 ((hcnd1_0 t).mp h)
      have hc1 : cnd1_1 (grid1.coords t) := (hcnd1_1 t).mpr h1
      rw [show (dat1 V c).leavesExact 1 t = owns (c : Thread nD τ) (ms1_1 t) fullShare ((dat1 V c).after 1 t) from by
        unfold Dat.leavesExact; rw [liveAt1_1 t hc1], after1_1]
      rw [show (dat1 V c).leavesExact 2 t = owns (c : Thread nD τ) (ms1_2 t) fullShare ((dat1 V c).after 2 t) from by
        unfold Dat.leavesExact; rw [liveAt1_2 t hc1], after1_2]
      rw [acc1_step V c t h0]
      iintro ⟨⟨⟨HS0, HS1⟩, Hr⟩, Ho, ⟨%d0, H0⟩, ⟨%d1, H1⟩, ⟨%d2, H2⟩⟩
      iapply (run1_C c (grid1.coords t) Set.univ _ _ _ _ _ _ _ _ _ _ hc0 hc1 (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr]
      · isplitr [Hr]
        · isplitl [HS0]; · iexact HS0
          iexact HS1
        iexact Hr
      isplitl [Ho]; · iexact Ho
      isplitl [H0]; · iexact H0
      isplitl [H1]; · iexact H1
      iexact H2
    · -- a middle point
      have hc0 : ¬cnd1_0 (grid1.coords t) := fun h => h0 ((hcnd1_0 t).mp h)
      have hc1 : ¬cnd1_1 (grid1.coords t) := fun h => h1 ((hcnd1_1 t).mp h)
      rw [Dat.leavesExact_idle (dat1 V c) 1 t (idleAt1_1 t hc1) (noFlush1_1 t hc1)]
      rw [Dat.leavesExact_idle (dat1 V c) 2 t (idleAt1_2 t hc1) (noFlush1_2 t hc1)]
      iintro ⟨⟨⟨HS0, HS1⟩, Hr⟩, Ho, ⟨%d0, H0⟩, ⟨%d1, H1⟩, ⟨%d2, H2⟩⟩
      iapply (run1_B c (grid1.coords t) Set.univ _ _ _ _ _ _ _ _ _ _ hc0 hc1 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr]
      · isplitr [Hr]
        · isplitl [HS0]; · iexact HS0
          iexact HS1
        iexact Hr
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the scoped rest) is the invariant before the first point. -/
theorem hin1 (c : Dev nD) :
    (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 from rfl, Phi1_zero V c 0 rfl]

/-- After the last point the invariant gives the scoped rest back: the scratch rows' named contents are forgotten. -/
theorem hout1 (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val from rfl,
    Phi1_pos V c _ (by rw [Fin.val_last]; have : cfg1.N = 25 := N_1; omega), scopedRest1_split]
  iintro ⟨⟨HS0, HS1⟩, Hr⟩
  isplitr [Hr]
  · isplitl [HS0]; · iexists _; iexact HS0
    iexists _; iexact HS1
  iexact Hr

/-! ## The two output arrays after the region

Each output window's block is its whole [1, 128] array (the index map is constantly zero) and is written back at the
last point only, where the staging buffer holds the running sums of all 25 blocks. -/

theorem last1 : (24 : ℕ) < cfg1.N := by rw [show cfg1.N = 25 from N_1]; decide

/-- Both output windows sit at block index zero on both axes at every point: decided over the grid. -/
theorem idx1_out : ∀ t : Fin cfg1.N, win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What a flushing point writes back to window 1's array is the first running sum after the last point, read
    through the block (which is the whole array). -/
theorem flushed1_1_eq (c : Dev nD) (t : Fin cfg1.N) (hf : (cfg1.win 1).flush t = true) :
    (dat1 V c).flushed 1 t = ((cfg1.win 1).blk t).view.read (Elt F) ((acc1 V c 24).1) := by
  have h24 : t.val = 24 := by
    have h := (flush1_1 t).mp hf
    have hN : t.val < 25 := lt_of_lt_of_eq t.isLt (show cfg1.N = 25 from N_1)
    omega
  show (cfg1.win 1).cut (grid1.coords t) ((dat1 V c).after 1 t) = _
  rw [after1_1, h24]
  obtain ⟨e0, e1, -, -⟩ := idx1_out t
  funext j
  show (acc1 V c 24).1 j = (acc1 V c 24).1 (((cfg1.win 1).blk t).view.emb j)
  refine congrArg (acc1 V c 24).1 ?_
  funext a; apply Fin.ext
  match a with
  | ⟨0, _⟩ => show (j 0).val = win1_1.index t (0 : Fin 2) * 1 + 1 * (j 0).val; omega
  | ⟨1, _⟩ => show (j 1).val = win1_1.index t (1 : Fin 2) * 128 + 1 * (j 1).val; omega

theorem flushed1_2_eq (c : Dev nD) (t : Fin cfg1.N) (hf : (cfg1.win 2).flush t = true) :
    (dat1 V c).flushed 2 t = ((cfg1.win 2).blk t).view.read (Elt F) ((acc1 V c 24).2) := by
  have h24 : t.val = 24 := by
    have h := (flush1_2 t).mp hf
    have hN : t.val < 25 := lt_of_lt_of_eq t.isLt (show cfg1.N = 25 from N_1)
    omega
  show (cfg1.win 2).cut (grid1.coords t) ((dat1 V c).after 2 t) = _
  rw [after1_2, h24]
  obtain ⟨-, -, e0, e1⟩ := idx1_out t
  funext j
  show (acc1 V c 24).2 j = (acc1 V c 24).2 (((cfg1.win 2).blk t).view.emb j)
  refine congrArg (acc1 V c 24).2 ?_
  funext a; apply Fin.ext
  match a with
  | ⟨0, _⟩ => show (j 0).val = win1_2.index t (0 : Fin 2) * 1 + 1 * (j 0).val; omega
  | ⟨1, _⟩ => show (j 1).val = win1_2.index t (1 : Fin 2) * 128 + 1 * (j 1).val; omega

/-- An index of the array is in point `t`'s block iff each coordinate is in the block's range on its axis. -/
theorem mem_blk1_1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v50_0).slice (win1_1.rect t)).set ↔ _
  rw [View.set_slice_whole, Rect.mem_set_unit]
  exact Iff.rfl

theorem mem_blk1_2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v50_1).slice (win1_2.rect t)).set ↔ _
  rw [View.set_slice_whole, Rect.mem_set_unit]
  exact Iff.rfl

/-- THE FIRST OUTPUT ARRAY after the region: the running column sums after the last point. -/
theorem arrAt1_1 (c : Dev nD) : (dat1 V c).arrAt 1 cfg1.N = (acc1 V c 24).1 :=
  (dat1 V c).arrAt_eq_of_cover 1 ((acc1 V c 24).1) (fun t hf => flushed1_1_eq V c t hf) (fun i => by
    refine ⟨⟨24, last1⟩, (flush1_1 _).mpr rfl, ?_⟩
    rw [mem_blk1_1]
    obtain ⟨e0, e1, -, -⟩ := idx1_out ⟨24, last1⟩
    have hi0 : (i 0).val < 1 := (i 0).isLt
    have hi1 : (i 1).val < 128 := (i 1).isLt
    intro a
    match a with
    | ⟨0, _⟩ => show win1_1.index ⟨24, last1⟩ (0 : Fin 2) * 1 ≤ (i 0).val ∧ (i 0).val < win1_1.index ⟨24, last1⟩ (0 : Fin 2) * 1 + 1; omega
    | ⟨1, _⟩ => show win1_1.index ⟨24, last1⟩ (1 : Fin 2) * 128 ≤ (i 1).val ∧ (i 1).val < win1_1.index ⟨24, last1⟩ (1 : Fin 2) * 128 + 128; omega)

/-- THE SECOND OUTPUT ARRAY after the region: the running column sums of squares after the last point. -/
theorem arrAt1_2 (c : Dev nD) : (dat1 V c).arrAt 2 cfg1.N = (acc1 V c 24).2 :=
  (dat1 V c).arrAt_eq_of_cover 2 ((acc1 V c 24).2) (fun t hf => flushed1_2_eq V c t hf) (fun i => by
    refine ⟨⟨24, last1⟩, (flush1_2 _).mpr rfl, ?_⟩
    rw [mem_blk1_2]
    obtain ⟨-, -, e0, e1⟩ := idx1_out ⟨24, last1⟩
    have hi0 : (i 0).val < 1 := (i 0).isLt
    have hi1 : (i 1).val < 128 := (i 1).isLt
    intro a
    match a with
    | ⟨0, _⟩ => show win1_2.index ⟨24, last1⟩ (0 : Fin 2) * 1 ≤ (i 0).val ∧ (i 0).val < win1_2.index ⟨24, last1⟩ (0 : Fin 2) * 1 + 1; omega
    | ⟨1, _⟩ => show win1_2.index ⟨24, last1⟩ (1 : Fin 2) * 128 ≤ (i 1).val ∧ (i 1).val < win1_2.index ⟨24, last1⟩ (1 : Fin 2) * 128 + 128; omega)

end Region1

end Cert.KernelIdeal.Frm

end
-- ==== Proof.KI.Region2.lean ====
/- Region 2 of the program: batch normalisation followed by the final linear layer, in 25 row blocks of 2000 rows.
   At each grid point the body reads a 2000×128 block of activations h, four 1×128 rows (mean, variance, scale γ,
   shift β), the 128×3 weight matrix and the 1×3 bias, and overwrites the 2000×3 output block with
       ((h − mean) · rsqrt(var + ε) · γ + β) · W + b,
   the rows broadcast down the 2000 rows of the block and the product taken into a zero accumulator.
   This file states, for arbitrary contents `V` of the core's buffers at the moment the region is entered,
   what every staging buffer holds after the body at each point, and proves that the body really leaves it there. -/
import proofs.«181423_j46755013984832_1_alg».proof.Proof.Gen.KernelIdeal.Launch
import proofs.«181423_j46755013984832_1_alg».proof.Proof.Gen.KernelIdeal.Skeleton
import proofs.«181423_j46755013984832_1_alg».proof.Proof.Gen.KernelIdeal.Points
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- what each of the core's buffers holds when the region starts
variable (V : (c : Dev nD) → (b : Ref sig .tc) → Buf (Elt F) ((c : Thread nD τ).loc b))

/-- The part of window `w`'s array that point `t` works on: rows 2000·t … 2000·t+1999 of the activations (window 0)
    or of the result (window 7); for windows 1–6 the whole (small) array at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of normalisation input rows (window 0) is fetched at every point. Its current staging buffer holds its block at every point. -/
theorem held2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (a 1×128 row) is fetched once, at the first point, and is the same block at every point. Its current staging buffer holds its block at every point. -/
theorem held2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (a 1×128 row): as window 1. Its current staging buffer holds its block at every point. -/
theorem held2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 (a 1×128 row): as window 1. Its current staging buffer holds its block at every point. -/
theorem held2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 (a 1×128 row): as window 1. Its current staging buffer holds its block at every point. -/
theorem held2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 (the 128×3 weight matrix): as window 1. Its current staging buffer holds its block at every point. -/
theorem held2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Window 6 (the 1×3 bias row): as window 1. Its current staging buffer holds its block at every point. -/
theorem held2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Each staging buffer as one rectangle covering it: offset (0,0), full extent. -/
abbrev whole2_rows : Rect S2000x128 := Rect.unit (s := S2000x128) ![0, 0] S2000x128.size inb_S2000x128_S2000x128_0_0
abbrev whole2_row : Rect S1x128 := Rect.unit (s := S1x128) ![0, 0] S1x128.size inb_S1x128_S1x128_0_0
abbrev whole2_wts : Rect S128x3 := Rect.unit (s := S128x3) ![0, 0] S128x3.size inb_S128x3_S128x3_0_0
abbrev whole2_bias : Rect S1x3 := Rect.unit (s := S1x3) ![0, 0] S1x3.size inb_S1x3_S1x3_0_0
abbrev whole2_out : Rect S2000x3 := Rect.unit (s := S2000x3) ![0, 0] S2000x3.size inb_S2000x3_S2000x3_0_0

/-- The output block after the body, as a function of the seven input blocks taken in window order. The body reads
    window 2 before window 1, which is why the second and third arguments of the arithmetic appear swapped. -/
def out2_7 (x0 : Vec F S2000x128 .f32) (x1 : Vec F S1x128 .f32) (x2 : Vec F S1x128 .f32) (x3 : Vec F S1x128 .f32) (x4 : Vec F S1x128 .f32) (x5 : Vec F S128x3 .f32) (x6 : Vec F S1x3 .f32) : Vec F S2000x3 .f32 :=
  View.canon [⟨whole2_out, k2_pay1 (View.ld x0 whole2_rows) (View.ld x2 whole2_row) (View.ld x1 whole2_row) (View.ld x3 whole2_row) (View.ld x4 whole2_row) (View.ld x5 whole2_wts) (View.ld x6 whole2_bias)⟩]

/-- The one store reaches every entry of the output buffer. -/
theorem covers2_7 (p0 : Vec F S2000x3 .f32) (y : S2000x3.Idx) :
    ∃ pc ∈ ([⟨whole2_out, p0⟩] : List (View.Piece (Elt F) S2000x3 .f32)), y ∈ pc.1.set :=
  View.cover_of_tiled [⟨whole2_out, p0⟩] S2000x3.size (by rfl) y

set_option maxHeartbeats 1000000 in
/-- Running the body on eight whole staging buffers — the seven inputs holding `x0 … x6`, the output holding
    anything — ends with the inputs unchanged and the output at `out2_7 x0 … x6`. -/
theorem body_run2 (c : Dev nD) (E : Set ℕ) (i : grid2.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S128x3 .f32) (harg6 : arg6.IsWhole)
    (arg7 : Memref sig .tc .vmem S1x3 .f32) (harg7 : arg7.IsWhole)
    (arg8 : Memref sig .tc .vmem S2000x3 .f32) (harg8 : arg8.IsWhole)
    (x0 : Vec F S2000x128 .f32) (x1 : Vec F S1x128 .f32) (x2 : Vec F S1x128 .f32) (x3 : Vec F S1x128 .f32) (x4 : Vec F S1x128 .f32) (x5 : Vec F S128x3 .f32) (x6 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__final_kernel i arg1 harg1 arg2 harg2 arg3 harg3 arg4 harg4 arg5 harg5 arg6 harg6 arg7 harg7 arg8 harg8) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers2_7 _)

/-- The proof data of this region on core `c`: the arrays are what the region finds (`V`); after the body at point `t`
    the seven input buffers still hold their blocks and the output buffer holds `out2_7` of those blocks; the
    invariant carried between points is the untouched rest of the core's state; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  held2_0_of V (dat2 V c) (A_eq2 V c 0) (after2_0 V c) t d
theorem before2_1 (c : Dev nD) (t : Fin cfg2.N) (d) : (dat2 V c).before 1 t d = iblk2 V c 1 t :=
  held2_1_of V (dat2 V c) (A_eq2 V c 1) (after2_1 V c) t d
theorem before2_2 (c : Dev nD) (t : Fin cfg2.N) (d) : (dat2 V c).before 2 t d = iblk2 V c 2 t :=
  held2_2_of V (dat2 V c) (A_eq2 V c 2) (after2_2 V c) t d
theorem before2_3 (c : Dev nD) (t : Fin cfg2.N) (d) : (dat2 V c).before 3 t d = iblk2 V c 3 t :=
  held2_3_of V (dat2 V c) (A_eq2 V c 3) (after2_3 V c) t d
theorem before2_4 (c : Dev nD) (t : Fin cfg2.N) (d) : (dat2 V c).before 4 t d = iblk2 V c 4 t :=
  held2_4_of V (dat2 V c) (A_eq2 V c 4) (after2_4 V c) t d
theorem before2_5 (c : Dev nD) (t : Fin cfg2.N) (d) : (dat2 V c).before 5 t d = iblk2 V c 5 t :=
  held2_5_of V (dat2 V c) (A_eq2 V c 5) (after2_5 V c) t d
theorem before2_6 (c : Dev nD) (t : Fin cfg2.N) (d) : (dat2 V c).before 6 t d = iblk2 V c 6 t :=
  held2_6_of V (dat2 V c) (A_eq2 V c 6) (after2_6 V c) t d

/-- What the body is entered with at point `t`: the invariant, the core's debts, and the eight current staging
    buffers at what the pipeline put in them, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it must return: the same with each buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at an arbitrary point: the input buffers hold their blocks, so `body_run2` applies; the invariant and
    the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Frm

end
-- ==== Proof.KI.Assembly.lean ====
/-
  The whole program as a chain of segments: three kernel regions with the host operations between them. The buffer
  contents at each boundary are folded through the program: a host stretch applies its operations to the contents
  it finds, a region replaces each of its windows' arrays by what its grid points wrote back and leaves every other
  buffer alone. Every weakly fair execution ends with every unscoped buffer at the last boundary's contents; the
  arguments are read there (no stretch and no region writes one), and the result is the last region's output array.
-/
import proofs.«181423_j46755013984832_1_alg».proof.Proof.KI.Region0
import proofs.«181423_j46755013984832_1_alg».proof.Proof.KI.Region1
import proofs.«181423_j46755013984832_1_alg».proof.Proof.KI.Region2
import proofs.«181423_j46755013984832_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After the first region: its output array holds the row blocks of the product. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After each of the four host stretches between the first and the second region. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
abbrev U5 : (c : Dev nD) → (b : Ref sig .tc) → Buf (Elt F) ((c : Thread nD τ).loc b) := fun c b => W5 m ρ c b
/-- After the second region: its two output arrays hold the column sums and the column sums of squares. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)

/-- After the host stretch that forms the mean and the variance. -/
abbrev W7 : Dev nD → Valuation τ sig (Elt F) := fun c => StableHlo.after hostOps2 (W6 m ρ c)
abbrev U7 : (c : Dev nD) → (b : Ref sig .tc) → Buf (Elt F) ((c : Thread nD τ).loc b) := fun c b => W7 m ρ c b
/-- After the third region: its output array holds the result's row blocks. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U5 m ρ) c
  | ⟨2, _⟩ => fun c => dat2 (U7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: its arrays are split out of the unscoped buffers at entry and put back at the
    exit contents; the generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: as the other two, except that its invariant is made from the scoped buffers
    alone (the two accumulators live there), so the generator register bypasses the region. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X _ := BI.emp
  Y _ := BI.emp
  Z c := iprop(Pipeline.unscopedRest (Ix := Unit) (Name := ℕ) (U := UR sig nD τ) (Lvl := ℕ) spec1 c (U5 m ρ c) ∗ ∃ r, prngReg c r)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = (dat1 (U5 m ρ) c).Φ 0 from rfl]
    iintro ⟨-, -, Hr⟩
    iapply (hin1 (U5 m ρ) c)
    iexact Hr
  hout c := by
    rw [Pipeline.ownSems0_none, show (pdats m ρ 1 c).Φ (Fin.last _) = (dat1 (U5 m ρ) c).Φ (Fin.last cfg1.N) from rfl]
    iintro Hr
    isplitr; · iempintro
    isplitr; · iempintro
    iapply (hout1 (U5 m ρ) c)
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 2 over the thread state: its arrays are split out of the unscoped buffers at entry and put back at the
    exit contents; the generator register goes into the invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U7 m ρ c) (U8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .region (reg1 m ρ),
    .host (hseg hostOps2 hostOps2_sub hostOps2_fresh (W6 m ρ)),
    .region (reg2 m ρ) ]

theorem main_run (c : Dev nD) : main (F := F) c = Pipeline.Seg.run (segs m ρ) := (main_chain c).trans (by chain_rfl)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The arguments end as launched -/

/-- A buffer none of the four host stretches between the first two regions writes is the same before and after them. -/
theorem W5_of (c : Dev nD) (r : Ref sig .tc) (h1 : r ∉ hostOps1_W) (h2 : r ∉ hostOps1_1_W) (h3 : r ∉ hostOps1_2_W)
    (h4 : r ∉ hostOps1_3_W) : W5 m ρ c r = W1 m ρ c r :=
  (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans
      (StableHlo.after_of_writes_sub hostOps1 _ hostOps1_writes h1)
theorem W7_of (c : Dev nD) (r : Ref sig .tc) (h : r ∉ hostOps2_W) : W7 m ρ c r = W6 m ρ c r :=
  StableHlo.after_of_writes_sub hostOps2 _ hostOps2_writes h

/-- A buffer that is no window's array of any region and that no host stretch writes ends as launched. -/
theorem kept_bypass (c : Dev nD) (r : Ref sig .tc) (h0 : ∀ w, Pipeline.arrRef spec0 w ≠ r) (h1 : ∀ w, Pipeline.arrRef spec1 w ≠ r)
    (h2 : ∀ w, Pipeline.arrRef spec2 w ≠ r) (g1 : r ∉ hostOps1_W) (g2 : r ∉ hostOps1_1_W) (g3 : r ∉ hostOps1_2_W)
    (g4 : r ∉ hostOps1_3_W) (g5 : r ∉ hostOps2_W) : W8 m ρ c r = m ((c : Thread nD τ).loc r) :=
  (W8_of_ne m ρ c r h2).trans <| (W7_of m ρ c r g5).trans <| (W6_of_ne m ρ c r h1).trans <|
    (W5_of m ρ c r g1 g2 g3 g4).trans <| (W1_of_ne m ρ c r h0).trans rfl

theorem W8_main_arg1 (c : Dev nD) : W8 m ρ c main_arg1 = m ((c : Thread nD τ).loc main_arg1) :=
  kept_bypass m ρ c main_arg1 (by decide) (by decide) (by decide) (by decide) (by decide) (by decide) (by decide) (by decide)
theorem W8_main_arg2 (c : Dev nD) : W8 m ρ c main_arg2 = m ((c : Thread nD τ).loc main_arg2) :=
  kept_bypass m ρ c main_arg2 (by decide) (by decide) (by decide) (by decide) (by decide) (by decide) (by decide) (by decide)
theorem W8_main_arg4 (c : Dev nD) : W8 m ρ c main_arg4 = m ((c : Thread nD τ).loc main_arg4) :=
  kept_bypass m ρ c main_arg4 (by decide) (by decide) (by decide) (by decide) (by decide) (by decide) (by decide) (by decide)
theorem W8_main_arg5 (c : Dev nD) : W8 m ρ c main_arg5 = m ((c : Thread nD τ).loc main_arg5) :=
  kept_bypass m ρ c main_arg5 (by decide) (by decide) (by decide) (by decide) (by decide) (by decide) (by decide) (by decide)
theorem W8_main_arg6 (c : Dev nD) : W8 m ρ c main_arg6 = m ((c : Thread nD τ).loc main_arg6) :=
  kept_bypass m ρ c main_arg6 (by decide) (by decide) (by decide) (by decide) (by decide) (by decide) (by decide) (by decide)
theorem W8_main_arg8 (c : Dev nD) : W8 m ρ c main_arg8 = m ((c : Thread nD τ).loc main_arg8) :=
  kept_bypass m ρ c main_arg8 (by decide) (by decide) (by decide) (by decide) (by decide) (by decide) (by decide) (by decide)
/-- The first region reads the two arrays it multiplies through input windows: an input window's array is as entered. -/
theorem W8_main_arg0 (c : Dev nD) : W8 m ρ c main_arg0 = m ((c : Thread nD τ).loc main_arg0) :=
  (W8_of_ne m ρ c main_arg0 (by decide)).trans <| (W7_of m ρ c main_arg0 (by decide)).trans <|
    (W6_of_ne m ρ c main_arg0 (by decide)).trans <|
    (W5_of m ρ c main_arg0 (by decide) (by decide) (by decide) (by decide)).trans <|
    (W1_arr m ρ c 0).trans (((dat0 (U0 m ρ) c).arrAt_in 0 rfl _).trans (A_eq0 (U0 m ρ) c 0))
theorem W8_main_arg3 (c : Dev nD) : W8 m ρ c main_arg3 = m ((c : Thread nD τ).loc main_arg3) :=
  (W8_of_ne m ρ c main_arg3 (by decide)).trans <| (W7_of m ρ c main_arg3 (by decide)).trans <|
    (W6_of_ne m ρ c main_arg3 (by decide)).trans <|
    (W5_of m ρ c main_arg3 (by decide) (by decide) (by decide) (by decide)).trans <|
    (W1_arr m ρ c 1).trans (((dat0 (U0 m ρ) c).arrAt_in 1 rfl _).trans (A_eq0 (U0 m ρ) c 1))
/-- The last region reads the second weight matrix through an input window. -/
theorem W8_main_arg7 (c : Dev nD) : W8 m ρ c main_arg7 = m ((c : Thread nD τ).loc main_arg7) :=
  (W8_arr m ρ c 5).trans <| (((dat2 (U7 m ρ) c).arrAt_in 5 rfl _).trans (A_eq2 (U7 m ρ) c 5)).trans <|
    (W7_of m ρ c main_arg7 (by decide)).trans <| (W6_of_ne m ρ c main_arg7 (by decide)).trans <|
    (W5_of m ρ c main_arg7 (by decide) (by decide) (by decide) (by decide)).trans <| (W1_of_ne m ρ c main_arg7 (by decide)).trans rfl

/-- The frame: every weakly fair execution terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

/-- The same run with the result array named: what the last region's grid points wrote back. -/
theorem run_result : θ_run defs (onTc (τ := τ) (main (F := F))) ⟨m, fun _ => 0, ρ⟩ (fun r => ∀ c : Dev nD,
      r.2.mem ((c.tc : Thread nD τ).loc main_v60) = (dat2 (U7 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v60 (by decide))).trans (W8_arr m ρ c 7),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_all m ρ)

end Cert.KernelIdeal.Frm

end
-- ==== Proof.KI.Kept.lean ====
/-
  What single buffers hold at the boundaries between the segments of the program: an argument that no region stages
  as an output and no host operation writes is as launched; a region's output array holds what its grid points wrote
  back; an input window's array leaves its region as it entered.
-/
import proofs.«181423_j46755013984832_1_alg».proof.Proof.KI.Assembly

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## After the first region -/

/-- The first region stages none of these three arguments: they are as launched. -/
theorem W1_main_arg1 (c : Dev nD) : W1 m ρ c main_arg1 = m ((c : Thread nD τ).loc main_arg1) :=
  (W1_of_ne m ρ c main_arg1 (by decide)).trans rfl
theorem W1_main_arg2 (c : Dev nD) : W1 m ρ c main_arg2 = m ((c : Thread nD τ).loc main_arg2) :=
  (W1_of_ne m ρ c main_arg2 (by decide)).trans rfl
theorem W1_main_arg4 (c : Dev nD) : W1 m ρ c main_arg4 = m ((c : Thread nD τ).loc main_arg4) :=
  (W1_of_ne m ρ c main_arg4 (by decide)).trans rfl

/-- The first region's output array holds what its grid points wrote back. -/
theorem W1_main_v0 (c : Dev nD) : W1 m ρ c main_v0 = (dat0 (U0 m ρ) c).arrAt 2 cfg0.N :=
  W1_arr m ρ c 2

/-! ## After the second region -/

/-- The second region's two output arrays hold the running column sums, and the running column sums of squares,
    after its last grid point. -/
theorem W6_main_v50_0 (c : Dev nD) : W6 m ρ c main_v50_0 = (acc1 (U5 m ρ) c 24).1 :=
  (W6_arr m ρ c 1).trans (arrAt1_1 (U5 m ρ) c)
theorem W6_main_v50_1 (c : Dev nD) : W6 m ρ c main_v50_1 = (acc1 (U5 m ρ) c 24).2 :=
  (W6_arr m ρ c 2).trans (arrAt1_2 (U5 m ρ) c)

/-- Neither of the first two regions stages these three arguments and no host operation between them writes one:
    they are as launched. -/
theorem W6_main_arg5 (c : Dev nD) : W6 m ρ c main_arg5 = m ((c : Thread nD τ).loc main_arg5) :=
  (W6_of_ne m ρ c main_arg5 (by decide)).trans <|
    (W5_of m ρ c main_arg5 (by decide) (by decide) (by decide) (by decide)).trans <|
    (W1_of_ne m ρ c main_arg5 (by decide)).trans rfl
theorem W6_main_arg6 (c : Dev nD) : W6 m ρ c main_arg6 = m ((c : Thread nD τ).loc main_arg6) :=
  (W6_of_ne m ρ c main_arg6 (by decide)).trans <|
    (W5_of m ρ c main_arg6 (by decide) (by decide) (by decide) (by decide)).trans <|
    (W1_of_ne m ρ c main_arg6 (by decide)).trans rfl
theorem W6_main_arg8 (c : Dev nD) : W6 m ρ c main_arg8 = m ((c : Thread nD τ).loc main_arg8) :=
  (W6_of_ne m ρ c main_arg8 (by decide)).trans <|
    (W5_of m ρ c main_arg8 (by decide) (by decide) (by decide) (by decide)).trans <|
    (W1_of_ne m ρ c main_arg8 (by decide)).trans rfl

/-- The activations are the second region's input window: the array leaves the region as it entered. -/
theorem W6_main_v49 (c : Dev nD) : W6 m ρ c main_v49 = W5 m ρ c main_v49 :=
  (W6_arr m ρ c 0).trans (((dat1 (U5 m ρ) c).arrAt_in 0 rfl _).trans (A_eq1 (U5 m ρ) c 0))

/-! ## After the host stretch between the second and the third region -/

/-- That stretch does not write the activations. -/
theorem W7_main_v49 (c : Dev nD) : W7 m ρ c main_v49 = W5 m ρ c main_v49 :=
  (W7_of m ρ c main_v49 (by decide)).trans (W6_main_v49 m ρ c)

/-- The second weight matrix is untouched up to the third region. -/
theorem W7_main_arg7 (c : Dev nD) : W7 m ρ c main_arg7 = m ((c : Thread nD τ).loc main_arg7) :=
  (W7_of m ρ c main_arg7 (by decide)).trans <| (W6_of_ne m ρ c main_arg7 (by decide)).trans <|
    (W5_of m ρ c main_arg7 (by decide) (by decide) (by decide) (by decide)).trans <|
    (W1_of_ne m ρ c main_arg7 (by decide)).trans rfl

end Cert.KernelIdeal.Frm

end
-- ==== Proof.KI.Value0.lean ====
/- Region 0 (h0 = x · conv_w in 25 row blocks of 2000 rows), from the blocks to the whole array.
   Each input block is read where it sits in its array; what a point writes back is the matching block of any
   whole-array function that agrees with the body's result block by block; the 25 blocks cover the 50000 rows, so
   after the region the result array is that function. No arithmetic of the product is used here. -/
import proofs.«181423_j46755013984832_1_alg».proof.Proof.KI.Region0
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value0
variable (V : (c : Dev nD) → (b : Ref sig .tc) → Buf (Elt F) ((c : Thread nD τ).loc b))

/-- The grid has 25 points. -/
theorem pt_lt0 (t : Fin cfg0.N) : t.val < 25 := lt_of_lt_of_eq t.isLt N_0

/-- Row `r` of the block of point `t` is row `2000·t + r` of the whole array. -/
def row0 (t : Fin cfg0.N) (r : Fin 2000) : Fin 50000 :=
  ⟨2000 * t.val + r.val, by have := pt_lt0 t; have := r.isLt; omega⟩

/-- The offset (0,0) of a whole-buffer rectangle, as a constant function. -/
theorem origin0 : (![0, 0] : Fin 2 → Nat) = fun _ => 0 := funext fun a => by fin_cases a <;> rfl

/-- The single store covers the whole output buffer and both loads read whole buffers, so the output block after the
    body is the product payload of the two input blocks themselves. -/
theorem out0_2_eq (x0 : Vec F S2000x128 .f32) (x1 : Vec F S128x128 .f32) : out0_2 x0 x1 = k0_pay1 x0 x1 := by
  unfold out0_2
  rw [View.canon_unit_zero origin0]
  simp only [View.ld_unit_zero (S := S2000x128) origin0, View.ld_unit_zero (S := S128x128) origin0]

/-- Where the blocks sit: at point `t` the row-block index of x and of the result is `t`, the column-block index is 0,
    and the weights are always block (0,0). Checked at each of the 25 points. -/
theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the x block at point `t` is the entry of x in row `2000·t + (row in the block)`, same column. -/
theorem blk0_0 (c : Dev nD) (t : Fin cfg0.N) (y : S2000x128.Idx) :
    iblk0 V c 0 t y = V c main_arg0 (ix2 (row0 t (y 0)) (y 1)) := by
  obtain ⟨e0, e1, -, -, -, -⟩ := where0 t
  show V c main_arg0 (((cfg0.win 0).blk t).view.emb y) = V c main_arg0 (ix2 (row0 t (y 0)) (y 1))
  refine congrArg (V c main_arg0) ?_
  funext a; apply Fin.ext
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

/-- The weight block is the whole weight matrix at every point. -/
theorem blk0_1 (c : Dev nD) (t : Fin cfg0.N) (y : S128x128.Idx) :
    iblk0 V c 1 t y = V c main_arg3 y := by
  obtain ⟨-, -, e2, e3, -, -⟩ := where0 t
  show V c main_arg3 (((cfg0.win 1).blk t).view.emb y) = V c main_arg3 y
  refine congrArg (V c main_arg3) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Where an entry of the result block of point `t` sits in the whole result. -/
theorem emb0_2 (t : Fin cfg0.N) (y : S2000x128.Idx) :
    ((cfg0.win 2).blk t).view.emb y = ix2 (row0 t (y 0)) (y 1) := by
  obtain ⟨-, -, -, -, e4, e5⟩ := where0 t
  funext a; apply Fin.ext
  match a with
  | ⟨0, _⟩ => show win0_2.index t (0 : Fin 2) * 2000 + 1 * (y 0).val = 2000 * t.val + (y 0).val; omega
  | ⟨1, _⟩ => show win0_2.index t (1 : Fin 2) * 128 + 1 * (y 1).val = (y 1).val; omega

/-- An entry of the result lies in the block of point `t` exactly when, on each axis, its coordinate is within the
    block's range. -/
theorem mem0_2 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry of the result lies in the block of some point: row `r` belongs to point `r / 2000`. -/
theorem cover0_2 (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : (i 0).val / 2000 < cfg0.N := lt_of_lt_of_eq (by omega : (i 0).val / 2000 < 25) N_0.symm
  refine ⟨⟨(i 0).val / 2000, hN⟩, flush0_2 _, ?_⟩
  obtain ⟨-, -, -, -, e4, e5⟩ := where0 ⟨(i 0).val / 2000, hN⟩
  rw [mem0_2]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 128 ≤ (i 1).val ∧ (i 1).val < win0_2.index ⟨(i 0).val / 2000, hN⟩ (1 : Fin 2) * 128 + 128
    rw [e5]; omega

/-- What point `t` writes back is block `t` of `G`, for any whole-array function `G` that agrees with the body's
    result on every block. -/
theorem flushed0_2 (c : Dev nD) (G : S50000x128.Idx → Elt F .f32)
    (hG : ∀ (t : Fin cfg0.N) (y : S2000x128.Idx),
      out0_2 (iblk0 V c 0 t) (iblk0 V c 1 t) y = G (ix2 (row0 t (y 0)) (y 1)))
    (t : Fin cfg0.N) :
    (dat0 V c).flushed 2 t = ((cfg0.win 2).blk t).view.read (Elt F) G := by
  show (cfg0.win 2).cut (grid0.coords t) ((dat0 V c).after 2 t) = _
  rw [after0_2]
  funext y
  show out0_2 (iblk0 V c 0 t) (iblk0 V c 1 t) y = G (((cfg0.win 2).blk t).view.emb y)
  exact (hG t y).trans (congrArg G (emb0_2 t y).symm)

/-- The result array after the region is `G`, for any `G` that agrees with the body's result on every block: the 25
    blocks are written back one by one and together they cover the array. -/
theorem final0 (c : Dev nD) (G : S50000x128.Idx → Elt F .f32)
    (hG : ∀ (t : Fin cfg0.N) (y : S2000x128.Idx),
      out0_2 (iblk0 V c 0 t) (iblk0 V c 1 t) y = G (ix2 (row0 t (y 0)) (y 1))) :
    (dat0 V c).arrAt 2 cfg0.N = G :=
  (dat0 V c).arrAt_eq_of_cover 2 G (fun t _ => flushed0_2 V c G hG t) cover0_2

end Value0

end Cert.KernelIdeal.Frm

end
-- ==== Proof.Spec.Matmul.lean ====
/-
  The first stage of both programs, read one entry at a time over the extended reals: the product of the
  feature matrix with the convolution's weight matrix. A row block of 2000 rows times the whole 128 × 128
  weight matrix, accumulated into zero, has at (p, q) the sum over k of block(p, k) · weight(k, q); the
  whole-array product has the same sum at (i, q). A change of float format is the identity on extended
  reals, so the narrowing of both operands before the product does not show.
-/
import proofs.«181423_j46755013984832_1_alg».proof.Proof.Gen.ReferenceIdeal.Read
import proofs.«181423_j46755013984832_1_alg».proof.Proof.Gen.KernelIdeal.Skeleton
import Idealize.ShloMosaic.PureOps.Ideal.Laws
import Idealize.ShloMosaic.Lib.ValueIdx

noncomputable section

namespace Cert.Spec

open Idealize.ShloMosaic Idealize.ShloMosaic.ValueIdx

/-- The block product's dimension numbers: contract the left operand's columns with the right operand's rows. -/
abbrev blockDot : DotDims Cert.KernelIdeal.S2000x128 Cert.KernelIdeal.S128x128 Cert.KernelIdeal.S2000x128 :=
  Cert.KernelIdeal.dot_S2000x128_S128x128_S2000x128_1_0_0_1_n_n

/-- The left operand's row is the output's row. -/
theorem blockDot_lhs_row (j : Cert.KernelIdeal.S2000x128.Idx) (c : blockDot.contr.Idx) :
    (blockDot.lhsIdx j c 0).val = (j 0).val := by
  unfold DotDims.lhsIdx
  rw [dif_neg (show ¬(0 : Fin Cert.KernelIdeal.S2000x128.rank) ∈ blockDot.lhsBatch by decide),
    dif_pos (show (0 : Fin Cert.KernelIdeal.S2000x128.rank) ∈ blockDot.lhsNonContracting by decide)]
  rfl

/-- The left operand's column is the contraction coordinate. -/
theorem blockDot_lhs_col (j : Cert.KernelIdeal.S2000x128.Idx) (c : blockDot.contr.Idx) :
    (blockDot.lhsIdx j c 1).val = (c ⟨0, by decide⟩).val :=
  blockDot.lhsIdx_val_of_single rfl j c

/-- The right operand's row is the contraction coordinate. -/
theorem blockDot_rhs_row (j : Cert.KernelIdeal.S2000x128.Idx) (c : blockDot.contr.Idx) :
    (blockDot.rhsIdx j c 0).val = (c ⟨0, by decide⟩).val :=
  blockDot.rhsIdx_val_of_single rfl j c

/-- The right operand's column is the output's column. -/
theorem blockDot_rhs_col (j : Cert.KernelIdeal.S2000x128.Idx) (c : blockDot.contr.Idx) :
    (blockDot.rhsIdx j c 1).val = (j 1).val := by
  unfold DotDims.rhsIdx
  rw [dif_neg (show ¬(1 : Fin Cert.KernelIdeal.S128x128.rank) ∈ blockDot.rhsBatch by decide),
    dif_pos (show (1 : Fin Cert.KernelIdeal.S128x128.rank) ∈ blockDot.rhsNonContracting by decide)]
  rfl

/-- One row block of the first product: entry (p, q) is the sum over k of block(p, k) · weight(k, q). -/
theorem matmul_block_apply (xb : Vec Ideal Cert.KernelIdeal.S2000x128 .f32) (cw : Vec Ideal Cert.KernelIdeal.S128x128 .f32)
    (p : Fin 2000) (q : Fin 128) :
    Cert.KernelIdeal.Gen.k0_pay1 (F := Ideal) xb cw (ix2 p q) = ∑ k : Fin 128, xb (ix2 p k) * cw (ix2 k q) := by
  unfold Cert.KernelIdeal.Gen.k0_pay1
  refine (Ideal.matmul_constant_zero_apply blockDot none _ _ (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k :=
    funext fun a => Fin.ext (by
      match a with
      | ⟨0, _⟩ => exact blockDot_lhs_row _ _
      | ⟨1, _⟩ => exact (blockDot_lhs_col _ _).trans hk)
  have er : blockDot.rhsIdx (ix2 p q) ((contrEquiv1 blockDot 128 rfl rfl).symm k) = ix2 k q :=
    funext fun a => Fin.ext (by
      match a with
      | ⟨0, _⟩ => exact (blockDot_rhs_row _ _).trans hk
      | ⟨1, _⟩ => exact blockDot_rhs_col _ _)
  rw [el, er]
  rfl

/-- The whole-array product of the reference: entry (i, q) is the sum over k of x(i, k) · weight(k, q). -/
theorem matmul_ref_apply (x : (⟨Cert.ReferenceIdeal.S50000x128, .f32⟩ : BufTy).Contents (Elt Ideal))
    (cw : (⟨Cert.ReferenceIdeal.S128x128, .f32⟩ : BufTy).Contents (Elt Ideal)) (i : Fin 50000) (q : Fin 128) :
    Cert.ReferenceIdeal.Read.val_main_v32 (F := Ideal) x cw (ix2 i q) = ∑ k : Fin 128, x (ix2 i k) * cw (ix2 k q) := by
  rw [Cert.ReferenceIdeal.Read.val_main_v32_apply]
  refine Finset.sum_congr rfl fun k _ => ?_
  have el : Cert.ReferenceIdeal.Read.lidx_main_v32 (ix2 i q) k = ix2 i k :=
    funext fun a => Fin.ext (by match a with | ⟨0, _⟩ => rfl | ⟨1, _⟩ => rfl)
  have er : Cert.ReferenceIdeal.Read.ridx_main_v32 (ix2 i q) k = ix2 k q :=
    funext fun a => Fin.ext (by match a with | ⟨0, _⟩ => rfl | ⟨1, _⟩ => rfl)
  rw [el, er]

end Cert.Spec

end
-- ==== Proof.Bridge.H0.lean ====
/- The first stage, on both sides: after region 0 the array of h0 holds the reference's product x · conv_w.
   Entry (2000·t + p, q) of the result is written by grid point t as entry (p, q) of its row block's product,
   which is the sum over k of x(2000·t + p, k) · conv_w(k, q): the same sum the whole-array product has there. -/
import proofs.«181423_j46755013984832_1_alg».proof.Proof.KI.Value0
import proofs.«181423_j46755013984832_1_alg».proof.Proof.Spec.Matmul
import proofs.«181423_j46755013984832_1_alg».proof.Proof.Gen.ReferenceIdeal.Read

noncomputable section

namespace Cert.Bridge

open Cert.KernelIdeal Cert.KernelIdeal.Gen Cert.KernelIdeal.Frm
open Idealize.ShloMosaic Idealize.ShloMosaic.TcCoe Idealize.SL.Sem
open Idealize.ShloMosaic.ValueIdx

/-- Whatever the core's buffers hold when region 0 starts, the result array after the region is the whole-array
    product of the two arrays the region reads. -/
theorem h0_eq (V : (c : Dev nD) → (b : Ref sig .tc) → Buf (Elt Ideal) ((c : Thread nD τ).loc b)) (c : Dev nD) :
    (dat0 V c).arrAt 2 cfg0.N
      = Cert.ReferenceIdeal.Read.val_main_v32 (F := Ideal) (V c main_arg0) (V c main_arg3) := by
  refine final0 V c _ fun t y => ?_
  obtain ⟨p, q, rfl⟩ : ∃ (p : Fin 2000) (q : Fin 128), y = ix2 p q := ⟨y 0, y 1, eq_ix2 y⟩
  rw [out0_2_eq]
  refine (Cert.Spec.matmul_block_apply (iblk0 V c 0 t) (iblk0 V c 1 t) p q).trans ?_
  refine Eq.trans ?_ (Cert.Spec.matmul_ref_apply (V c main_arg0) (V c main_arg3) (row0 t p) q).symm
  refine Finset.sum_congr rfl fun k _ => ?_
  rw [blk0_0 V c t (ix2 p k), blk0_1 V c t (ix2 k q)]

end Cert.Bridge

end
-- ==== Proof.Bridge.GlueAlt.lean ====
/-
  The host operations between the first two regions, read back on the kernel side. They are the reference's own
  operations applied to the first region's output in place of the reference's matrix product: the edge list is
  extended by one self-loop per node and the edge weights by ones; each node's degree is the sum of the weights
  of the edges that end at it, and its reciprocal square root is taken where the degree is positive and zero
  elsewhere; every edge's weight is scaled by that factor at both its ends; the rows of the product are
  gathered along the edges' sources, scaled by the normalised weights and added up at the edges' targets; the
  bias row is added and the result clamped at zero. So the buffer the second region reads is the reference's
  activation as soon as the first region's output is the reference's product. The operations come in four
  stretches, read back one stretch at a time from an arbitrary starting content of the buffers: the first
  builds the extended edge list, the extended weights, the degrees' reciprocal square roots and the flag of
  positive degree; the second selects between them; the third gathers, scales, adds up and adds the bias; the
  fourth clamps.
-/
import proofs.«181423_j46755013984832_1_alg».proof.Proof.Gen.KernelIdeal.Launch
import proofs.«181423_j46755013984832_1_alg».proof.Proof.Gen.ReferenceIdeal.Read
import Idealize.ShloMosaic.Lib.StableHlo.Run

noncomputable section

namespace Cert.Bridge

open Cert.KernelIdeal Cert.KernelIdeal.Gen
open Idealize.ShloMosaic Idealize.ShloMosaic.TcCoe Idealize.SL.Sem Idealize.ShloMosaic.StableHlo

/-- The activation as a function of the product `p` of the features with the first weight matrix, the edge list, the
    edge weights and the bias: the reference's stages downstream of its matrix product, with the product a parameter. -/
def actOf (p : FVec Ideal Cert.ReferenceIdeal.S50000x128 .f32)
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S128, .f32⟩ : BufTy).Contents (Elt Ideal)) :
    FVec Ideal Cert.ReferenceIdeal.S50000x128 .f32 :=
  maximumf (F := Ideal) (φ := .f32)
    (addf (F := Ideal) (φ := .f32)
      (Host.scatterAdd (F := Ideal) (φ := .f32) Cert.ReferenceIdeal.scatter_S50000x128_S850000x1_S850000x128_1_0_0_1
        (Cert.ReferenceIdeal.Read.val_main_v43 (F := Ideal)) (Cert.ReferenceIdeal.Read.val_main_v44 (F := Ideal) x1)
        (mulf (F := Ideal) (φ := .f32) (Host.gather Cert.ReferenceIdeal.gather_S50000x128_S850000x1_S850000x128_1_0_n_n_0_1_1128 p
            (Cert.ReferenceIdeal.Read.val_main_v38 (F := Ideal) x1))
          (Cert.ReferenceIdeal.Read.val_main_v41 (F := Ideal) x1 x2)))
      (Cert.ReferenceIdeal.Read.val_main_v47 (F := Ideal) x4))
    (Cert.ReferenceIdeal.Read.val_main_call1_v0 (F := Ideal))

/-- At the reference's own product it is the reference's activation. -/
theorem actOf_product (x0 x1 x2 x3 x4) :
    actOf (Cert.ReferenceIdeal.Read.val_main_v32 (F := Ideal) x0 x3) x1 x2 x4
      = Cert.ReferenceIdeal.Read.val_main_v49 (F := Ideal) x0 x1 x2 x3 x4 := rfl

/-! ## The first stretch: the extended edge list and weights, the degree's reciprocal square root -/

/-- The edges' sources followed by one self-loop per node. -/
theorem row_after (V : Valuation τ sig (Elt Ideal)) :
    StableHlo.after hostOps1 V (Proc.devRef .tc main_v4)
      = Cert.ReferenceIdeal.Read.val_main_v3 (F := Ideal) (V (Proc.devRef .tc main_arg1)) := by
  after_results; rfl

/-- The edges' targets followed by one self-loop per node. -/
theorem col_after (V : Valuation τ sig (Elt Ideal)) :
    StableHlo.after hostOps1 V (Proc.devRef .tc main_v7)
      = Cert.ReferenceIdeal.Read.val_main_v6 (F := Ideal) (V (Proc.devRef .tc main_arg1)) := by
  after_results; rfl

/-- The edge weights followed by a one per self-loop. -/
theorem wts_after (V : Valuation τ sig (Elt Ideal)) :
    StableHlo.after hostOps1 V (Proc.devRef .tc main_v9)
      = Cert.ReferenceIdeal.Read.val_main_v8 (F := Ideal) (V (Proc.devRef .tc main_arg2)) := by
  after_results; rfl

/-- The flag "the node's degree is positive". -/
theorem flag_after (V : Valuation τ sig (Elt Ideal)) :
    StableHlo.after hostOps1 V (Proc.devRef .tc main_v14)
      = Cert.ReferenceIdeal.Read.val_main_v13 (F := Ideal) (V (Proc.devRef .tc main_arg1)) (V (Proc.devRef .tc main_arg2)) := by
  after_results; rfl

/-- The reciprocal square root of each node's degree. -/
theorem rsdeg_after (V : Valuation τ sig (Elt Ideal)) :
    StableHlo.after hostOps1 V (Proc.devRef .tc main_v15)
      = Cert.ReferenceIdeal.Read.val_main_v14 (F := Ideal) (V (Proc.devRef .tc main_arg1)) (V (Proc.devRef .tc main_arg2)) := by
  after_results; rfl

/-- The zero taken where the degree is not positive. -/
theorem zero_after (V : Valuation τ sig (Elt Ideal)) :
    StableHlo.after hostOps1 V (Proc.devRef .tc main_cst_2) = Cert.ReferenceIdeal.Read.val_main_cst_2 (F := Ideal) := by
  after_results; rfl

/-- The first stretch leaves the first region's output as it found it. -/
theorem kept1_prod (V : Valuation τ sig (Elt Ideal)) :
    StableHlo.after hostOps1 V (Proc.devRef .tc main_v0) = V (Proc.devRef .tc main_v0) := by
  after_results

/-- The first stretch leaves the bias as it found it. -/
theorem kept1_bias (V : Valuation τ sig (Elt Ideal)) :
    StableHlo.after hostOps1 V (Proc.devRef .tc main_arg4) = V (Proc.devRef .tc main_arg4) := by
  after_results

/-! ## The second stretch: the select -/

/-- The normalising factor of each node: the reciprocal square root of its degree where the degree is positive, zero
    elsewhere. -/
theorem sel_after (V : Valuation τ sig (Elt Ideal)) :
    StableHlo.after hostOps1_1 V (Proc.devRef .tc main_v16)
      = select (V (Proc.devRef .tc main_v14)) (V (Proc.devRef .tc main_v15))
          (broadcastInDim S50000 ![] bcast_S_S50000 (V (Proc.devRef .tc main_cst_2))) := by
  after_results; rfl

theorem kept2_prod (V : Valuation τ sig (Elt Ideal)) :
    StableHlo.after hostOps1_1 V (Proc.devRef .tc main_v0) = V (Proc.devRef .tc main_v0) := by
  after_results
theorem kept2_row (V : Valuation τ sig (Elt Ideal)) :
    StableHlo.after hostOps1_1 V (Proc.devRef .tc main_v4) = V (Proc.devRef .tc main_v4) := by
  after_results
theorem kept2_col (V : Valuation τ sig (Elt Ideal)) :
    StableHlo.after hostOps1_1 V (Proc.devRef .tc main_v7) = V (Proc.devRef .tc main_v7) := by
  after_results
theorem kept2_wts (V : Valuation τ sig (Elt Ideal)) :
    StableHlo.after hostOps1_1 V (Proc.devRef .tc main_v9) = V (Proc.devRef .tc main_v9) := by
  after_results
theorem kept2_bias (V : Valuation τ sig (Elt Ideal)) :
    StableHlo.after hostOps1_1 V (Proc.devRef .tc main_arg4) = V (Proc.devRef .tc main_arg4) := by
  after_results

/-! ## The third stretch: gather, scale, add up, add the bias -/

/-- From buffers that hold the product `p`, the reference's extended edge list and weights and its normalising
    factors, the third stretch leaves the reference's aggregated rows plus the bias. -/
theorem mid_after (V : Valuation τ sig (Elt Ideal))
    (p : FVec Ideal Cert.ReferenceIdeal.S50000x128 .f32)
    (x1 : (⟨Cert.ReferenceIdeal.S2x800000, .i32⟩ : BufTy).Contents (Elt Ideal))
    (x2 : (⟨Cert.ReferenceIdeal.S800000, .f32⟩ : BufTy).Contents (Elt Ideal))
    (x4 : (⟨Cert.ReferenceIdeal.S128, .f32⟩ : BufTy).Contents (Elt Ideal))
    (h0 : V (Proc.devRef .tc main_v0) = p)
    (h4 : V (Proc.devRef .tc main_v4) = Cert.ReferenceIdeal.Read.val_main_v3 (F := Ideal) x1)
    (h7 : V (Proc.devRef .tc main_v7) = Cert.ReferenceIdeal.Read.val_main_v6 (F := Ideal) x1)
    (h9 : V (Proc.devRef .tc main_v9) = Cert.ReferenceIdeal.Read.val_main_v8 (F := Ideal) x2)
    (h16 : V (Proc.devRef .tc main_v16) = Cert.ReferenceIdeal.Read.val_main_v15 (F := Ideal) x1 x2)
    (ha : V (Proc.devRef .tc main_arg4) = x4) :
    StableHlo.after hostOps1_2 V (Proc.devRef .tc main_v48)
      = addf (F := Ideal) (φ := .f32)
          (Host.scatterAdd (F := Ideal) (φ := .f32) Cert.ReferenceIdeal.scatter_S50000x128_S850000x1_S850000x128_1_0_0_1
            (Cert.ReferenceIdeal.Read.val_main_v43 (F := Ideal)) (Cert.ReferenceIdeal.Read.val_main_v44 (F := Ideal) x1)
            (mulf (F := Ideal) (φ := .f32) (Host.gather Cert.ReferenceIdeal.gather_S50000x128_S850000x1_S850000x128_1_0_n_n_0_1_1128 p
                (Cert.ReferenceIdeal.Read.val_main_v38 (F := Ideal) x1))
              (Cert.ReferenceIdeal.Read.val_main_v41 (F := Ideal) x1 x2)))
          (Cert.ReferenceIdeal.Read.val_main_v47 (F := Ideal) x4) := by
  after_results_simp
  rw [h0, h4, h7, h9, h16, ha]
  rfl

/-! ## The fourth stretch: the clamp at zero -/

theorem relu_after (V : Valuation τ sig (Elt Ideal)) :
    StableHlo.after hostOps1_3 V (Proc.devRef .tc main_v49)
      = maximumf (F := Ideal) (φ := .f32) (V (Proc.devRef .tc main_v48))
          (broadcastInDim S50000x128 ![] bcast_S_S50000x128 (constant (F := Ideal) S_ .f32 0x00000000#32)) := by
  after_results; rfl

/-! ## The four stretches together -/

/-- The four host stretches applied to any buffer contents leave, in the buffer the second region reads, the activation
    of the contents of the first region's output buffer. -/
theorem act_after (W : Valuation τ sig (Elt Ideal)) :
    StableHlo.after hostOps1_3 (StableHlo.after hostOps1_2 (StableHlo.after hostOps1_1 (StableHlo.after hostOps1 W))) (Proc.devRef .tc main_v49)
      = actOf (W (Proc.devRef .tc main_v0)) (W (Proc.devRef .tc main_arg1)) (W (Proc.devRef .tc main_arg2)) (W (Proc.devRef .tc main_arg4)) := by
  have h16 : StableHlo.after hostOps1_1 (StableHlo.after hostOps1 W) (Proc.devRef .tc main_v16)
      = Cert.ReferenceIdeal.Read.val_main_v15 (F := Ideal) (W (Proc.devRef .tc main_arg1)) (W (Proc.devRef .tc main_arg2)) := by
    rw [sel_after, flag_after, rsdeg_after, zero_after]
    rfl
  refine (relu_after _).trans ?_
  rw [mid_after (StableHlo.after hostOps1_1 (StableHlo.after hostOps1 W)) (W (Proc.devRef .tc main_v0))
    (W (Proc.devRef .tc main_arg1)) (W (Proc.devRef .tc main_arg2)) (W (Proc.devRef .tc main_arg4))
    ((kept2_prod _).trans (kept1_prod W)) ((kept2_row _).trans (row_after W)) ((kept2_col _).trans (col_after W))
    ((kept2_wts _).trans (wts_after W)) h16 ((kept2_bias _).trans (kept1_bias W))]
  rfl

end Cert.Bridge
end
-- ==== Proof.Spec.Stats.lean ====
/-
  The column statistics, read one entry at a time over the extended reals. The kernel keeps two running rows
  of 128 entries: both start as the zero row; at each of the 25 row blocks the first row gains, in column q,
  the sum of the block's column q, and the second row gains the sum of the squares of the block's column q.
  After the last block the first row holds, in column q, the sum over all 50000 rows of column q, because
  the 25 blocks of 2000 consecutive rows partition the rows and addition of extended reals is commutative
  and associative (no finiteness is needed for this regrouping). The reference takes the same column sums
  in one step each.
-/
import proofs.«181423_j46755013984832_1_alg».proof.Proof.Gen.ReferenceIdeal.Read
import proofs.«181423_j46755013984832_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

/-! ## The running rows start at zero -/

/-- The first running row starts as the zero row. -/
theorem sum_row_init_apply (q : Fin 128) :
    Cert.KernelIdeal.Gen.k1_pay1 (F := Ideal) (ix2 (0 : Fin 1) q) = 0 := by
  unfold Cert.KernelIdeal.Gen.k1_pay1
  refine (congrFun (shapeCast_self _ _) _).trans ?_
  exact Ideal.ofBits_zero_f32

/-- The second running row starts as the zero row. -/
theorem sumsq_row_init_apply (q : Fin 128) :
    Cert.KernelIdeal.Gen.k1_pay2 (F := Ideal) (ix2 (0 : Fin 1) q) = 0 := by
  unfold Cert.KernelIdeal.Gen.k1_pay2
  refine (congrFun (shapeCast_self _ _) _).trans ?_
  exact Ideal.ofBits_zero_f32

/-! ## One block's contribution -/

/-- The index that the column reduction inserts: row r of column q. -/
theorem lift_row (q : Fin 128) (r : Fin 2000) :
    (Cert.KernelIdeal.Gen.reduces_S2000x128_S128).lift (ix1 q) r = ix2 r q :=
  funext fun a => Fin.ext (by match a with | ⟨0, _⟩ => rfl | ⟨1, _⟩ => rfl)

/-- The sum over the rows of a 2000 × 128 block, column by column. -/
theorem col_sum_apply (v : FVec Ideal Cert.KernelIdeal.S2000x128 .f32) (q : Fin 128) :
    multiReduction (F := Ideal) .add [0] Cert.KernelIdeal.S128 v 0x00000000#32
        Cert.KernelIdeal.Gen.reduces_S2000x128_S128 (.inl rfl) rfl (ix1 q)
      = ∑ r : Fin 2000, v (ix2 r q) := by
  refine (Ideal.multiReduction_add_single v 0x00000000#32 Cert.KernelIdeal.Gen.reduces_S2000x128_S128 _ _ (ix1 q)).trans ?_
  exact Finset.sum_congr rfl fun r _ => congrArg v (lift_row q r)

/-- One block's step of the first running row: column q gains the sum of the block's column q. -/
theorem sum_row_step_apply (hb : Vec Ideal Cert.KernelIdeal.S2000x128 .f32) (a : Vec Ideal Cert.KernelIdeal.S1x128 .f32)
    (q : Fin 128) :
    Cert.KernelIdeal.Gen.k1_pay4 (F := Ideal) hb a (ix2 (0 : Fin 1) q)
      = a (ix2 (0 : Fin 1) q) + ∑ r : Fin 2000, hb (ix2 r q) := by
  unfold Cert.KernelIdeal.Gen.k1_pay4 Cert.KernelIdeal.Gen.k1_pay3
  refine (congrFun (shapeCast_self _ _) _).trans ?_
  refine congrArg (a (ix2 (0 : Fin 1) q) + ·) ?_
  refine (shapeCast_a_1a_apply _ _ (0 : Fin 1) q).trans ?_
  refine (col_sum_apply _ q).trans ?_
  exact Finset.sum_congr rfl fun r _ => congrFun (shapeCast_self hb _) _

/-- One block's step of the second running row: column q gains the sum of the squares of the block's column q. -/
theorem sumsq_row_step_apply (hb : Vec Ideal Cert.KernelIdeal.S2000x128 .f32) (a : Vec Ideal Cert.KernelIdeal.S1x128 .f32)
    (q : Fin 128) :
    Cert.KernelIdeal.Gen.k1_pay5 (F := Ideal) hb a (ix2 (0 : Fin 1) q)
      = a (ix2 (0 : Fin 1) q) + ∑ r : Fin 2000, hb (ix2 r q) * hb (ix2 r q) := by
  unfold Cert.KernelIdeal.Gen.k1_pay5 Cert.KernelIdeal.Gen.k1_pay3
  refine (congrFun (shapeCast_self _ _) _).trans ?_
  refine congrArg (a (ix2 (0 : Fin 1) q) + ·) ?_
  refine (shapeCast_a_1a_apply _ _ (0 : Fin 1) q).trans ?_
  refine (col_sum_apply _ q).trans ?_
  refine Finset.sum_congr rfl fun r _ => ?_
  have e : shapeCast Cert.KernelIdeal.S2000x128 hb Cert.KernelIdeal.Gen.shapeCasts_S2000x128_S2000x128 (ix2 r q) = hb (ix2 r q) :=
    congrFun (shapeCast_self hb _) _
  exact congrArg₂ (· * ·) e e

/-! ## Twenty-five blocks of 2000 rows are all 50000 rows -/

/-- A column as a function of every natural number: zero past the last row. -/
def colN (g : Fin 50000 → EReal) (n : Nat) : EReal := if h : n < 50000 then g ⟨n, h⟩ else 0

theorem colN_of_lt (g : Fin 50000 → EReal) (n : Nat) (h : n < 50000) : colN g n = g ⟨n, h⟩ := dif_pos h

/-- The sum of a column over the rows of block t (rows 2000·t … 2000·t + 1999). -/
def blockSum (g : Fin 50000 → EReal) (t : Nat) : EReal := ∑ r : Fin 2000, colN g (2000 * t + r.val)

/-- For a block inside the array the block sum reads the column itself. -/
theorem blockSum_eq (g : Fin 50000 → EReal) (t : Nat) (ht : t < 25) :
    blockSum g t = ∑ r : Fin 2000, g ⟨2000 * t + r.val, by have := r.isLt; omega⟩ :=
  Finset.sum_congr rfl fun r _ => colN_of_lt g _ (by have := r.isLt; omega)

theorem blockSum_range (g : Fin 50000 → EReal) (t : Nat) :
    blockSum g t = ∑ r ∈ Finset.range 2000, colN g (2000 * t + r) :=
  Fin.sum_univ_eq_sum_range (fun r => colN g (2000 * t + r)) 2000

/-- A running value that starts at zero plus block 0 and gains block t + 1 at step t + 1 holds, after step t,
    the sum of the first 2000·(t + 1) rows. -/
theorem running_eq_prefix (g : Fin 50000 → EReal) (acc : Nat → EReal)
    (h0 : acc 0 = 0 + blockSum g 0)
    (hs : ∀ t, t + 1 < 25 → acc (t + 1) = acc t + blockSum g (t + 1)) :
    ∀ t, t < 25 → acc t = ∑ k ∈ Finset.range (2000 * (t + 1)), colN g k := by
  intro t
  induction t with
  | zero =>
    intro _
    rw [h0, zero_add, blockSum_range]
    exact Finset.sum_congr rfl fun r _ => by rw [Nat.mul_zero, Nat.zero_add]
  | succ t ih =>
    intro ht
    rw [hs t ht, ih (by omega), blockSum_range, show 2000 * (t + 1 + 1) = 2000 * (t + 1) + 2000 by ring,
      Finset.sum_range_add]

/-- … so after the last of the 25 steps it holds the sum of the whole column. -/
theorem running_eq_total (g : Fin 50000 → EReal) (acc : Nat → EReal)
    (h0 : acc 0 = 0 + blockSum g 0)
    (hs : ∀ t, t + 1 < 25 → acc (t + 1) = acc t + blockSum g (t + 1)) :
    acc 24 = ∑ k : Fin 50000, g k := by
  rw [running_eq_prefix g acc h0 hs 24 (by omega), ← Fin.sum_univ_eq_sum_range (colN g) 50000]
  exact Finset.sum_congr rfl fun k _ => colN_of_lt g k.val k.isLt

/-- The 25 block sums add up to the whole column's sum. -/
theorem sum_blockSum (g : Fin 50000 → EReal) : ∑ t ∈ Finset.range 25, blockSum g t = ∑ k : Fin 50000, g k := by
  have h := running_eq_total g (fun t => ∑ s ∈ Finset.range (t + 1), blockSum g s)
    (by simp) (fun t _ => Finset.sum_range_succ _ _)
  exact h

/-! ## The reference's column sums -/

/-- The reference's sum of the activations over the rows, at column q: the plain sum over all 50000 rows. -/
theorem ref_col_sum_apply (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal)) (q : Fin 128) :
    Cert.ReferenceIdeal.Read.val_main_v50 (F := Ideal) x0 x1 x2 x3 x4 (ix1 q)
      = ∑ k : Fin 50000, Cert.ReferenceIdeal.Read.val_main_v49 (F := Ideal) x0 x1 x2 x3 x4 (ix2 k q) := by
  rw [Cert.ReferenceIdeal.Read.val_main_v50_apply, Cert.ReferenceIdeal.Read.val_main_cst_9_apply]
  refine (congrArg (· + _) Ideal.ofBits_zero_f32).trans ((zero_add _).trans ?_)
  refine Finset.sum_congr rfl fun k _ => congrArg _ (funext fun a => Fin.ext (by
    match a with | ⟨0, _⟩ => rfl | ⟨1, _⟩ => rfl))

/-- The reference's sum of squared deviations over the rows, at column q: the plain sum over all 50000 rows. -/
theorem ref_col_sqdev_apply (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal)) (q : Fin 128) :
    Cert.ReferenceIdeal.Read.val_main_v57 (F := Ideal) x0 x1 x2 x3 x4 (ix1 q)
      = ∑ k : Fin 50000, Cert.ReferenceIdeal.Read.val_main_v56 (F := Ideal) x0 x1 x2 x3 x4 (ix2 k q) := by
  rw [Cert.ReferenceIdeal.Read.val_main_v57_apply, Cert.ReferenceIdeal.Read.val_main_cst_11_apply]
  refine (congrArg (· + _) Ideal.ofBits_zero_f32).trans ((zero_add _).trans ?_)
  refine Finset.sum_congr rfl fun k _ => congrArg _ (funext fun a => Fin.ext (by
    match a with | ⟨0, _⟩ => rfl | ⟨1, _⟩ => rfl))

/-- A squared deviation of the reference at (k, q): the activation minus the column's mean, squared. -/
theorem ref_sqdev_apply (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal)) (k : Fin 50000) (q : Fin 128) :
    Cert.ReferenceIdeal.Read.val_main_v56 (F := Ideal) x0 x1 x2 x3 x4 (ix2 k q)
      = (Cert.ReferenceIdeal.Read.val_main_v49 (F := Ideal) x0 x1 x2 x3 x4 (ix2 k q)
          - Cert.ReferenceIdeal.Read.val_main_v52 (F := Ideal) x0 x1 x2 x3 x4 (ix1 q))
        * (Cert.ReferenceIdeal.Read.val_main_v49 (F := Ideal) x0 x1 x2 x3 x4 (ix2 k q)
          - Cert.ReferenceIdeal.Read.val_main_v52 (F := Ideal) x0 x1 x2 x3 x4 (ix1 q)) := by
  have e : Cert.ReferenceIdeal.Read.val_main_v54 (F := Ideal) x0 x1 x2 x3 x4 (ix2 k q)
      = Cert.ReferenceIdeal.Read.val_main_v52 (F := Ideal) x0 x1 x2 x3 x4 (ix1 q) := by
    rw [Cert.ReferenceIdeal.Read.val_main_v54_apply, Cert.ReferenceIdeal.Read.val_main_v53_apply]
    exact congrArg _ (funext fun a => Fin.ext (by match a with | ⟨0, _⟩ => rfl))
  rw [Cert.ReferenceIdeal.Read.val_main_v56_apply, Cert.ReferenceIdeal.Read.val_main_v55_apply, e]
  rfl

end Cert.Spec

end
-- ==== Proof.Bridge.Sums.lean ====
/- Region 1, read at the extended reals: after the last of the 25 grid points the two running rows hold, column by
   column, the sum and the sum of squares of all 50000 rows of the array the region reads. Point n adds the column
   sums of rows 2000·n … 2000·n + 1999 to what the point before left, starting from zero; 25 such blocks make up
   the whole column. -/
import proofs.«181423_j46755013984832_1_alg».proof.Proof.KI.Region1
import proofs.«181423_j46755013984832_1_alg».proof.Proof.Spec.Stats
import Idealize.ShloMosaic.Lib.Pipeline.Value
import Idealize.ShloMosaic.Lib.ValueIdx

noncomputable section

namespace Cert.Bridge

open Cert.KernelIdeal Cert.KernelIdeal.Gen Cert.KernelIdeal.Frm
open Idealize.ShloMosaic Idealize.ShloMosaic.TcCoe Idealize.SL.Sem
open Idealize.ShloMosaic.ValueIdx

section AnyFloat
variable {F : FTy → Type} [FloatOps F]
variable (V : (c : Dev nD) → (b : Ref sig .tc) → Buf (Elt F) ((c : Thread nD τ).loc b))

/-- Where the input block of region 1 sits: at point `t` its row-block index is `t` and its column-block index 0.
    Checked at each of the 25 points. -/
theorem where1 : ∀ t : Fin cfg1.N, win1_0.index t (0 : Fin 2) = t.val ∧ win1_0.index t (1 : Fin 2) = 0 :=
  (by decide +kernel : ∀ t : Fin grid1.N, _)

/-- Entry (r, q) of the input block at point `n` is entry (2000·n + r, q) of the array the region reads. -/
theorem blk1_at (c : Dev nD) (n : ℕ) (hn : n < 25) (r : Fin 2000) (q : Fin 128) :
    blk1 V c n (ix2 r q) = V c main_v49 (ix2 ⟨2000 * n + r.val, by have := r.isLt; omega⟩ q) := by
  have hlt : n < cfg1.N := lt_of_lt_of_eq hn N_1.symm
  have hb : blk1 V c n = iblk1 V c 0 ⟨n, hlt⟩ := blk1_eq V c ⟨n, hlt⟩
  have e0 : win1_0.index ⟨n, hlt⟩ (0 : Fin 2) = n := (where1 ⟨n, hlt⟩).1
  have e1 : win1_0.index ⟨n, hlt⟩ (1 : Fin 2) = 0 := (where1 ⟨n, hlt⟩).2
  rw [hb]
  show V c main_v49 (((cfg1.win 0).blk ⟨n, hlt⟩).view.emb (ix2 r q)) = _
  refine congrArg (V c main_v49) ?_
  funext a; apply Fin.ext
  match a with
  | ⟨0, _⟩ => show win1_0.index ⟨n, hlt⟩ (0 : Fin 2) * 2000 + 1 * r.val = 2000 * n + r.val; omega
  | ⟨1, _⟩ => show win1_0.index ⟨n, hlt⟩ (1 : Fin 2) * 128 + 1 * q.val = q.val; omega

end AnyFloat

section AtIdeal
variable (V : (c : Dev nD) → (b : Ref sig .tc) → Buf (Elt Ideal) ((c : Thread nD τ).loc b))

/-- After the last point the first running row holds the column sums of the whole array the region reads, the array
    given as any function `h` on the 50000 × 128 indices that the buffer's contents agree with. -/
theorem colsum_eq_of (c : Dev nD) (h : S50000x128.Idx → EReal) (hh : ∀ i, V c main_v49 i = h i) (q : Fin 128) :
    (acc1 V c 24).1 (ix2 (0 : Fin 1) q) = ∑ k : Fin 50000, h (ix2 k q) := by
  refine Cert.Spec.running_eq_total (fun k => h (ix2 k q))
    (fun t => (acc1 V c t).1 (ix2 (0 : Fin 1) q)) ?_ ?_
  · refine (Cert.Spec.sum_row_step_apply (blk1 V c 0) (k1_pay1 (F := Ideal)) q).trans ?_
    rw [Cert.Spec.sum_row_init_apply q, Cert.Spec.blockSum_eq _ 0 (by omega)]
    exact congrArg (0 + ·) (Finset.sum_congr rfl fun r _ => (blk1_at V c 0 (by omega) r q).trans (hh _))
  · intro t ht
    refine (Cert.Spec.sum_row_step_apply (blk1 V c (t + 1)) (acc1 V c t).1 q).trans ?_
    rw [Cert.Spec.blockSum_eq _ (t + 1) ht]
    exact congrArg ((acc1 V c t).1 (ix2 (0 : Fin 1) q) + ·)
      (Finset.sum_congr rfl fun r _ => (blk1_at V c (t + 1) ht r q).trans (hh _))

/-- After the last point the second running row holds the column sums of squares of that array. -/
theorem colsumsq_eq_of (c : Dev nD) (h : S50000x128.Idx → EReal) (hh : ∀ i, V c main_v49 i = h i) (q : Fin 128) :
    (acc1 V c 24).2 (ix2 (0 : Fin 1) q) = ∑ k : Fin 50000, h (ix2 k q) * h (ix2 k q) := by
  refine Cert.Spec.running_eq_total (fun k => h (ix2 k q) * h (ix2 k q))
    (fun t => (acc1 V c t).2 (ix2 (0 : Fin 1) q)) ?_ ?_
  · refine (Cert.Spec.sumsq_row_step_apply (blk1 V c 0) (k1_pay2 (F := Ideal)) q).trans ?_
    rw [Cert.Spec.sumsq_row_init_apply q, Cert.Spec.blockSum_eq _ 0 (by omega)]
    refine congrArg (0 + ·) (Finset.sum_congr rfl fun r _ => ?_)
    have e := (blk1_at V c 0 (by omega) r q).trans (hh _)
    exact congrArg₂ (· * ·) e e
  · intro t ht
    refine (Cert.Spec.sumsq_row_step_apply (blk1 V c (t + 1)) (acc1 V c t).2 q).trans ?_
    rw [Cert.Spec.blockSum_eq _ (t + 1) ht]
    refine congrArg ((acc1 V c t).2 (ix2 (0 : Fin 1) q) + ·) (Finset.sum_congr rfl fun r _ => ?_)
    have e := (blk1_at V c (t + 1) ht r q).trans (hh _)
    exact congrArg₂ (· * ·) e e

/-- The array region 1 reads on core `c`, as a function from its 50000 × 128 indices to the extended reals. -/
def src1 (c : Dev nD) : S50000x128.Idx → EReal := V c main_v49

theorem src1_apply (c : Dev nD) (i : S50000x128.Idx) : src1 V c i = V c main_v49 i := rfl

/-- The column sums, over the buffer's own contents. -/
theorem colsum_eq (c : Dev nD) (q : Fin 128) :
    (acc1 V c 24).1 (ix2 (0 : Fin 1) q) = ∑ k : Fin 50000, src1 V c (ix2 k q) :=
  colsum_eq_of V c (src1 V c) (fun _ => rfl) q

/-- The column sums of squares, over the buffer's own contents. -/
theorem colsumsq_eq (c : Dev nD) (q : Fin 128) :
    (acc1 V c 24).2 (ix2 (0 : Fin 1) q) = ∑ k : Fin 50000, src1 V c (ix2 k q) * src1 V c (ix2 k q) :=
  colsumsq_eq_of V c (src1 V c) (fun _ => rfl) q

end AtIdeal

end Cert.Bridge

end
-- ==== Proof.Bridge.Host2.lean ====
/-
  The host operations between the second and the third region, read back: the mean row is the row of column sums
  divided by the row count, the variance row is the row of sums of squares divided by the count minus the square of
  the mean, and the gain, offset and bias rows are the three vectors re-laid as rows.
-/
import proofs.«181423_j46755013984832_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Frm

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- The count of rows as the host stretch spells it: the scalar constant broadcast along the row. -/
def countRow : FVec F S1x128 .f32 := broadcastInDim S1x128 ![] bcast_S_S1x128 (constant S_ .f32 0x47435000#32)

theorem mean_after (W : Valuation τ sig (Elt F)) :
    StableHlo.after hostOps2 W (Proc.devRef .tc main_v52) = Host.divf (W (Proc.devRef .tc main_v50_0)) (countRow (F := F)) := by
  after_results; rfl

theorem var_after (W : Valuation τ sig (Elt F)) :
    StableHlo.after hostOps2 W (Proc.devRef .tc main_v56)
      = subf (Host.divf (W (Proc.devRef .tc main_v50_1)) (countRow (F := F)))
          (mulf (Host.divf (W (Proc.devRef .tc main_v50_0)) (countRow (F := F))) (Host.divf (W (Proc.devRef .tc main_v50_0)) (countRow (F := F)))) := by
  after_results; rfl

theorem gain_after (W : Valuation τ sig (Elt F)) :
    StableHlo.after hostOps2 W (Proc.devRef .tc main_v57) = shapeCast S1x128 (W (Proc.devRef .tc main_arg5)) shapeCasts_S128_S1x128 := by
  after_results; rfl
theorem offset_after (W : Valuation τ sig (Elt F)) :
    StableHlo.after hostOps2 W (Proc.devRef .tc main_v58) = shapeCast S1x128 (W (Proc.devRef .tc main_arg6)) shapeCasts_S128_S1x128 := by
  after_results; rfl
theorem bias_after (W : Valuation τ sig (Elt F)) :
    StableHlo.after hostOps2 W (Proc.devRef .tc main_v59) = shapeCast S1x3 (W (Proc.devRef .tc main_arg8)) shapeCasts_S3_S1x3 := by
  after_results; rfl

end Cert.KernelIdeal.Frm
end
-- ==== Proof.Bridge.Host2At.lean ====
/-
  The host operations between the second and the third region, read one entry at a time over the extended
  reals: entry k of the mean row is entry k of the row of column sums divided by the row count; entry k of the
  variance row is entry k of the row of sums of squares divided by the count, minus the square of that mean;
  entry k of the gain and of the offset row is entry k of the gain and of the offset vector, and entry q of the
  bias row is entry q of the bias vector (a vector re-laid as a row keeps its entries in order). The row count
  is one binary word, the same in every column.
-/
import proofs.«181423_j46755013984832_1_alg».proof.Proof.Bridge.Host2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Frm

open Cert.KernelIdeal Cert.KernelIdeal.Gen
open Idealize.ShloMosaic Idealize.ShloMosaic.TcCoe Idealize.SL.Sem Idealize.ShloMosaic.StableHlo Idealize.ShloMosaic.ValueIdx

/-- The row count reads the same word in every column. -/
theorem countRow_at (k : Fin 128) :
    countRow (F := Ideal) (ix2 (0 : Fin 1) k) = Ideal.ofBits .f32 0x47435000#32 := by
  unfold countRow
  exact broadcastInDim_apply _ bcast_S_S1x128 (constant (F := Ideal) S_ .f32 0x47435000#32) (ix2 (0 : Fin 1) k)
    (fun a => a.elim0) (fun a => a.elim0)

/-- A row divided by the row count, at column k. -/
theorem divf_count_at (a : FVec Ideal S1x128 .f32) (k : Fin 128) :
    Host.divf a (countRow (F := Ideal)) (ix2 (0 : Fin 1) k)
      = FloatOps.hostDivf (F := Ideal) (φ := .f32) (a (ix2 (0 : Fin 1) k)) (Ideal.ofBits .f32 0x47435000#32) :=
  congrArg (FloatOps.hostDivf (F := Ideal) (φ := .f32) (a (ix2 (0 : Fin 1) k))) (countRow_at k)

/-- Entry k of the mean row: the column sum k divided by the row count. -/
theorem mean_at (W : Valuation τ sig (Elt Ideal)) (k : Fin 128) :
    StableHlo.after hostOps2 W (Proc.devRef .tc main_v52) (ix2 (0 : Fin 1) k)
      = FloatOps.hostDivf (F := Ideal) (φ := .f32) (W (Proc.devRef .tc main_v50_0) (ix2 (0 : Fin 1) k))
          (Ideal.ofBits .f32 0x47435000#32) :=
  (congrFun (mean_after W) (ix2 (0 : Fin 1) k)).trans (divf_count_at _ k)

/-- Entry k of the variance row: the sum of squares k divided by the row count, minus the square of the mean k. -/
theorem var_at (W : Valuation τ sig (Elt Ideal)) (k : Fin 128) :
    StableHlo.after hostOps2 W (Proc.devRef .tc main_v56) (ix2 (0 : Fin 1) k)
      = FloatOps.subf (F := Ideal) (φ := .f32)
          (FloatOps.hostDivf (W (Proc.devRef .tc main_v50_1) (ix2 (0 : Fin 1) k)) (Ideal.ofBits .f32 0x47435000#32))
          (FloatOps.mulf
            (FloatOps.hostDivf (W (Proc.devRef .tc main_v50_0) (ix2 (0 : Fin 1) k)) (Ideal.ofBits .f32 0x47435000#32))
            (FloatOps.hostDivf (W (Proc.devRef .tc main_v50_0) (ix2 (0 : Fin 1) k)) (Ideal.ofBits .f32 0x47435000#32))) :=
  (congrFun (var_after W) (ix2 (0 : Fin 1) k)).trans
    (congrArg₂ (fun u v : Ideal .f32 => FloatOps.subf (F := Ideal) (φ := .f32) u v) (divf_count_at _ k)
      (congrArg₂ (fun u v : Ideal .f32 => FloatOps.mulf (F := Ideal) (φ := .f32) u v) (divf_count_at _ k)
        (divf_count_at _ k)))

/-- Entry k of the gain row is entry k of the gain vector. -/
theorem gain_at (W : Valuation τ sig (Elt Ideal)) (k : Fin 128) :
    StableHlo.after hostOps2 W (Proc.devRef .tc main_v57) (ix2 (0 : Fin 1) k) = W (Proc.devRef .tc main_arg5) (ix1 k) :=
  (congrFun (gain_after W) (ix2 (0 : Fin 1) k)).trans (shapeCast_a_1a_apply _ _ (0 : Fin 1) k)

/-- Entry k of the offset row is entry k of the offset vector. -/
theorem offset_at (W : Valuation τ sig (Elt Ideal)) (k : Fin 128) :
    StableHlo.after hostOps2 W (Proc.devRef .tc main_v58) (ix2 (0 : Fin 1) k) = W (Proc.devRef .tc main_arg6) (ix1 k) :=
  (congrFun (offset_after W) (ix2 (0 : Fin 1) k)).trans (shapeCast_a_1a_apply _ _ (0 : Fin 1) k)

/-- Entry q of the bias row is entry q of the bias vector. -/
theorem bias_at (W : Valuation τ sig (Elt Ideal)) (q : Fin 3) :
    StableHlo.after hostOps2 W (Proc.devRef .tc main_v59) (ix2 (0 : Fin 1) q) = W (Proc.devRef .tc main_arg8) (ix1 q) :=
  (congrFun (bias_after W) (ix2 (0 : Fin 1) q)).trans (shapeCast_a_1a_apply _ _ (0 : Fin 1) q)

end Cert.KernelIdeal.Frm

end
-- ==== Proof.KI.Value2.lean ====
/- Region 2 (batch normalisation and the final linear layer in 25 row blocks of 2000 rows), from the blocks to the
   whole array. Each input block is read where it sits in its array — the activations by rows 2000·t … 2000·t + 1999,
   the six small operands whole —; what a point writes back is the matching block of any whole-array function that
   agrees with the body's result block by block; the 25 blocks cover the 50000 rows, so after the region the result
   array is that function. No arithmetic of the body is used here. -/
import proofs.«181423_j46755013984832_1_alg».proof.Proof.KI.Region2
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value2
variable (V : (c : Dev nD) → (b : Ref sig .tc) → Buf (Elt F) ((c : Thread nD τ).loc b))

/-- The grid has 25 points. -/
theorem pt_lt2 (t : Fin cfg2.N) : t.val < 25 := lt_of_lt_of_eq t.isLt N_2

/-- Row `r` of the block of point `t` is row `2000·t + r` of the whole array. -/
def row2 (t : Fin cfg2.N) (r : Fin 2000) : Fin 50000 :=
  ⟨2000 * t.val + r.val, by have := pt_lt2 t; have := r.isLt; omega⟩

/-- The offset (0,0) of a whole-buffer rectangle, as a constant function. -/
theorem origin2 : (![0, 0] : Fin 2 → Nat) = fun _ => 0 := funext fun a => by fin_cases a <;> rfl

/-- The single store covers the whole output buffer and every load reads a whole buffer, so the output block after the
    body is the body's arithmetic applied to the seven input blocks themselves (the body reads window 2 before window 1). -/
theorem out2_7_eq (x0 : Vec F S2000x128 .f32) (x1 : Vec F S1x128 .f32) (x2 : Vec F S1x128 .f32) (x3 : Vec F S1x128 .f32) (x4 : Vec F S1x128 .f32) (x5 : Vec F S128x3 .f32) (x6 : Vec F S1x3 .f32) :
    out2_7 x0 x1 x2 x3 x4 x5 x6 = k2_pay1 x0 x2 x1 x3 x4 x5 x6 := by
  unfold out2_7
  rw [View.canon_unit_zero origin2]
  simp only [View.ld_unit_zero (S := S2000x128) origin2, View.ld_unit_zero (S := S1x128) origin2,
    View.ld_unit_zero (S := S128x3) origin2, View.ld_unit_zero (S := S1x3) origin2]

/-- Where the blocks sit: at point `t` the row-block index of the activations and of the result is `t`, their
    column-block index is 0, and each of the six small operands is always block (0,0). Checked at each of the 25 points. -/
theorem where2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- An entry of the activation block at point `t` is the entry of the activations in row `2000·t + (row in the
    block)`, same column. -/
theorem blk2_0 (c : Dev nD) (t : Fin cfg2.N) (y : S2000x128.Idx) :
    iblk2 V c 0 t y = V c main_v49 (ix2 (row2 t (y 0)) (y 1)) := by
  obtain ⟨e0, e1, -, -, -, -, -, -, -, -, -, -, -, -, -, -⟩ := where2 t
  show V c main_v49 (((cfg2.win 0).blk t).view.emb y) = V c main_v49 (ix2 (row2 t (y 0)) (y 1))
  refine congrArg (V c main_v49) ?_
  funext a; apply Fin.ext
  match a with
  | ⟨0, _⟩ => show win2_0.index t (0 : Fin 2) * 2000 + 1 * (y 0).val = 2000 * t.val + (y 0).val; omega
  | ⟨1, _⟩ => show win2_0.index t (1 : Fin 2) * 128 + 1 * (y 1).val = (y 1).val; omega

/-- Window 1 (the row of means) is the whole of its array at every point. -/
theorem blk2_1 (c : Dev nD) (t : Fin cfg2.N) (y : S1x128.Idx) :
    iblk2 V c 1 t y = V c main_v52 y := by
  obtain ⟨-, -, e0, e1, -, -, -, -, -, -, -, -, -, -, -, -⟩ := where2 t
  show V c main_v52 (((cfg2.win 1).blk t).view.emb y) = V c main_v52 y
  refine congrArg (V c main_v52) ?_
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- Window 2 (the row of variances) is the whole of its array at every point. -/
theorem blk2_2 (c : Dev nD) (t : Fin cfg2.N) (y : S1x128.Idx) :
    iblk2 V c 2 t y = V c main_v56 y := by
  obtain ⟨-, -, -, -, e0, e1, -, -, -, -, -, -, -, -, -, -⟩ := where2 t
  show V c main_v56 (((cfg2.win 2).blk t).view.emb y) = V c main_v56 y
  refine congrArg (V c main_v56) ?_
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3 (the scale row γ) is the whole of its array at every point. -/
theorem blk2_3 (c : Dev nD) (t : Fin cfg2.N) (y : S1x128.Idx) :
    iblk2 V c 3 t y = V c main_v57 y := by
  obtain ⟨-, -, -, -, -, -, e0, e1, -, -, -, -, -, -, -, -⟩ := where2 t
  show V c main_v57 (((cfg2.win 3).blk t).view.emb y) = V c main_v57 y
  refine congrArg (V c main_v57) ?_
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4 (the shift row β) is the whole of its array at every point. -/
theorem blk2_4 (c : Dev nD) (t : Fin cfg2.N) (y : S1x128.Idx) :
    iblk2 V c 4 t y = V c main_v58 y := by
  obtain ⟨-, -, -, -, -, -, -, -, e0, e1, -, -, -, -, -, -⟩ := where2 t
  show V c main_v58 (((cfg2.win 4).blk t).view.emb y) = V c main_v58 y
  refine congrArg (V c main_v58) ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 (the 128×3 weight matrix) is the whole of its array at every point. -/
theorem blk2_5 (c : Dev nD) (t : Fin cfg2.N) (y : S128x3.Idx) :
    iblk2 V c 5 t y = V c main_arg7 y := by
  obtain ⟨-, -, -, -, -, -, -, -, -, -, e0, e1, -, -, -, -⟩ := where2 t
  show V c main_arg7 (((cfg2.win 5).blk t).view.emb y) = V c main_arg7 y
  refine congrArg (V c main_arg7) ?_
  funext a; apply Fin.ext
  match a with
  | ⟨0, _⟩ => show win2_5.index t (0 : Fin 2) * 128 + 1 * (y 0).val = (y 0).val; omega
  | ⟨1, _⟩ => show win2_5.index t (1 : Fin 2) * 3 + 1 * (y 1).val = (y 1).val; omega

/-- Window 6 (the 1×3 bias row) is the whole of its array at every point. -/
theorem blk2_6 (c : Dev nD) (t : Fin cfg2.N) (y : S1x3.Idx) :
    iblk2 V c 6 t y = V c main_v59 y := by
  obtain ⟨-, -, -, -, -, -, -, -, -, -, -, -, e0, e1, -, -⟩ := where2 t
  show V c main_v59 (((cfg2.win 6).blk t).view.emb y) = V c main_v59 y
  refine congrArg (V c main_v59) ?_
  funext a; apply Fin.ext
  match a with
  | ⟨0, _⟩ => show win2_6.index t (0 : Fin 2) * 1 + 1 * (y 0).val = (y 0).val; omega
  | ⟨1, _⟩ => show win2_6.index t (1 : Fin 2) * 3 + 1 * (y 1).val = (y 1).val; omega

/-- Where an entry of the result block of point `t` sits in the whole result. -/
theorem emb2_7 (t : Fin cfg2.N) (y : S2000x3.Idx) :
    ((cfg2.win 7).blk t).view.emb y = ix2 (row2 t (y 0)) (y 1) := by
  obtain ⟨-, -, -, -, -, -, -, -, -, -, -, -, -, -, e0, e1⟩ := where2 t
  funext a; apply Fin.ext
  match a with
  | ⟨0, _⟩ => show win2_7.index t (0 : Fin 2) * 2000 + 1 * (y 0).val = 2000 * t.val + (y 0).val; omega
  | ⟨1, _⟩ => show win2_7.index t (1 : Fin 2) * 3 + 1 * (y 1).val = (y 1).val; omega

/-- An entry of the result lies in the block of point `t` exactly when, on each axis, its coordinate is within the
    block's range. -/
theorem mem2_7 (t : Fin cfg2.N) (i : S50000x3.Idx) :
    i ∈ ((cfg2.win 7).blk t).view.set ↔ ∀ a : Fin 2, win2_7.index t a * S2000x3.size a ≤ (i a).val ∧ (i a).val < win2_7.index t a * S2000x3.size a + S2000x3.size a := by
  show i ∈ ((View.whole main_v60).slice (win2_7.rect t)).set ↔ _
  rw [View.set_slice_whole, Rect.mem_set_unit]
  exact Iff.rfl

/-- Every entry of the result lies in the block of some point: row `r` belongs to point `r / 2000`. -/
theorem cover2_7 (i : S50000x3.Idx) :
    ∃ t : Fin cfg2.N, (cfg2.win 7).flush t = true ∧ i ∈ ((cfg2.win 7).blk t).view.set := by
  have hi0 : (i 0).val < 50000 := idx2_lt0 i
  have hi1 : (i 1).val < 3 := idx2_lt1 i
  have hN : (i 0).val / 2000 < cfg2.N := lt_of_lt_of_eq (by omega : (i 0).val / 2000 < 25) N_2.symm
  refine ⟨⟨(i 0).val / 2000, hN⟩, flush2_7 _, ?_⟩
  obtain ⟨-, -, -, -, -, -, -, -, -, -, -, -, -, -, e0, e1⟩ := where2 ⟨(i 0).val / 2000, hN⟩
  rw [mem2_7]
  intro a
  match a with
  | ⟨0, _⟩ =>
    show win2_7.index ⟨(i 0).val / 2000, hN⟩ (0 : Fin 2) * 2000 ≤ (i 0).val ∧ (i 0).val < win2_7.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win2_7.index ⟨(i 0).val / 2000, hN⟩ (1 : Fin 2) * 3 ≤ (i 1).val ∧ (i 1).val < win2_7.index ⟨(i 0).val / 2000, hN⟩ (1 : Fin 2) * 3 + 3
    rw [e1]; omega

/-- What point `t` writes back is block `t` of `G`, for any whole-array function `G` that agrees with the body's
    result on every block. -/
theorem flushed2_7 (c : Dev nD) (G : S50000x3.Idx → Elt F .f32)
    (hG : ∀ (t : Fin cfg2.N) (y : S2000x3.Idx),
      out2_7 (iblk2 V c 0 t) (iblk2 V c 1 t) (iblk2 V c 2 t) (iblk2 V c 3 t) (iblk2 V c 4 t) (iblk2 V c 5 t) (iblk2 V c 6 t) y = G (ix2 (row2 t (y 0)) (y 1)))
    (t : Fin cfg2.N) :
    (dat2 V c).flushed 7 t = ((cfg2.win 7).blk t).view.read (Elt F) G := by
  show (cfg2.win 7).cut (grid2.coords t) ((dat2 V c).after 7 t) = _
  rw [after2_7]
  funext y
  show out2_7 (iblk2 V c 0 t) (iblk2 V c 1 t) (iblk2 V c 2 t) (iblk2 V c 3 t) (iblk2 V c 4 t) (iblk2 V c 5 t) (iblk2 V c 6 t) y = G (((cfg2.win 7).blk t).view.emb y)
  exact (hG t y).trans (congrArg G (emb2_7 t y).symm)

/-- The result array after the region is `G`, for any `G` that agrees with the body's result on every block: the 25
    blocks are written back one by one and together they cover the array. -/
theorem final2 (c : Dev nD) (G : S50000x3.Idx → Elt F .f32)
    (hG : ∀ (t : Fin cfg2.N) (y : S2000x3.Idx),
      out2_7 (iblk2 V c 0 t) (iblk2 V c 1 t) (iblk2 V c 2 t) (iblk2 V c 3 t) (iblk2 V c 4 t) (iblk2 V c 5 t) (iblk2 V c 6 t) y = G (ix2 (row2 t (y 0)) (y 1))) :
    (dat2 V c).arrAt 7 cfg2.N = G :=
  (dat2 V c).arrAt_eq_of_cover 7 G (fun t _ => flushed2_7 V c G hG t) cover2_7

end Value2

end Cert.KernelIdeal.Frm

end
-- ==== Proof.Spec.Final.lean ====
/-
  The last stage of both programs, read one entry at a time over the extended reals: each activation is
  centred by its column's mean, scaled by the reciprocal square root of the column's variance plus a small
  constant, multiplied by the column's gain and shifted by the column's offset; the row of 128 such entries
  is then multiplied with the 128 × 3 output weights and the output offset is added. The kernel does this for
  a block of 2000 rows with the mean and variance rows handed to it, the reference for all 50000 rows with the
  mean and variance rows it computed itself. Both read as the same expression of their inputs, so a block's
  entry is the reference's entry whenever the block's inputs are the reference's. The reciprocal square root
  is one function of extended reals on both sides, and the small constant is the same binary word on both.
-/
import proofs.«181423_j46755013984832_1_alg».proof.Proof.Gen.ReferenceIdeal.Read
import proofs.«181423_j46755013984832_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

/-- One activation h, centred by the mean, scaled by the reciprocal square root of the variance plus the small
    constant, multiplied by the gain and shifted by the offset. -/
def normEntry (h mean var gain offset : EReal) : EReal :=
  ((h - mean) * Ideal.rsqrt (var + Ideal.ofBits .f32 0x3727C5AC#32)) * gain + offset

/-! ## The kernel's block -/

/-- The last product's dimension numbers: contract the left operand's columns with the right operand's rows. -/
abbrev outDot : DotDims Cert.KernelIdeal.S2000x128 Cert.KernelIdeal.S128x3 Cert.KernelIdeal.S2000x3 :=
  Cert.KernelIdeal.dot_S2000x128_S128x3_S2000x3_1_0_0_1_n_n

theorem outDot_lhs_row (j : Cert.KernelIdeal.S2000x3.Idx) (c : outDot.contr.Idx) :
    (outDot.lhsIdx j c 0).val = (j 0).val := by
  unfold DotDims.lhsIdx
  rw [dif_neg (show ¬(0 : Fin Cert.KernelIdeal.S2000x128.rank) ∈ outDot.lhsBatch by decide),
    dif_pos (show (0 : Fin Cert.KernelIdeal.S2000x128.rank) ∈ outDot.lhsNonContracting by decide)]
  rfl

theorem outDot_lhs_col (j : Cert.KernelIdeal.S2000x3.Idx) (c : outDot.contr.Idx) :
    (outDot.lhsIdx j c 1).val = (c ⟨0, by decide⟩).val :=
  outDot.lhsIdx_val_of_single rfl j c

theorem outDot_rhs_row (j : Cert.KernelIdeal.S2000x3.Idx) (c : outDot.contr.Idx) :
    (outDot.rhsIdx j c 0).val = (c ⟨0, by decide⟩).val :=
  outDot.rhsIdx_val_of_single rfl j c

theorem outDot_rhs_col (j : Cert.KernelIdeal.S2000x3.Idx) (c : outDot.contr.Idx) :
    (outDot.rhsIdx j c 1).val = (j 1).val := by
  unfold DotDims.rhsIdx
  rw [dif_neg (show ¬(1 : Fin Cert.KernelIdeal.S128x3.rank) ∈ outDot.rhsBatch by decide),
    dif_pos (show (1 : Fin Cert.KernelIdeal.S128x3.rank) ∈ outDot.rhsNonContracting by decide)]
  rfl

/-- A row of 128 entries repeated over the 2000 rows of a block reads, at (p, k), the row's entry k. -/
theorem row_over_block_apply (v : Vec Ideal Cert.KernelIdeal.S1x128 .f32) (p : Fin 2000) (k : Fin 128) :
    broadcastTo Cert.KernelIdeal.S2000x128
        (shapeCast Cert.KernelIdeal.S1x128 v Cert.KernelIdeal.Gen.shapeCasts_S1x128_S1x128)
        Cert.KernelIdeal.Gen.broadcasts_S1x128_S2000x128 (ix2 p k)
      = v (ix2 (0 : Fin 1) k) :=
  (broadcastTo_1b_ab_apply _ _ p k).trans (congrFun (shapeCast_self v _) _)

/-- One row block of the last stage: entry (p, q) is the sum over k of the normalized entry (p, k) times
    weight (k, q), plus the output offset q. -/
theorem final_block_apply (hb : Vec Ideal Cert.KernelIdeal.S2000x128 .f32) (var mean g b : Vec Ideal Cert.KernelIdeal.S1x128 .f32)
    (lw : Vec Ideal Cert.KernelIdeal.S128x3 .f32) (lb : Vec Ideal Cert.KernelIdeal.S1x3 .f32)
    (p : Fin 2000) (q : Fin 3) :
    Cert.KernelIdeal.Gen.k2_pay1 (F := Ideal) hb var mean g b lw lb (ix2 p q)
      = (∑ k : Fin 128, normEntry (hb (ix2 p k)) (mean (ix2 (0 : Fin 1) k)) (var (ix2 (0 : Fin 1) k))
            (g (ix2 (0 : Fin 1) k)) (b (ix2 (0 : Fin 1) k)) * lw (ix2 k q))
        + lb (ix2 (0 : Fin 1) q) := by
  unfold Cert.KernelIdeal.Gen.k2_pay1
  refine (addf_apply _ _ (ix2 p q)).trans (congrArg₂ (· + ·) ?_ ?_)
  · refine (Ideal.matmul_constant_zero_apply outDot none _ _ (ix2 p q)).trans ?_
    rw [← Equiv.sum_comp (contrEquiv1 outDot 128 rfl rfl).symm]
    refine Finset.sum_congr rfl fun k _ => ?_
    have hk := contrEquiv1_symm_val outDot 128 rfl rfl k
    have el : outDot.lhsIdx (ix2 p q) ((contrEquiv1 outDot 128 rfl rfl).symm k) = ix2 p k :=
      funext fun a => Fin.ext (by
        match a with
        | ⟨0, _⟩ => exact outDot_lhs_row _ _
        | ⟨1, _⟩ => exact (outDot_lhs_col _ _).trans hk)
    have er : outDot.rhsIdx (ix2 p q) ((contrEquiv1 outDot 128 rfl rfl).symm k) = ix2 k q :=
      funext fun a => Fin.ext (by
        match a with
        | ⟨0, _⟩ => exact (outDot_rhs_row _ _).trans hk
        | ⟨1, _⟩ => exact outDot_rhs_col _ _)
    rw [el, er]
    refine congrArg₂ (· * ·) ?_ rfl
    unfold normEntry
    refine congrArg₂ (fun u v : EReal => u + v) (congrArg₂ (fun u v : EReal => u * v)
      (congrArg₂ (fun u v : EReal => u * v) (congrArg₂ (fun u v : EReal => u - v) ?_ ?_) ?_) ?_) ?_
    · exact congrFun (shapeCast_self hb _) _
    · exact row_over_block_apply mean p k
    · refine (broadcastTo_1b_ab_apply _ _ p k).trans ?_
      exact congrArg (fun z => Ideal.rsqrt (z + Ideal.ofBits .f32 0x3727C5AC#32)) (congrFun (shapeCast_self var _) _)
    · exact row_over_block_apply g p k
    · exact row_over_block_apply b p k
  · refine (broadcastTo_1b_ab_apply _ _ p q).trans ?_
    exact congrFun (shapeCast_self lb _) _

/-! ## The reference -/

/-- The reference's normalized entry (i, k), over its own activations, mean row and variance row. -/
theorem ref_norm_entry_apply (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S128x128, .f32⟩ : BufTy).Contents (Elt Ideal))
    (x4 x5 x6 : (⟨Cert.ReferenceIdeal.S128, .f32⟩ : BufTy).Contents (Elt Ideal))
    (i : Fin 50000) (k : Fin 128) :
    Cert.ReferenceIdeal.Read.val_main_v74 (F := Ideal) x0 x1 x2 x3 x4 x5 x6 (ix2 i k)
      = normEntry (Cert.ReferenceIdeal.Read.val_main_v49 (F := Ideal) x0 x1 x2 x3 x4 (ix2 i k))
          (Cert.ReferenceIdeal.Read.val_main_v52 (F := Ideal) x0 x1 x2 x3 x4 (ix1 k))
          (Cert.ReferenceIdeal.Read.val_main_v59 (F := Ideal) x0 x1 x2 x3 x4 (ix1 k))
          (x5 (ix1 k)) (x6 (ix1 k)) := by
  have e1 : Cert.ReferenceIdeal.Read.idx_main_v60 (Cert.ReferenceIdeal.Read.idx_main_v61 (ix2 i k)) = ix1 k :=
    funext fun a => Fin.ext (by match a with | ⟨0, _⟩ => rfl)
  have e2 : Cert.ReferenceIdeal.Read.idx_main_v66 (Cert.ReferenceIdeal.Read.idx_main_v67 (ix2 i k)) = ix1 k :=
    funext fun a => Fin.ext (by match a with | ⟨0, _⟩ => rfl)
  have e3 : Cert.ReferenceIdeal.Read.idx_main_v69 (Cert.ReferenceIdeal.Read.idx_main_v70 (ix2 i k)) = ix1 k :=
    funext fun a => Fin.ext (by match a with | ⟨0, _⟩ => rfl)
  have e4 : Cert.ReferenceIdeal.Read.idx_main_v72 (Cert.ReferenceIdeal.Read.idx_main_v73 (ix2 i k)) = ix1 k :=
    funext fun a => Fin.ext (by match a with | ⟨0, _⟩ => rfl)
  rw [Cert.ReferenceIdeal.Read.val_main_v74_apply, Cert.ReferenceIdeal.Read.val_main_v71_apply,
    Cert.ReferenceIdeal.Read.val_main_v68_apply, Cert.ReferenceIdeal.Read.val_main_v62_apply,
    Cert.ReferenceIdeal.Read.val_main_v61_apply, Cert.ReferenceIdeal.Read.val_main_v60_apply,
    Cert.ReferenceIdeal.Read.val_main_v67_apply, Cert.ReferenceIdeal.Read.val_main_v66_apply,
    Cert.ReferenceIdeal.Read.val_main_v65_apply, Cert.ReferenceIdeal.Read.val_main_v64_apply,
    Cert.ReferenceIdeal.Read.val_main_v63_apply, Cert.ReferenceIdeal.Read.val_main_cst_13_apply,
    Cert.ReferenceIdeal.Read.val_main_v70_apply, Cert.ReferenceIdeal.Read.val_main_v69_apply,
    Cert.ReferenceIdeal.Read.val_main_v73_apply, Cert.ReferenceIdeal.Read.val_main_v72_apply,
    e1, e2, e3, e4]
  rfl

/-- The reference's result at (i, q): the sum over k of its normalized entry (i, k) times weight (k, q), plus
    the output offset q. -/
theorem final_ref_apply (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S128x128, .f32⟩ : BufTy).Contents (Elt Ideal))
    (x4 x5 x6 : (⟨Cert.ReferenceIdeal.S128, .f32⟩ : BufTy).Contents (Elt Ideal))
    (x7 : (⟨Cert.ReferenceIdeal.S128x3, .f32⟩ : BufTy).Contents (Elt Ideal))
    (x8 : (⟨Cert.ReferenceIdeal.S3, .f32⟩ : BufTy).Contents (Elt Ideal))
    (i : Fin 50000) (q : Fin 3) :
    Cert.ReferenceIdeal.Read.val_main_v78 (F := Ideal) x0 x1 x2 x3 x4 x5 x6 x7 x8 (ix2 i q)
      = (∑ k : Fin 128, normEntry (Cert.ReferenceIdeal.Read.val_main_v49 (F := Ideal) x0 x1 x2 x3 x4 (ix2 i k))
            (Cert.ReferenceIdeal.Read.val_main_v52 (F := Ideal) x0 x1 x2 x3 x4 (ix1 k))
            (Cert.ReferenceIdeal.Read.val_main_v59 (F := Ideal) x0 x1 x2 x3 x4 (ix1 k))
            (x5 (ix1 k)) (x6 (ix1 k)) * x7 (ix2 k q))
        + x8 (ix1 q) := by
  rw [Cert.ReferenceIdeal.Read.val_main_v78_apply, Cert.ReferenceIdeal.Read.val_main_v75_apply,
    Cert.ReferenceIdeal.Read.val_main_v77_apply, Cert.ReferenceIdeal.Read.val_main_v76_apply]
  refine congrArg₂ (· + ·) (Finset.sum_congr rfl fun k _ => ?_)
    (congrArg x8 (funext fun a => Fin.ext (by match a with | ⟨0, _⟩ => rfl)))
  have el : Cert.ReferenceIdeal.Read.lidx_main_v75 (ix2 i q) k = ix2 i k :=
    funext fun a => Fin.ext (by match a with | ⟨0, _⟩ => rfl | ⟨1, _⟩ => rfl)
  have er : Cert.ReferenceIdeal.Read.ridx_main_v75 (ix2 i q) k = ix2 k q :=
    funext fun a => Fin.ext (by match a with | ⟨0, _⟩ => rfl | ⟨1, _⟩ => rfl)
  rw [el, er, ref_norm_entry_apply]

/-! ## A block's entry is the reference's entry -/

/-- If row p of the block is row i of the reference's activations, and the mean, variance, gain, offset, weight
    and output-offset inputs of the block are the reference's, then the block's entry (p, q) is the reference's
    result at (i, q). -/
theorem final_block_eq_ref (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S128x128, .f32⟩ : BufTy).Contents (Elt Ideal))
    (x4 x5 x6 : (⟨Cert.ReferenceIdeal.S128, .f32⟩ : BufTy).Contents (Elt Ideal))
    (x7 : (⟨Cert.ReferenceIdeal.S128x3, .f32⟩ : BufTy).Contents (Elt Ideal))
    (x8 : (⟨Cert.ReferenceIdeal.S3, .f32⟩ : BufTy).Contents (Elt Ideal))
    (hb : Vec Ideal Cert.KernelIdeal.S2000x128 .f32) (var mean g b : Vec Ideal Cert.KernelIdeal.S1x128 .f32)
    (lw : Vec Ideal Cert.KernelIdeal.S128x3 .f32) (lb : Vec Ideal Cert.KernelIdeal.S1x3 .f32)
    (p : Fin 2000) (i : Fin 50000) (q : Fin 3)
    (hrow : ∀ k : Fin 128, hb (ix2 p k) = Cert.ReferenceIdeal.Read.val_main_v49 (F := Ideal) x0 x1 x2 x3 x4 (ix2 i k))
    (hmean : ∀ k : Fin 128, mean (ix2 (0 : Fin 1) k) = Cert.ReferenceIdeal.Read.val_main_v52 (F := Ideal) x0 x1 x2 x3 x4 (ix1 k))
    (hvar : ∀ k : Fin 128, var (ix2 (0 : Fin 1) k) = Cert.ReferenceIdeal.Read.val_main_v59 (F := Ideal) x0 x1 x2 x3 x4 (ix1 k))
    (hgain : ∀ k : Fin 128, g (ix2 (0 : Fin 1) k) = x5 (ix1 k))
    (hoff : ∀ k : Fin 128, b (ix2 (0 : Fin 1) k) = x6 (ix1 k))
    (hw : ∀ k : Fin 128, lw (ix2 k q) = x7 (ix2 k q))
    (hlb : lb (ix2 (0 : Fin 1) q) = x8 (ix1 q)) :
    Cert.KernelIdeal.Gen.k2_pay1 (F := Ideal) hb var mean g b lw lb (ix2 p q)
      = Cert.ReferenceIdeal.Read.val_main_v78 (F := Ideal) x0 x1 x2 x3 x4 x5 x6 x7 x8 (ix2 i q) := by
  rw [final_block_apply, final_ref_apply, hlb]
  refine congrArg (· + x8 (ix1 q)) (Finset.sum_congr rfl fun k _ => ?_)
  rw [hrow k, hmean k, hvar k, hgain k, hoff k, hw k]

end Cert.Spec

end
-- ==== Proof.Bridge.Out.lean ====
/-
  The result array of the last region is the reference's result. The region writes the result in 25 row
  blocks of 2000 rows; block t, entry (p, q), is the body's expression of row p of the block of activations
  and of the mean, variance, gain, offset, weight and output-offset operands, which are whole at every point.
  When the activations found by the region are the reference's activations, its mean and variance rows the
  reference's mean and variance, and the remaining operands the reference's, that entry is the reference's
  result at row 2000·t + p, column q. The blocks cover the 50000 rows, so the whole array is the reference's.
-/
import proofs.«181423_j46755013984832_1_alg».proof.Proof.KI.Value2
import proofs.«181423_j46755013984832_1_alg».proof.Proof.Spec.Final
import proofs.«181423_j46755013984832_1_alg».proof.Proof.Gen.ReferenceIdeal.Read

noncomputable section

namespace Cert.Bridge

open Cert.KernelIdeal Cert.KernelIdeal.Gen Cert.KernelIdeal.Frm
open Idealize.ShloMosaic Idealize.ShloMosaic.TcCoe Idealize.SL.Sem
open Idealize.ShloMosaic.ValueIdx

/-- The result array after the last region is the reference's result, given that the arrays the region reads
    are the reference's activations, mean row, variance row, gain, offset, weights and output offset. -/
theorem out_eq (V : (c : Dev nD) → (b : Ref sig .tc) → Buf (Elt Ideal) ((c : Thread nD τ).loc b)) (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 : (⟨Cert.ReferenceIdeal.S128x128, .f32⟩ : BufTy).Contents (Elt Ideal))
    (x4 x5 x6 : (⟨Cert.ReferenceIdeal.S128, .f32⟩ : BufTy).Contents (Elt Ideal))
    (x7 : (⟨Cert.ReferenceIdeal.S128x3, .f32⟩ : BufTy).Contents (Elt Ideal))
    (x8 : (⟨Cert.ReferenceIdeal.S3, .f32⟩ : BufTy).Contents (Elt Ideal))
    (h49 : ∀ (i : Fin 50000) (k : Fin 128),
      V c main_v49 (ix2 i k) = Cert.ReferenceIdeal.Read.val_main_v49 (F := Ideal) x0 x1 x2 x3 x4 (ix2 i k))
    (hmean : ∀ k : Fin 128,
      V c main_v52 (ix2 (0 : Fin 1) k) = Cert.ReferenceIdeal.Read.val_main_v52 (F := Ideal) x0 x1 x2 x3 x4 (ix1 k))
    (hvar : ∀ k : Fin 128,
      V c main_v56 (ix2 (0 : Fin 1) k) = Cert.ReferenceIdeal.Read.val_main_v59 (F := Ideal) x0 x1 x2 x3 x4 (ix1 k))
    (hgain : ∀ k : Fin 128, V c main_v57 (ix2 (0 : Fin 1) k) = x5 (ix1 k))
    (hoff : ∀ k : Fin 128, V c main_v58 (ix2 (0 : Fin 1) k) = x6 (ix1 k))
    (hw : ∀ (k : Fin 128) (q : Fin 3), V c main_arg7 (ix2 k q) = x7 (ix2 k q))
    (hlb : ∀ q : Fin 3, V c main_v59 (ix2 (0 : Fin 1) q) = x8 (ix1 q)) :
    (dat2 V c).arrAt 7 cfg2.N = Cert.ReferenceIdeal.Read.val_main_v78 (F := Ideal) x0 x1 x2 x3 x4 x5 x6 x7 x8 := by
  refine final2 V c (Cert.ReferenceIdeal.Read.val_main_v78 (F := Ideal) x0 x1 x2 x3 x4 x5 x6 x7 x8) fun t y => ?_
  obtain ⟨p, q, rfl⟩ : ∃ (p : Fin 2000) (q : Fin 3), y = ix2 p q := ⟨y 0, y 1, eq_ix2 y⟩
  refine (congrFun (out2_7_eq (iblk2 V c 0 t) (iblk2 V c 1 t) (iblk2 V c 2 t) (iblk2 V c 3 t) (iblk2 V c 4 t)
    (iblk2 V c 5 t) (iblk2 V c 6 t)) (ix2 p q)).trans ?_
  exact Cert.Spec.final_block_eq_ref x0 x1 x2 x3 x4 x5 x6 x7 x8
    (iblk2 V c 0 t) (iblk2 V c 2 t) (iblk2 V c 1 t) (iblk2 V c 3 t) (iblk2 V c 4 t) (iblk2 V c 5 t) (iblk2 V c 6 t)
    p (row2 t p) q
    (fun k => (blk2_0 V c t (ix2 p k)).trans (h49 (row2 t p) k))
    (fun k => (blk2_1 V c t (ix2 (0 : Fin 1) k)).trans (hmean k))
    (fun k => (blk2_2 V c t (ix2 (0 : Fin 1) k)).trans (hvar k))
    (fun k => (blk2_3 V c t (ix2 (0 : Fin 1) k)).trans (hgain k))
    (fun k => (blk2_4 V c t (ix2 (0 : Fin 1) k)).trans (hoff k))
    (fun k => (blk2_5 V c t (ix2 k q)).trans (hw k q))
    ((blk2_6 V c t (ix2 (0 : Fin 1) q)).trans (hlb q))

end Cert.Bridge

end
-- ==== Proof.Spec.Finite.lean ====
/-
  Finiteness. The precondition says that every float input array is finite: the absolute value of each of
  its entries is below +∞. Read on the extended reals this says that each entry is a real number (neither ⊤
  nor ⊥). From there the graph-convolution stage h = relu(scatter-add(gather(x·W)·norm) + b) is real-valued
  too, whatever the integer edge indices are: a broadcast, a gather and a concatenation only copy entries of
  their operands; a product, a sum, a maximum and a finite sum of reals are real; an accumulating scatter adds
  to an operand entry a finite sum of update entries; a contraction is a finite sum of products; and the one
  reciprocal square root of the chain is taken of the node degree under a selection that keeps it only where
  the degree is positive (and puts zero elsewhere), where the reciprocal square root of a real is a real.
-/
import proofs.«181423_j46755013984832_1_alg».proof.Pre_finite_inputs
import proofs.«181423_j46755013984832_1_alg».proof.Proof.Gen.ReferenceIdeal.Read
import Idealize.ShloMosaic.Lib.ReduceAll
import Idealize.ShloMosaic.PureOps.Ideal
import Idealize.ShloMosaic.PureOps.Ideal.Laws

noncomputable section

namespace Cert.Spec

open Idealize.ShloMosaic
open scoped BigOperators

/-! ## Real numbers among the extended reals -/

/-- An extended real that is a real number. -/
def IsReal (x : EReal) : Prop := ∃ r : ℝ, x = (r : EReal)

theorem isReal_zero : IsReal 0 := ⟨0, rfl⟩
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_max {x y : EReal} (hx : IsReal x) (hy : IsReal y) : IsReal (max x y) := by
  rcases max_choice x y with h | h <;> rw [h] <;> assumption
theorem isReal_sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact isReal_add (hf a (Finset.mem_insert_self a s)) (ih fun i hi => hf i (Finset.mem_insert_of_mem hi))

/-- The float words of 0, of 1 and of +∞. -/
theorem isReal_zero_word : IsReal (Ideal.ofBits .f32 0x00000000#32) := by
  rw [Ideal.ofBits_zero_f32]; exact isReal_zero
theorem isReal_one_word : IsReal (Ideal.ofBits .f32 0x3F800000#32) :=
  ⟨1, by simp [Ideal.ofBits, Ideal.ieee, -EReal.coe_mul]; norm_num⟩
theorem top_word : Ideal.ofBits .f32 0x7F800000#32 = ⊤ := by simp [Ideal.ofBits, Ideal.ieee]

/-- An extended real whose absolute value is below +∞ is a real number: |⊤| = |⊥| = ⊤. -/
theorem isReal_of_abs_lt (x : EReal)
    (h : FloatOps.cmpf (F := Ideal) (φ := .f32) .olt (FloatOps.hostAbsf x) (FloatOps.ofBits .f32 0x7F800000#32) = 1#1) :
    ∃ r : ℝ, x = (r : EReal) := by
  have h' : max x (-x) < ⊤ := by
    have this : Ideal.cmp .olt (max x (-x)) (Ideal.ofBits .f32 0x7F800000#32) = 1#1 := h
    rw [top_word] at this
    unfold Ideal.cmp at this
    dsimp only at this
    by_contra hn
    rw [decide_eq_false hn] at this
    exact absurd this (by decide)
  induction x using EReal.rec with
  | bot => simp at h'
  | coe r => exact ⟨r, rfl⟩
  | top => simp at h'

/-! ## The precondition, read -/

section Pre
variable [Cert.Pre_finite_inputs.Facts]
open Cert.Pre_finite_inputs

instance : Subsingleton Cert.Pre_finite_inputs.S_.Idx := ⟨fun a b => funext fun d => d.elim0⟩

/-- The printed predicate is the conjunction, over the eight float arrays, of "every |entry| < +∞"; where it
    holds every entry of every float array is a real number. (The integer array `a1` is not constrained.) -/
theorem pre_finite
    (a0 : FVec Ideal S50000x128 .f32) (a1 : IVec S2x800000 32) (a2 : FVec Ideal S800000 .f32)
    (a3 : FVec Ideal S128x128 .f32) (a4 a5 a6 : FVec Ideal S128 .f32) (a7 : FVec Ideal S128x3 .f32)
    (a8 : FVec Ideal S3 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨e0, e2⟩, e3⟩, e4⟩, e5⟩, e6⟩, e7⟩, e8⟩ := h0
  exact ⟨fun i => isReal_of_abs_lt (a0 i) (Host.reduce_andi_all _ _ _ _ _ e0 i),
    fun i => isReal_of_abs_lt (a2 i) (Host.reduce_andi_all _ _ _ _ _ e2 i),
    fun i => isReal_of_abs_lt (a3 i) (Host.reduce_andi_all _ _ _ _ _ e3 i),
    fun i => isReal_of_abs_lt (a4 i) (Host.reduce_andi_all _ _ _ _ _ e4 i),
    fun i => isReal_of_abs_lt (a5 i) (Host.reduce_andi_all _ _ _ _ _ e5 i),
    fun i => isReal_of_abs_lt (a6 i) (Host.reduce_andi_all _ _ _ _ _ e6 i),
    fun i => isReal_of_abs_lt (a7 i) (Host.reduce_andi_all _ _ _ _ _ e7 i),
    fun i => isReal_of_abs_lt (a8 i) (Host.reduce_andi_all _ _ _ _ _ e8 i)⟩

end Pre

/-! ## Operations that keep a vector real-valued -/

/-- A vector of extended reals whose every entry is a real number. -/
def RealV {S : Shape} (v : S.Idx → EReal) : Prop := ∀ i, IsReal (v i)

section Ops
variable {S T : Shape}

theorem realV_constant_zero : RealV (constant (F := Ideal) S .f32 0x00000000#32) := fun _ => isReal_zero_word
theorem realV_constant_one : RealV (constant (F := Ideal) S .f32 0x3F800000#32) := fun _ => isReal_one_word
theorem realV_addf {a b : FVec Ideal S .f32} (ha : RealV a) (hb : RealV b) : RealV (addf a b) :=
  fun i => isReal_add (ha i) (hb i)
theorem realV_mulf {a b : FVec Ideal S .f32} (ha : RealV a) (hb : RealV b) : RealV (mulf a b) :=
  fun i => isReal_mul (ha i) (hb i)
theorem realV_maximumf {a b : FVec Ideal S .f32} (ha : RealV a) (hb : RealV b) : RealV (maximumf a b) :=
  fun i => isReal_max (ha i) (hb i)
/-- Every entry of a broadcast is an entry of its operand. -/
theorem realV_broadcastInDim (dims : Fin S.rank → Fin T.rank) (h : S.BroadcastsInDim T dims) {x : S.Idx → EReal}
    (hx : RealV x) : RealV (broadcastInDim T dims h x) := fun _ => hx _
/-- Every entry of a gather is an entry of its operand, whatever the indices. -/
theorem realV_gather {si : Shape} {w : Nat} (d : GatherDims S si T) {x : S.Idx → EReal} (idx : IVec si w)
    (hx : RealV x) : RealV (Host.gather d x idx) := fun _ => hx _
/-- An accumulating scatter adds to each operand entry a finite sum of update entries, whatever the indices. -/
theorem realV_scatterAdd {si u : Shape} {w : Nat} (d : ScatterDims S si u) {x : FVec Ideal S .f32} (idx : IVec si w)
    {upd : FVec Ideal u .f32} (hx : RealV x) (hu : RealV upd) : RealV (Host.scatterAdd d x idx upd) :=
  fun i => isReal_add (hx i) (isReal_sum _ _ fun j _ => hu j)
/-- A contraction is a finite sum of products. -/
theorem realV_dotGeneral {sl sr so : Shape} (d : DotDims sl sr so) (prec : Option ContractPrecision)
    {l : FVec Ideal sl .f32} {r : FVec Ideal sr .f32} (hl : RealV l) (hr : RealV r) :
    RealV (Host.dotGeneral d prec l r) :=
  fun j => isReal_add isReal_zero (isReal_sum _ _ fun k _ => isReal_mul (hl _) (hr _))
/-- Every entry of a concatenation is an entry of one of the pieces. -/
theorem realV_concatenate (a : Fin T.rank) (xs : List ((s : Shape) × (s.Idx → EReal)))
    (h : Shape.Concatenates (xs.map (·.1)) T a) (hall : ∀ p ∈ xs, RealV p.2) : RealV (concatenate T a xs h) := by
  intro j
  unfold concatenate
  exact hall _ (List.getElem_mem _) _

/-- The reciprocal square root of a real number, taken only where that number is positive (and replaced by zero
    elsewhere), is a real number. -/
theorem isReal_guarded_rsqrt {d : EReal} (hd : IsReal d) :
    IsReal (Scalar.select (FloatOps.cmpf (F := Ideal) (φ := .f32) .ogt d (FloatOps.ofBits .f32 0x00000000#32))
      (FloatOps.hostUnary (F := Ideal) (φ := .f32) .rsqrt d) (FloatOps.ofBits (F := Ideal) .f32 0x00000000#32)) := by
  obtain ⟨r, rfl⟩ := hd
  unfold Scalar.select
  split_ifs with hc
  · have hc' : Ideal.cmp .ogt (r : EReal) (Ideal.ofBits .f32 0x00000000#32) = 1#1 := hc
    rw [Ideal.ofBits_zero_f32] at hc'
    unfold Ideal.cmp at hc'
    dsimp only at hc'
    have hpos : (0 : EReal) < (r : EReal) := by
      by_contra hn
      rw [decide_eq_false hn] at hc'
      exact absurd hc' (by decide)
    have hr : 0 < r := by exact_mod_cast hpos
    show IsReal (Ideal.rsqrt (r : EReal))
    rw [Ideal.rsqrt_coe, if_neg (not_lt.2 hr.le), if_neg hr.ne']
    exact ⟨_, rfl⟩
  · exact isReal_zero_word

end Ops

/-! ## The graph-convolution stage is real-valued

Stage by stage along the reference's host program, for real-valued node features `x0`, edge weights `x2`,
weights `x3` and bias `x4`, and ANY edge index array `x1`. -/

section Walk
open Cert.ReferenceIdeal Cert.ReferenceIdeal.Read

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x128, .f32⟩ : BufTy).Contents (Elt Ideal))
  (x4 : (⟨S128, .f32⟩ : BufTy).Contents (Elt Ideal))

/-- The unit self-loop weights. -/
theorem real_v7 : RealV (S := S50000) (val_main_v7 (F := Ideal)) := by
  unfold val_main_v7 val_main_cst
  exact realV_broadcastInDim _ _ realV_constant_one

/-- The edge weights followed by the self-loop weights. -/
theorem real_v8 (h2 : RealV (S := S800000) x2) : RealV (S := S850000) (val_main_v8 (F := Ideal) x2) := by
  unfold val_main_v8
  refine realV_concatenate _ _ _ ?_
  intro p hp
  simp only [List.mem_cons, List.not_mem_nil, or_false] at hp
  rcases hp with rfl | rfl
  · exact h2
  · exact real_v7

/-- The node degrees: a scatter-add of the weights into zeros. -/
theorem real_v11 (h2 : RealV (S := S800000) x2) : RealV (S := S50000) (val_main_v11 (F := Ideal) x1 x2) := by
  unfold val_main_v11
  refine realV_scatterAdd _ _ ?_ (real_v8 x2 h2)
  unfold val_main_v9 val_main_cst_0
  exact realV_broadcastInDim _ _ realV_constant_zero

/-- The normalisation: the reciprocal square root of the degree where it is positive, zero elsewhere. -/
theorem real_v15 (h2 : RealV (S := S800000) x2) : RealV (S := S50000) (val_main_v15 (F := Ideal) x1 x2) := by
  intro i
  have h := isReal_guarded_rsqrt (real_v11 x1 x2 h2 i)
  rw [val_main_v15_apply, val_main_v13_apply, val_main_v14_apply, val_main_v12_apply, val_main_cst_1_apply,
    val_main_call0_v1_apply, val_main_call0_v0_apply, val_main_cst_2_apply]
  exact h

/-- The edge coefficients: normalisation at one end, times the weight, times the normalisation at the other end. -/
theorem real_v31 (h2 : RealV (S := S800000) x2) : RealV (S := S850000) (val_main_v31 (F := Ideal) x1 x2) := by
  unfold val_main_v31 val_main_v23 val_main_v22 val_main_v30
  exact realV_mulf (realV_mulf (realV_gather _ _ (real_v15 x1 x2 h2)) (real_v8 x2 h2))
    (realV_gather _ _ (real_v15 x1 x2 h2))

/-- The transformed features x·W. -/
theorem real_v32 (h0 : RealV (S := S50000x128) x0) (h3 : RealV (S := S128x128) x3) :
    RealV (S := S50000x128) (val_main_v32 (F := Ideal) x0 x3) := by
  unfold val_main_v32
  exact realV_dotGeneral _ _ h0 h3

/-- The messages: a gathered row of x·W times the edge coefficient. -/
theorem real_v42 (h0 : RealV (S := S50000x128) x0) (h2 : RealV (S := S800000) x2) (h3 : RealV (S := S128x128) x3) :
    RealV (S := S850000x128) (val_main_v42 (F := Ideal) x0 x1 x2 x3) := by
  unfold val_main_v42 val_main_v39 val_main_v41 val_main_v40
  exact realV_mulf (realV_gather _ _ (real_v32 x0 x3 h0 h3))
    (realV_broadcastInDim _ _ (realV_broadcastInDim _ _ (real_v31 x1 x2 h2)))

/-- The aggregated messages: a scatter-add into zeros. -/
theorem real_v45 (h0 : RealV (S := S50000x128) x0) (h2 : RealV (S := S800000) x2) (h3 : RealV (S := S128x128) x3) :
    RealV (S := S50000x128) (val_main_v45 (F := Ideal) x0 x1 x2 x3) := by
  unfold val_main_v45
  refine realV_scatterAdd _ _ ?_ (real_v42 x0 x1 x2 x3 h0 h2 h3)
  unfold val_main_v43 val_main_cst_8
  exact realV_broadcastInDim _ _ realV_constant_zero

/-- Plus the bias, then the maximum with zero. -/
theorem real_v49 (h0 : RealV (S := S50000x128) x0) (h2 : RealV (S := S800000) x2) (h3 : RealV (S := S128x128) x3)
    (h4 : RealV (S := S128) x4) : RealV (S := S50000x128) (val_main_v49 (F := Ideal) x0 x1 x2 x3 x4) := by
  unfold val_main_v49 val_main_v48 val_main_v47 val_main_v46 val_main_call1_v0 val_main_call1_cst
  exact realV_maximumf
    (realV_addf (real_v45 x0 x1 x2 x3 h0 h2 h3) (realV_broadcastInDim _ _ (realV_broadcastInDim _ _ h4)))
    (realV_broadcastInDim _ _ realV_constant_zero)

/-- The graph-convolution stage of real-valued inputs is real-valued, whatever the edge indices. -/
theorem hrelu_finite
    (hx : ∀ i, ∃ r : ℝ, x0 i = (r : EReal)) (hew : ∀ i, ∃ r : ℝ, x2 i = (r : EReal))
    (hcw : ∀ i, ∃ r : ℝ, x3 i = (r : EReal)) (hcb : ∀ i, ∃ r : ℝ, x4 i = (r : EReal)) :
    ∀ i : S50000x128.Idx, ∃ r : ℝ, val_main_v49 (F := Ideal) x0 x1 x2 x3 x4 i = (r : EReal) :=
  real_v49 x0 x1 x2 x3 x4 hx hew hcw hcb

end Walk

end Cert.Spec

end
-- ==== Proof.Spec.Variance.lean ====
/-
  The variance of a finite family of real numbers, in the two arrangements the two programs use.

  For real numbers h_k (k ranging over a finite index type of n elements, n ≠ 0), with mean
  m = (Σ_k h_k)/n, the mean of the squares minus the square of the mean equals the mean of the
  squared deviations:
      (Σ_k h_k²)/n − m²  =  (Σ_k (h_k − m)²)/n ,
  because Σ_k (h_k − m)² = Σ_k h_k² − 2m Σ_k h_k + n m² and Σ_k h_k = n m.

  On the extended reals the identity fails at the infinities (⊤ − ⊤ is ⊥ there), so it is stated
  for families whose every entry is a real number; sums, products, differences and quotients by a
  nonzero real of reals are reals, and the identity is the real one read through the coercion.
-/
import Idealize.ShloMosaic.PureOps.Ideal
import Idealize.ShloMosaic.PureOps.Ideal.Laws
import Mathlib.Tactic.Ring
import Mathlib.Tactic.FieldSimp
import Mathlib.Tactic.NormNum

noncomputable section

namespace Cert.Spec

open Idealize.ShloMosaic
open scoped BigOperators

/-- The float word 0x47435000 denotes the real number 50000 (sign +, exponent 2^15, significand
    1.52587890625). -/
theorem count_word : Ideal.ofBits .f32 0x47435000#32 = ((50000 : ℝ) : EReal) := by
  simp [Ideal.ofBits, Ideal.ieee, -EReal.coe_mul]; norm_num

/-- The coercion of the reals into the extended reals commutes with finite sums. -/
theorem coe_finsum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The identity over the reals, with the quotients written as products by 1/n. -/
theorem variance_real {ι : Type} [Fintype ι] (r : ι → ℝ) (n : ℝ) (hn : n ≠ 0)
    (hcard : (Fintype.card ι : ℝ) = n) :
    (∑ k, r k * r k) * (1 / n) - (∑ k, r k) * (1 / n) * ((∑ k, r k) * (1 / n))
      = (∑ k, (r k - (∑ k, r k) * (1 / n)) * (r k - (∑ k, r k) * (1 / n))) * (1 / n) := by
  set m : ℝ := (∑ k, r k) * (1 / n) with hm
  have hS : ∑ k, r k = n * m := by rw [hm]; field_simp
  have hsq : ∀ k, (r k - m) * (r k - m) = r k * r k - 2 * m * r k + m * m := fun k => by ring
  have hdev : ∑ k, (r k - m) * (r k - m) = (∑ k, r k * r k) - 2 * m * (∑ k, r k) + n * (m * m) := by
    simp only [hsq, Finset.sum_add_distrib, Finset.sum_sub_distrib, ← Finset.mul_sum, Finset.sum_const,
      Finset.card_univ, nsmul_eq_mul, hcard]
    ring
  rw [hdev, hS]
  field_simp
  ring

/-- The identity on the extended reals, in the operator forms of the two programs: on the left the
    quotient of the sum of squares minus the square of the quotient of the sum; on the right the
    quotient of the sum of the squared differences from the quotient of the sum. Every sum starts
    from 0 and every quotient is by the same extended real `c`, the number `n` of terms. -/
theorem variance_law {ι : Type} [Fintype ι] (h : ι → EReal) (hfin : ∀ k, ∃ r : ℝ, h k = (r : EReal))
    (c : EReal) (n : ℝ) (hc : c = (n : EReal)) (hn : n ≠ 0) (hcard : (Fintype.card ι : ℝ) = n) :
    Ideal.div (0 + ∑ k, h k * h k) c - Ideal.div (0 + ∑ k, h k) c * Ideal.div (0 + ∑ k, h k) c
      = Ideal.div (0 + ∑ k, (h k - Ideal.div (0 + ∑ k, h k) c) * (h k - Ideal.div (0 + ∑ k, h k) c)) c := by
  choose r hr using hfin
  obtain rfl : h = fun k => ((r k : ℝ) : EReal) := funext hr
  subst hc
  simp only [zero_add, ← EReal.coe_mul, coe_finsum, Ideal.div_coe hn, ← EReal.coe_sub]
  exact congrArg _ (variance_real r n hn hcard)

/-- The same for the 50000 rows of a column, divided by the float word of 50000. -/
theorem variance_law_rows (h : Fin 50000 → EReal) (hfin : ∀ k, ∃ r : ℝ, h k = (r : EReal)) :
    Ideal.div (0 + ∑ k, h k * h k) (Ideal.ofBits .f32 0x47435000#32)
        - Ideal.div (0 + ∑ k, h k) (Ideal.ofBits .f32 0x47435000#32)
          * Ideal.div (0 + ∑ k, h k) (Ideal.ofBits .f32 0x47435000#32)
      = Ideal.div (0 + ∑ k, (h k - Ideal.div (0 + ∑ k, h k) (Ideal.ofBits .f32 0x47435000#32))
          * (h k - Ideal.div (0 + ∑ k, h k) (Ideal.ofBits .f32 0x47435000#32)))
          (Ideal.ofBits .f32 0x47435000#32) :=
  variance_law h hfin _ 50000 count_word (by norm_num) (by simp)

/-- The same, written with the float operations of the ideal instance (definitionally the line
    above): the kernel's `subf (hostDivf S2 c) (mulf (hostDivf S1 c) (hostDivf S1 c))` against the
    reference's `hostDivf (0 + Σ_k (subf h_k mean) · (subf h_k mean)) c`. -/
theorem variance_law_rows_ops (h : Fin 50000 → Ideal .f32) (hfin : ∀ k, ∃ r : ℝ, h k = (r : EReal)) :
    FloatOps.subf
        (FloatOps.hostDivf (0 + ∑ k, FloatOps.mulf (h k) (h k)) (FloatOps.ofBits (F := Ideal) .f32 0x47435000#32))
        (FloatOps.mulf
          (FloatOps.hostDivf (0 + ∑ k, h k) (FloatOps.ofBits (F := Ideal) .f32 0x47435000#32))
          (FloatOps.hostDivf (0 + ∑ k, h k) (FloatOps.ofBits (F := Ideal) .f32 0x47435000#32)))
      = FloatOps.hostDivf
          (0 + ∑ k, FloatOps.mulf
            (FloatOps.subf (h k) (FloatOps.hostDivf (0 + ∑ k, h k) (FloatOps.ofBits (F := Ideal) .f32 0x47435000#32)))
            (FloatOps.subf (h k) (FloatOps.hostDivf (0 + ∑ k, h k) (FloatOps.ofBits (F := Ideal) .f32 0x47435000#32))))
          (FloatOps.ofBits (F := Ideal) .f32 0x47435000#32) :=
  variance_law_rows h hfin

end Cert.Spec

end
-- ==== Proof.Spec.RefVariance.lean ====
/-
  The reference's batch statistics, column by column, and the kernel's arrangement of the variance.

  For a column q of the activations h (50000 rows), the reference takes the mean m_q = (Σ_k h(k,q))/50000 and
  the variance as the mean of the squared deviations, (Σ_k (h(k,q) − m_q)²)/50000. The other program takes the
  mean of the squares minus the square of the mean, (Σ_k h(k,q)²)/50000 − m_q². For real-valued activations
  the two are equal (the law of the variance); the activations are real-valued when the inputs are.
-/
import proofs.«181423_j46755013984832_1_alg».proof.Proof.Spec.Finite
import proofs.«181423_j46755013984832_1_alg».proof.Proof.Spec.Variance
import proofs.«181423_j46755013984832_1_alg».proof.Proof.Spec.Stats

noncomputable section

namespace Cert.Spec

open Idealize.ShloMosaic Idealize.ShloMosaic.ValueIdx
open scoped BigOperators

section RefStats
open Cert.ReferenceIdeal Cert.ReferenceIdeal.Read

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x128, .f32⟩ : BufTy).Contents (Elt Ideal))
  (x4 : (⟨S128, .f32⟩ : BufTy).Contents (Elt Ideal))

/-- The reference's mean of column q: the sum of the column over the word of 50000. -/
theorem ref_mean_apply (q : Fin 128) :
    val_main_v52 (F := Ideal) x0 x1 x2 x3 x4 (ix1 q)
      = Ideal.div (∑ k : Fin 50000, val_main_v49 (F := Ideal) x0 x1 x2 x3 x4 (ix2 k q))
          (Ideal.ofBits .f32 0x47435000#32) := by
  rw [val_main_v52_apply, ref_col_sum_apply, val_main_v51_apply, val_main_cst_10_apply]
  rfl

/-- The reference's variance of column q, as written: the sum of the squared deviations from the mean over the
    word of 50000. -/
theorem ref_var_dev_apply (q : Fin 128) :
    val_main_v59 (F := Ideal) x0 x1 x2 x3 x4 (ix1 q)
      = Ideal.div (∑ k : Fin 50000,
            (val_main_v49 (F := Ideal) x0 x1 x2 x3 x4 (ix2 k q)
              - Ideal.div (∑ k : Fin 50000, val_main_v49 (F := Ideal) x0 x1 x2 x3 x4 (ix2 k q))
                  (Ideal.ofBits .f32 0x47435000#32))
            * (val_main_v49 (F := Ideal) x0 x1 x2 x3 x4 (ix2 k q)
              - Ideal.div (∑ k : Fin 50000, val_main_v49 (F := Ideal) x0 x1 x2 x3 x4 (ix2 k q))
                  (Ideal.ofBits .f32 0x47435000#32)))
          (Ideal.ofBits .f32 0x47435000#32) := by
  rw [val_main_v59_apply, ref_col_sqdev_apply, val_main_v58_apply, val_main_cst_12_apply]
  simp only [ref_sqdev_apply, ref_mean_apply]
  rfl

/-- For real-valued inputs the reference's variance of column q is the mean of the squares minus the square of
    the mean: the arrangement of the other program. -/
theorem ref_var_apply
    (hx : ∀ i, ∃ r : ℝ, x0 i = (r : EReal)) (hew : ∀ i, ∃ r : ℝ, x2 i = (r : EReal))
    (hcw : ∀ i, ∃ r : ℝ, x3 i = (r : EReal)) (hcb : ∀ i, ∃ r : ℝ, x4 i = (r : EReal)) (q : Fin 128) :
    val_main_v59 (F := Ideal) x0 x1 x2 x3 x4 (ix1 q)
      = Ideal.div (∑ k : Fin 50000, val_main_v49 (F := Ideal) x0 x1 x2 x3 x4 (ix2 k q)
            * val_main_v49 (F := Ideal) x0 x1 x2 x3 x4 (ix2 k q)) (Ideal.ofBits .f32 0x47435000#32)
        - Ideal.div (∑ k : Fin 50000, val_main_v49 (F := Ideal) x0 x1 x2 x3 x4 (ix2 k q))
            (Ideal.ofBits .f32 0x47435000#32)
          * Ideal.div (∑ k : Fin 50000, val_main_v49 (F := Ideal) x0 x1 x2 x3 x4 (ix2 k q))
            (Ideal.ofBits .f32 0x47435000#32) := by
  have hfin : ∀ k : Fin 50000, ∃ r : ℝ, val_main_v49 (F := Ideal) x0 x1 x2 x3 x4 (ix2 k q) = (r : EReal) :=
    fun k => hrelu_finite x0 x1 x2 x3 x4 hx hew hcw hcb (ix2 k q)
  have law := variance_law_rows (fun k : Fin 50000 => val_main_v49 (F := Ideal) x0 x1 x2 x3 x4 (ix2 k q)) hfin
  simp only [zero_add] at law
  rw [ref_var_dev_apply]
  exact law.symm

/-- The other program's mean, from its column sum `S1` and its divisor `C`, is the reference's. -/
theorem kernel_mean_eq_ref (q : Fin 128) (S1 C : EReal) (hC : C = Ideal.ofBits .f32 0x47435000#32)
    (hS1 : S1 = ∑ k : Fin 50000, val_main_v49 (F := Ideal) x0 x1 x2 x3 x4 (ix2 k q)) :
    FloatOps.hostDivf (F := Ideal) (φ := .f32) S1 C = val_main_v52 (F := Ideal) x0 x1 x2 x3 x4 (ix1 q) := by
  rw [hC, hS1]
  exact (ref_mean_apply x0 x1 x2 x3 x4 q).symm

/-- The other program's variance, from its column sum `S1`, its column sum of squares `S2` and its divisor
    `C`, is the reference's, for real-valued inputs. -/
theorem kernel_var_eq_ref
    (hx : ∀ i, ∃ r : ℝ, x0 i = (r : EReal)) (hew : ∀ i, ∃ r : ℝ, x2 i = (r : EReal))
    (hcw : ∀ i, ∃ r : ℝ, x3 i = (r : EReal)) (hcb : ∀ i, ∃ r : ℝ, x4 i = (r : EReal)) (q : Fin 128)
    (S1 S2 C : EReal) (hC : C = Ideal.ofBits .f32 0x47435000#32)
    (hS1 : S1 = ∑ k : Fin 50000, val_main_v49 (F := Ideal) x0 x1 x2 x3 x4 (ix2 k q))
    (hS2 : S2 = ∑ k : Fin 50000, val_main_v49 (F := Ideal) x0 x1 x2 x3 x4 (ix2 k q)
        * val_main_v49 (F := Ideal) x0 x1 x2 x3 x4 (ix2 k q)) :
    FloatOps.subf (F := Ideal) (φ := .f32) (FloatOps.hostDivf S2 C)
        (FloatOps.mulf (FloatOps.hostDivf S1 C) (FloatOps.hostDivf S1 C))
      = val_main_v59 (F := Ideal) x0 x1 x2 x3 x4 (ix1 q) := by
  rw [hC, hS1, hS2]
  exact (ref_var_apply x0 x1 x2 x3 x4 hx hew hcw hcb q).symm

end RefStats

end Cert.Spec

end
-- ==== Proof.Bridge.Main.lean ====
/-
  The kernel program's result is the reference's function of the argument arrays. The first region's output is the
  product of the features with the first weight matrix; the host operations turn it into the activation, the same
  operations as the reference's; the second region's two rows are the activation's column sums and column sums of
  squares; the host stretch after it forms the mean and, as a mean of squares minus the squared mean, the variance,
  which for a finite activation is the reference's mean of squared deviations; the third region then computes, row
  block by row block, the reference's normalised activation times the second weight matrix plus the bias.
-/
import proofs.«181423_j46755013984832_1_alg».proof.Proof.KI.Assembly
import proofs.«181423_j46755013984832_1_alg».proof.Proof.KI.Kept
import proofs.«181423_j46755013984832_1_alg».proof.Proof.Bridge.H0
import proofs.«181423_j46755013984832_1_alg».proof.Proof.Bridge.GlueAlt
import proofs.«181423_j46755013984832_1_alg».proof.Proof.Bridge.Sums
import proofs.«181423_j46755013984832_1_alg».proof.Proof.Bridge.Host2At
import proofs.«181423_j46755013984832_1_alg».proof.Proof.Bridge.Out
import proofs.«181423_j46755013984832_1_alg».proof.Proof.Spec.RefVariance

noncomputable section

namespace Cert.Bridge

open Cert.KernelIdeal Cert.KernelIdeal.Gen Cert.KernelIdeal.Frm
open Idealize.ShloMosaic Idealize.ShloMosaic.TcCoe Idealize.SL.Sem Idealize.ShloMosaic.StableHlo Idealize.ShloMosaic.ValueIdx
open Cert.ReferenceIdeal.Read

variable (m : (ℓ : Loc nD τ sig) → Buf (Elt Ideal) ℓ) (ρ : Dev nD → PrngReg) (c : Dev nD)

/-- The nine argument arrays on core `c`, typed as the reference's stages take them. -/
abbrev A0 : (⟨Cert.ReferenceIdeal.S50000x128, .f32⟩ : BufTy).Contents (Elt Ideal) := m ((c.tc : Thread nD τ).loc main_arg0)
abbrev A1 : (⟨Cert.ReferenceIdeal.S2x800000, .i32⟩ : BufTy).Contents (Elt Ideal) := m ((c.tc : Thread nD τ).loc main_arg1)
abbrev A2 : (⟨Cert.ReferenceIdeal.S800000, .f32⟩ : BufTy).Contents (Elt Ideal) := m ((c.tc : Thread nD τ).loc main_arg2)
abbrev A3 : (⟨Cert.ReferenceIdeal.S128x128, .f32⟩ : BufTy).Contents (Elt Ideal) := m ((c.tc : Thread nD τ).loc main_arg3)
abbrev A4 : (⟨Cert.ReferenceIdeal.S128, .f32⟩ : BufTy).Contents (Elt Ideal) := m ((c.tc : Thread nD τ).loc main_arg4)
abbrev A5 : (⟨Cert.ReferenceIdeal.S128, .f32⟩ : BufTy).Contents (Elt Ideal) := m ((c.tc : Thread nD τ).loc main_arg5)
abbrev A6 : (⟨Cert.ReferenceIdeal.S128, .f32⟩ : BufTy).Contents (Elt Ideal) := m ((c.tc : Thread nD τ).loc main_arg6)
abbrev A7 : (⟨Cert.ReferenceIdeal.S128x3, .f32⟩ : BufTy).Contents (Elt Ideal) := m ((c.tc : Thread nD τ).loc main_arg7)
abbrev A8 : (⟨Cert.ReferenceIdeal.S3, .f32⟩ : BufTy).Contents (Elt Ideal) := m ((c.tc : Thread nD τ).loc main_arg8)

/-- The activation of the reference, as a function of the arguments on core `c`. -/
abbrev act : (⟨Cert.ReferenceIdeal.S50000x128, .f32⟩ : BufTy).Contents (Elt Ideal) :=
  val_main_v49 (F := Ideal) (A0 m c) (A1 m c) (A2 m c) (A3 m c) (A4 m c)

/-- After the first region its output buffer holds the reference's matrix product. -/
theorem product_eq : W1 m ρ c (Proc.devRef .tc main_v0) = val_main_v32 (F := Ideal) (A0 m c) (A3 m c) :=
  (W1_main_v0 m ρ c).trans (h0_eq (U0 m ρ) c)

/-- After the host stretches the second region's input buffer holds the reference's activation. -/
theorem act_eq : W5 m ρ c (Proc.devRef .tc main_v49) = act m c :=
  (act_after (W1 m ρ c)).trans <|
    (congr (congr (congr (congrArg actOf (product_eq m ρ c)) (W1_main_arg1 m ρ c)) (W1_main_arg2 m ρ c))
      (W1_main_arg4 m ρ c)).trans (actOf_product _ _ _ _ _)

/-- The second region's first output row holds the activation's column sums, -/
theorem sum_eq (q : Fin 128) :
    W6 m ρ c (Proc.devRef .tc main_v50_0) (ix2 (0 : Fin 1) q) = ∑ k : Fin 50000, act m c (ix2 k q) :=
  (congrFun (W6_main_v50_0 m ρ c) (ix2 (0 : Fin 1) q)).trans
    (colsum_eq_of (U5 m ρ) c (act m c) (fun i => congrFun (act_eq m ρ c) i) q)

/-- and its second output row the column sums of squares. -/
theorem sumsq_eq (q : Fin 128) :
    W6 m ρ c (Proc.devRef .tc main_v50_1) (ix2 (0 : Fin 1) q) = ∑ k : Fin 50000, act m c (ix2 k q) * act m c (ix2 k q) :=
  (congrFun (W6_main_v50_1 m ρ c) (ix2 (0 : Fin 1) q)).trans
    (colsumsq_eq_of (U5 m ρ) c (act m c) (fun i => congrFun (act_eq m ρ c) i) q)

/-- With every float argument finite, the third region's output array is the reference's result: the mean row and the
    variance row it reads are the reference's (the variance by the law that needs the activation finite), the gain,
    offset and bias rows are the argument vectors, and its row blocks are then the reference's rows. -/
theorem kernel_value
    (hx : ∀ i, ∃ r : ℝ, A0 m c i = (r : EReal)) (hew : ∀ i, ∃ r : ℝ, A2 m c i = (r : EReal))
    (hcw : ∀ i, ∃ r : ℝ, A3 m c i = (r : EReal)) (hcb : ∀ i, ∃ r : ℝ, A4 m c i = (r : EReal)) :
    (dat2 (U7 m ρ) c).arrAt 7 cfg2.N
      = val_main_v78 (F := Ideal) (A0 m c) (A1 m c) (A2 m c) (A3 m c) (A4 m c) (A5 m c) (A6 m c) (A7 m c) (A8 m c) :=
  out_eq (U7 m ρ) c (A0 m c) (A1 m c) (A2 m c) (A3 m c) (A4 m c) (A5 m c) (A6 m c) (A7 m c) (A8 m c)
    (fun i k => congrFun ((W7_main_v49 m ρ c).trans (act_eq m ρ c)) (ix2 i k))
    (fun k => (mean_at (W6 m ρ c) k).trans
      (Cert.Spec.kernel_mean_eq_ref (A0 m c) (A1 m c) (A2 m c) (A3 m c) (A4 m c) k _ _ rfl (sum_eq m ρ c k)))
    (fun k => (var_at (W6 m ρ c) k).trans
      (Cert.Spec.kernel_var_eq_ref (A0 m c) (A1 m c) (A2 m c) (A3 m c) (A4 m c) hx hew hcw hcb k _ _ _ rfl
        (sum_eq m ρ c k) (sumsq_eq m ρ c k)))
    (fun k => (gain_at (W6 m ρ c) k).trans (congrFun (W6_main_arg5 m ρ c) (ix1 k)))
    (fun k => (offset_at (W6 m ρ c) k).trans (congrFun (W6_main_arg6 m ρ c) (ix1 k)))
    (fun k q => congrFun (W7_main_arg7 m ρ c) (ix2 k q))
    (fun q => (bias_at (W6 m ρ c) q).trans (congrFun (W6_main_arg8 m ρ c) (ix1 q)))

end Cert.Bridge

end
-- ==== Proof.lean ====
/-
  The certificate of a graph-convolution layer followed by batch normalisation and a linear layer, computed by
  three kernel regions with host operations between them, against its plain reference.

  Frames. Each kernel program is a chain of segments — region, host stretches, region, host stretch, region. A host
  stretch rewrites only the buffers its operations name; a region rewrites only its output windows' arrays, each
  grid point writing its block back. The first and third region have one control case; the second keeps two running
  rows in scratch memory across its grid points, zeroed at the first point and copied out at the last, and its
  invariant carries them. No segment writes an argument, so every argument array ends as launched. The reference is a
  straight line of host operations and its frame is its run with the result dropped.

  Values, over the extended reals. The first region's row blocks are the rows of the product of the features with the
  first weight matrix, which is the reference's matrix product. The host operations that follow are the reference's
  own, so the activation is the reference's. The second region's rows are the activation's column sums and column sums
  of squares (a sum over 25 blocks of 2000 rows is the sum over all 50000 rows). The kernel forms the variance as the
  mean of squares minus the squared mean, the reference as the mean of squared deviations: equal for a finite
  activation, and the activation is finite because every float argument is (sums, products, guarded reciprocal
  square roots and maxima of finite numbers are finite, whatever the integer edge list holds). With mean and
  variance equal, each row block of the third region is the reference's normalised activation times the second
  weight matrix plus the bias.

  The idealisation rewrote nothing, so its claim is trivial.
-/
import proofs.«181423_j46755013984832_1_alg».proof.Defs
import proofs.«181423_j46755013984832_1_alg».proof.Proof.Gen.Kernel
import proofs.«181423_j46755013984832_1_alg».proof.Proof.Gen.Kernel.Skeleton
import proofs.«181423_j46755013984832_1_alg».proof.Proof.Gen.Kernel.Launch
import proofs.«181423_j46755013984832_1_alg».proof.Proof.Gen.Kernel.Regions
import proofs.«181423_j46755013984832_1_alg».proof.Proof.Gen.Kernel.Points
import proofs.«181423_j46755013984832_1_alg».proof.Proof.Gen.KernelIdeal
import proofs.«181423_j46755013984832_1_alg».proof.Proof.Gen.KernelIdeal.Skeleton
import proofs.«181423_j46755013984832_1_alg».proof.Proof.Gen.KernelIdeal.Launch
import proofs.«181423_j46755013984832_1_alg».proof.Proof.Gen.KernelIdeal.Regions
import proofs.«181423_j46755013984832_1_alg».proof.Proof.Gen.KernelIdeal.Points
import proofs.«181423_j46755013984832_1_alg».proof.Proof.Gen.ReferenceIdeal
import proofs.«181423_j46755013984832_1_alg».proof.Proof.Gen.Pre_finite_inputs
import proofs.«181423_j46755013984832_1_alg».proof.Proof.Gen.ReferenceIdeal.Run
import proofs.«181423_j46755013984832_1_alg».proof.Proof.Gen.ReferenceIdeal.Read
import proofs.«181423_j46755013984832_1_alg».proof.Proof.K.Assembly
import proofs.«181423_j46755013984832_1_alg».proof.Proof.KI.Assembly
import proofs.«181423_j46755013984832_1_alg».proof.Proof.Bridge.Main
import proofs.«181423_j46755013984832_1_alg».proof.Proof.Spec.Finite
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Frm.frame m ρ

/-- So does the idealized kernel program. -/
theorem frame_ki : Cert.frame_KernelIdeal := fun m ρ _ => Cert.KernelIdeal.Frm.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with every float argument finite, both idealized programs end with
    the reference's function of the arguments in their result buffers. -/
theorem algebraic : Cert.algebraic_KernelIdeal_ReferenceIdeal := by
  intro m ρ m' ρ' hpre hagree
  refine ⟨fun c => Cert.ReferenceIdeal.Read.val_main_v78 (F := Ideal) (Cert.Bridge.A0 m c) (Cert.Bridge.A1 m c)
    (Cert.Bridge.A2 m c) (Cert.Bridge.A3 m c) (Cert.Bridge.A4 m c) (Cert.Bridge.A5 m c) (Cert.Bridge.A6 m c)
    (Cert.Bridge.A7 m c) (Cert.Bridge.A8 m c), ?_, ?_⟩
  · refine (θ_run Cert.KernelIdeal.defs _ _).mono (fun r h c => ?_) (Cert.KernelIdeal.Frm.run_result m ρ)
    obtain ⟨h0, h2, h3, h4, -, -, -, -⟩ := Cert.Spec.pre_finite _ _ _ _ _ _ _ _ _ (hpre c)
    exact ⟨(h c).1.trans (Cert.Bridge.kernel_value m ρ c h0 h2 h3 h4), (h c).2⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v78_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
